-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S512 .f32) (main_arg6 : FVec F S512x128 .f32) (main_arg7 : FVec F S128 .f32) (main_arg8 : FVec F S128 .f32) (main_arg9 : FVec F S128 .f32) (main_arg10 : FVec F S128 .f32) (main_arg11 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x512 .f32) (main_arg3 : FVec F S512 .f32) (main_arg4 : FVec F S512 .f32) (main_arg5 : FVec F S512 .f32) (main_arg6 : FVec F S512x128 .f32) (main_arg7 : FVec F S128 .f32) (main_arg8 : FVec F S128 .f32) (main_arg9 : FVec F S128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x512 : Shape := ⟨2, ![1, 512]⟩
abbrev S1x128 : Shape := ⟨2, ![1, 128]⟩
abbrev S50000x512 : Shape := ⟨2, ![50000, 512]⟩
abbrev S2000x128 : Shape := ⟨2, ![2000, 128]⟩
abbrev S2000x512 : Shape := ⟨2, ![2000, 512]⟩
abbrev S2000 : Shape := ⟨1, ![2000]⟩
abbrev S2000x1 : Shape := ⟨2, ![2000, 1]⟩

abbrev nBuf : Space → Nat
  | .hbm => 66
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x512, .f32⟩
  | .hbm, ⟨30, _⟩ => ⟨S1x128, .f32⟩
  | .hbm, ⟨31, _⟩ => ⟨S1x512, .f32⟩
  | .hbm, ⟨32, _⟩ => ⟨S1x512, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S50000x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1x512, .f32⟩
  | .hbm, ⟨42, _⟩ => ⟨S1x512, .f32⟩
  | .hbm, ⟨43, _⟩ => ⟨S_, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S50000x128, .f32⟩
  | .hbm, ⟨52, _⟩ => ⟨S1x128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x512, .f32⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | .local _ .vmem, ⟨8, _⟩ => ⟨S1x512, .f32⟩
  | .local _ .vmem, ⟨9, _⟩ => ⟨S1x512, .f32⟩
  | .local _ .vmem, ⟨10, _⟩ => ⟨S2000x512, .f32⟩
  | .local _ .vmem, ⟨11, _⟩ => ⟨S2000x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev main_v31_2 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem7_0 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S512_S1x512 : S512.ShapeCasts S1x512
  shapeCasts_S128_S1x128 : S128.ShapeCasts S1x128
  inb_S1x512_S1x512_0_0 : ∀ a, (![0, 0] : Fin 2 → Nat) a + S1x512.size a ≤ S1x512.size a
  h_S1x512 : 0 < S1x512.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  reduces_S2000x512_S512 : S2000x512.Reduces [0] S512
  bcast_S_S1x512 : S_.BroadcastsInDim S1x512 (![] : Fin 0 → Fin S1x512.rank)
  inb_S1x128_S1x128_0_0 : ∀ a, (![0, 0] : Fin 2 → Nat) a + S1x128.size a ≤ S1x128.size a
  h_S1x128 : 0 < S1x128.numel
  shapeCasts_S2000x512_S2000x512 : S2000x512.ShapeCasts S2000x512
  inb_S512x128_S512x128_0_0 : ∀ a, (![0, 0] : Fin 2 → Nat) a + S512x128.size a ≤ S512x128.size a
  h_S512x128 : 0 < S512x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .f32 = 32 ∨ (Rect.block (s := S50000x512) S2000x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .f32 = 32 ∨ (Rect.block (s := S512x128) S512x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S2000x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S1x512.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_2) S1x512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S512x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v31_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v31_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S2000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v20) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v21) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v40) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x512 : Shape := ⟨2, ![50000, 512]⟩
abbrev S1x512 : Shape := ⟨2, ![1, 512]⟩
abbrev S1x128 : Shape := ⟨2, ![1, 128]⟩
abbrev S50000 : Shape := ⟨1, ![50000]⟩
abbrev S50000x1 : Shape := ⟨2, ![50000, 1]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S128x512, .f32⟩
  | 3 => ⟨S512, .f32⟩
  | 4 => ⟨S512, .f32⟩
  | 5 => ⟨S512, .f32⟩
  | 6 => ⟨S512x128, .f32⟩
  | 7 => ⟨S128, .f32⟩
  | 8 => ⟨S128, .f32⟩
  | 9 => ⟨S128, .f32⟩
  | 10 => ⟨S128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x128, .f32⟩
  | 30 => ⟨S50000x512, .f32⟩
  | 31 => ⟨S1x512, .f32⟩
  | 32 => ⟨S50000x512, .f32⟩
  | 33 => ⟨S50000x512, .f32⟩
  | 34 => ⟨S_, .f32⟩
  | 35 => ⟨S512, .f32⟩
  | 36 => ⟨S_, .f32⟩
  | 37 => ⟨S512, .f32⟩
  | 38 => ⟨S512, .f32⟩
  | 39 => ⟨S1x512, .f32⟩
  | 40 => ⟨S50000x512, .f32⟩
  | 41 => ⟨S50000x512, .f32⟩
  | 42 => ⟨S50000x512, .f32⟩
  | 43 => ⟨S_, .f32⟩
  | 44 => ⟨S512, .f32⟩
  | 45 => ⟨S_, .f32⟩
  | 46 => ⟨S512, .f32⟩
  | 47 => ⟨S512, .f32⟩
  | 48 => ⟨S1x512, .f32⟩
  | 49 => ⟨S50000x512, .f32⟩
  | 50 => ⟨S50000x512, .f32⟩
  | 51 => ⟨S_, .f32⟩
  | 52 => ⟨S512, .f32⟩
  | 53 => ⟨S512, .f32⟩
  | 54 => ⟨S512, .f32⟩
  | 55 => ⟨S1x512, .f32⟩
  | 56 => ⟨S50000x512, .f32⟩
  | 57 => ⟨S50000x512, .f32⟩
  | 58 => ⟨S1x512, .f32⟩
  | 59 => ⟨S50000x512, .f32⟩
  | 60 => ⟨S50000x512, .f32⟩
  | 61 => ⟨S1x512, .f32⟩
  | 62 => ⟨S50000x512, .f32⟩
  | 63 => ⟨S50000x512, .f32⟩
  | 64 => ⟨S_, .f32⟩
  | 65 => ⟨S50000x512, .f32⟩
  | 66 => ⟨S50000x512, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S50000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S_, .f32⟩
  | 89 => ⟨S128, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S_, .f32⟩
  | 106 => ⟨S50000, .f32⟩
  | 107 => ⟨S50000x1, .f32⟩
  | 108 => ⟨S_, .f32⟩
  | 109 => ⟨S50000x1, .f32⟩
  | 110 => ⟨S50000x1, .f32⟩
  | 111 => ⟨S50000x128, .f32⟩
  | 112 => ⟨S50000x128, .f32⟩
  | 113 => ⟨S50000x128, .f32⟩
  | 114 => ⟨S_, .f32⟩
  | 115 => ⟨S50000, .f32⟩
  | 116 => ⟨S50000x1, .f32⟩
  | 117 => ⟨S_, .f32⟩
  | 118 => ⟨S50000x1, .f32⟩
  | 119 => ⟨S50000x1, .f32⟩
  | 120 => ⟨S50000x128, .f32⟩
  | 121 => ⟨S50000x128, .f32⟩
  | 122 => ⟨S_, .f32⟩
  | 123 => ⟨S50000x1, .f32⟩
  | 124 => ⟨S50000x1, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call1_cst : Ref sig .tc := ⟨.hbm, 101, rfl⟩
abbrev main_call1_v0 : Ref sig .tc := ⟨.hbm, 102, rfl⟩
abbrev main_v74 : Ref sig .tc := ⟨.hbm, 103, rfl⟩
abbrev main_v75 : Ref sig .tc := ⟨.hbm, 104, rfl⟩
abbrev main_cst_11 : Ref sig .tc := ⟨.hbm, 105, rfl⟩
abbrev main_v76 : Ref sig .tc := ⟨.hbm, 106, rfl⟩
abbrev main_v77 : Ref sig .tc := ⟨.hbm, 107, rfl⟩
abbrev main_cst_12 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_13 : Ref sig .tc := ⟨.hbm, 114, rfl⟩
abbrev main_v83 : Ref sig .tc := ⟨.hbm, 115, rfl⟩
abbrev main_v84 : Ref sig .tc := ⟨.hbm, 116, rfl⟩
abbrev main_cst_14 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_15 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S512_d0 : S50000x512.ReducesTo [0] S512
  h_S_ : 0 < S_.numel
  bcast_S_S512 : S_.BroadcastsInDim S512 (![] : Fin 0 → Fin S512.rank)
  bcast_S_S50000x512 : S_.BroadcastsInDim S50000x512 (![] : Fin 0 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x512_S50000x512_1_0_0_1_n_n_wf : DotDims.WF S50000x128 S128x512 S50000x512 [1] [0] [0] [1] [] []
  dot_S50000x512_S512x128_S50000x128_1_0_0_1_n_n_wf : DotDims.WF S50000x512 S512x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KRun.lean ====
/-
  The idealized kernel's whole run with its result named: every weakly fair execution of the
  three pallas_calls and the host operations between them terminates, the arguments end as
  launched, and the result buffer ends at the contents the last region's write-backs leave
  (the fold of buffer contents through the six segments of the program, read at the result).
-/
import proofs.«119975_j1812476199538_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and every argument as launched. -/
theorem run_result : θ_run defs (onTc (τ := τ) (main (F := F))) ⟨m, fun _ => 0, ρ⟩ (fun r => ∀ c : Dev nD,
      r.2.mem ((c.tc : Thread nD τ).loc main_v40) = W6 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v40 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.KRun

end
-- ==== Proof.KRegion0.lean ====
import proofs.«119975_j1812476199538_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

variable {F : FTy → Type} [FloatOps F]

/-! Region 0 (the first affine layer and its column sums): what each control case leaves in the
    three output staging buffers, read back as the body's arithmetic on the input blocks. -/

theorem hz : (![0, 0] : Fin 2 → Nat) = fun _ => 0 := funext fun a => by fin_cases a <;> rfl

/-- The zero row the first point stores into both running sums. -/
abbrev zeroRow : Vec F S1x512 .f32 := broadcast S1x512 (Scalar.ofBits .f32 0x00000000#32)

/-- First point, the block of `z1`: the affine layer of the point's rows. -/
theorem out_A_4 (c : Dev nD) (i : grid0.Coords) (a1 : Memref sig .tc .vmem S2000x128 .f32) (h1 : a1.IsWhole) (a2 : Memref sig .tc .vmem S2000x128 .f32) (h2 : a2.IsWhole) (a3 : Memref sig .tc .vmem S128x512 .f32) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : cond0_0 i) (x0 : Vec F S2000x128 .f32) (x1 : Vec F S2000x128 .f32) (x2 : Vec F S128x512 .f32) (x3 : Vec F S1x512 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, h6.read_unread, h7.read_unread, View.ld_unit_zero (S := S2000x128) hz, View.ld_unit_zero (S := S128x512) hz, View.ld_unit_zero (S := S1x512) hz]

/-- Later points, the block of `z1`: the same. -/
theorem out_B_4 (c : Dev nD) (i : grid0.Coords) (a1 : Memref sig .tc .vmem S2000x128 .f32) (h1 : a1.IsWhole) (a2 : Memref sig .tc .vmem S2000x128 .f32) (h2 : a2.IsWhole) (a3 : Memref sig .tc .vmem S128x512 .f32) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : ¬cond0_0 i) (x0 : Vec F S2000x128 .f32) (x1 : Vec F S2000x128 .f32) (x2 : Vec F S128x512 .f32) (x3 : Vec F S1x512 .f32) (xo5 xo6 : Vec F S1x512 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S2000x128) hz, View.ld_unit_zero (S := S128x512) hz, View.ld_unit_zero (S := S1x512) hz]

/-- Later points, the running column sum: what it held plus this block's column sums. -/
theorem out_B_5 (c : Dev nD) (i : grid0.Coords) (a1 : Memref sig .tc .vmem S2000x128 .f32) (h1 : a1.IsWhole) (a2 : Memref sig .tc .vmem S2000x128 .f32) (h2 : a2.IsWhole) (a3 : Memref sig .tc .vmem S128x512 .f32) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : ¬cond0_0 i) (x0 : Vec F S2000x128 .f32) (x1 : Vec F S2000x128 .f32) (x2 : Vec F S128x512 .f32) (x3 : Vec F S1x512 .f32) (xo5 xo6 : Vec F S1x512 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S2000x128) hz, View.ld_unit_zero (S := S128x512) hz, View.ld_unit_zero (S := S1x512) hz]

/-- Later points, the running column sum of squares. -/
theorem out_B_6 (c : Dev nD) (i : grid0.Coords) (a1 : Memref sig .tc .vmem S2000x128 .f32) (h1 : a1.IsWhole) (a2 : Memref sig .tc .vmem S2000x128 .f32) (h2 : a2.IsWhole) (a3 : Memref sig .tc .vmem S128x512 .f32) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : ¬cond0_0 i) (x0 : Vec F S2000x128 .f32) (x1 : Vec F S2000x128 .f32) (x2 : Vec F S128x512 .f32) (x3 : Vec F S1x512 .f32) (xo5 xo6 : Vec F S1x512 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S2000x128) hz, View.ld_unit_zero (S := S128x512) hz, View.ld_unit_zero (S := S1x512) hz]

/-- First point, the running column sum: the zero row plus this block's column sums. -/
theorem out_A_5 (c : Dev nD) (i : grid0.Coords) (a1 : Memref sig .tc .vmem S2000x128 .f32) (h1 : a1.IsWhole) (a2 : Memref sig .tc .vmem S2000x128 .f32) (h2 : a2.IsWhole) (a3 : Memref sig .tc .vmem S128x512 .f32) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : cond0_0 i) (x0 : Vec F S2000x128 .f32) (x1 : Vec F S2000x128 .f32) (x2 : Vec F S128x512 .f32) (x3 : Vec F S1x512 .f32) :
    out0_A_5 c i a1 h1 a2 h2 a3 h3 a4 h4 a5 h5 a6 h6 a7 h7 hc x0 x1 x2 x3 = k0_pay4 x0 x1 x2 x3 zeroRow := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x512) hz, View.readCov_unit_zero (S := S1x512) _ hz]
  unfold k0_pay1
  simp only [View.readAt_eq_ld, h1.read_unread, h2.read_unread, h3.read_unread, h4.read_unread, h6.read_unread, h7.read_unread, View.ld_unit_zero (S := S2000x128) hz, View.ld_unit_zero (S := S128x512) hz, View.ld_unit_zero (S := S1x512) hz]

/-- First point, the running column sum of squares. -/
theorem out_A_6 (c : Dev nD) (i : grid0.Coords) (a1 : Memref sig .tc .vmem S2000x128 .f32) (h1 : a1.IsWhole) (a2 : Memref sig .tc .vmem S2000x128 .f32) (h2 : a2.IsWhole) (a3 : Memref sig .tc .vmem S128x512 .f32) (h3 : a3.IsWhole) (a4 : Memref sig .tc .vmem S1x512 .f32) (h4 : a4.IsWhole) (a5 : Memref sig .tc .vmem S2000x512 .f32) (h5 : a5.IsWhole) (a6 : Memref sig .tc .vmem S1x512 .f32) (h6 : a6.IsWhole) (a7 : Memref sig .tc .vmem S1x512 .f32) (h7 : a7.IsWhole) (hc : cond0_0 i) (x0 : Vec F S2000x128 .f32) (x1 : Vec F S2000x128 .f32) (x2 : Vec F S128x512 .f32) (x3 : Vec F S1x512 .f32) :
    out0_A_6 c i a1 h1 a2 h2 a3 h3 a4 h4 a5 h5 a6 h6 a7 h7 hc x0 x1 x2 x3 = k0_pay5 x0 x1 x2 x3 zeroRow := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x512) hz, View.readCov_unit_zero (S := S1x512) _ hz]
  unfold k0_pay2
  simp only [View.readAt_eq_ld, h1.read_unread, h2.read_unread, h3.read_unread, h4.read_unread, h6.read_unread, h7.read_unread, View.ld_unit_zero (S := S2000x128) hz, View.ld_unit_zero (S := S128x512) hz, View.ld_unit_zero (S := S1x512) hz]

end Cert.KernelIdeal.R0

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColSum.lean ====
/-
  A sum along the FIRST axis of a matrix read at a column.

  A sublane reduction `multi_reduction <add>` of a [K, b] array along its first axis, from the zero word, read at
  column j over the extended reals, is the sum over k of the entries (k, j).
-/
import proofs.«119975_j1812476199538_1_alg».proof.Proof.LibRowSum

namespace Idealize.ShloMosaic.ValueIdx

open Idealize.ShloMosaic

/-- A sum along the first axis of a [K, b] array, from the zero word, read at column `j`: `∑ k, src (k, j)`. The shape
    fact, the format fact and the accumulator's neutrality are whatever proofs the printed operation carries. -/
theorem multiReduction_add_cols_apply {K b : ℕ} (src : FVec Ideal ⟨2, ![K, b]⟩ .f32)
    (hr : (⟨2, ![K, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 hr hφ hacc (ix1 j) = ∑ k : Fin K, src (ix2 k j) :=
  (Ideal.multiReduction_add_single src _ hr hφ hacc (ix1 j)).trans
    (Finset.sum_congr rfl fun k _ => congrArg src (idx2_ext _ k j rfl rfl))

end Idealize.ShloMosaic.ValueIdx
-- ==== Proof.KRegion0Pay.lean ====
import proofs.«119975_j1812476199538_1_alg».proof.Proof.Gen.KernelIdeal.Frame
import Idealize.ShloMosaic.Lib.Pipeline.Value
import Idealize.ShloMosaic.Lib.Tactic
import proofs.«119975_j1812476199538_1_alg».proof.Proof.KRegion0
import proofs.«119975_j1812476199538_1_alg».proof.Proof.LibDot
import proofs.«119975_j1812476199538_1_alg».proof.Proof.LibColSum
import Idealize.ShloMosaic.Lib.ValueIdx
import Idealize.ShloMosaic.Lib.ValueLayout
import Idealize.ShloMosaic.PureOps.Ideal.Laws
set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

open Idealize.ShloMosaic.ValueIdx

/-! Region 0's arithmetic read at an entry, on the extended reals: the affine layer of a block of
    rows, and the two running column sums after adding that block's contribution. -/

/-- The first product's dimension numbers are the plain rows-by-columns ones. -/
theorem plain0 : Cert.LibDot.Plain dot_S2000x128_S128x512_S2000x512_1_0_0_1_n_n :=
  ⟨rfl, rfl, fun _ _ => rfl, fun _ _ => rfl, fun _ _ => rfl, fun _ _ => rfl⟩

/-- Entry (r, j) of a block of the first affine layer: row r of (x + agg) against column j of the
    weights, plus the bias. -/
theorem pay3_apply (x0 x1 : Vec Ideal S2000x128 .f32) (x2 : Vec Ideal S128x512 .f32) (x3 : Vec Ideal S1x512 .f32)
    (r : Fin 2000) (j : Fin 512) :
    k0_pay3 (F := Ideal) x0 x1 x2 x3 (ix2 r j)
      = (∑ k : Fin 128, (x0 (ix2 r k) + x1 (ix2 r k)) * x2 (ix2 k j)) + x3 (ix2 (0 : Fin 1) j) := by
  unfold k0_pay3
  rw [addf_apply, Cert.LibDot.matmul_ix2 plain0, broadcastTo_1b_ab_apply, shapeCast_self, shapeCast_self]
  rfl

/-- Entry j of a running column sum after a block: what it held plus the block's column sum. -/
theorem pay4_apply (x0 x1 : Vec Ideal S2000x128 .f32) (x2 : Vec Ideal S128x512 .f32) (x3 acc : Vec Ideal S1x512 .f32)
    (j : Fin 512) :
    k0_pay4 (F := Ideal) x0 x1 x2 x3 acc (ix2 (0 : Fin 1) j)
      = acc (ix2 (0 : Fin 1) j) + ∑ r : Fin 2000, k0_pay3 (F := Ideal) x0 x1 x2 x3 (ix2 r j) := by
  unfold k0_pay4
  rw [addf_apply, shapeCast_self, shapeCast_a_1a_apply]
  exact congrArg (acc (ix2 (0 : Fin 1) j) + ·)
    (multiReduction_add_cols_apply (K := 2000) (b := 512) (k0_pay3 (F := Ideal) x0 x1 x2 x3) _ _ _ j)

/-- Entry j of a running column sum of squares after a block. -/
theorem pay5_apply (x0 x1 : Vec Ideal S2000x128 .f32) (x2 : Vec Ideal S128x512 .f32) (x3 acc : Vec Ideal S1x512 .f32)
    (j : Fin 512) :
    k0_pay5 (F := Ideal) x0 x1 x2 x3 acc (ix2 (0 : Fin 1) j)
      = acc (ix2 (0 : Fin 1) j)
        + ∑ r : Fin 2000, k0_pay3 (F := Ideal) x0 x1 x2 x3 (ix2 r j) * k0_pay3 (F := Ideal) x0 x1 x2 x3 (ix2 r j) := by
  unfold k0_pay5
  rw [addf_apply, shapeCast_self, shapeCast_a_1a_apply]
  exact congrArg (acc (ix2 (0 : Fin 1) j) + ·)
    (multiReduction_add_cols_apply (K := 2000) (b := 512)
      (mulf (k0_pay3 (F := Ideal) x0 x1 x2 x3) (k0_pay3 (F := Ideal) x0 x1 x2 x3)) _ _ _ j)

end Cert.KernelIdeal.R0

end
-- ==== Proof.Spec.lean ====
/-
  The mathematics of one residual GIN layer, stated once over plain index types on the extended
  reals: an affine layer, a column mean over the rows, the variance over the rows in its two
  spellings (the centred second moment, and the raw second moment minus the squared mean clamped
  at zero), batch normalisation followed by the positive part, and a row-wise layer normalisation.
  Both programs are read against these functions; the only place where they differ is the
  spelling of the variance.
-/
import Idealize.ShloMosaic.PureOps.Ideal
import Idealize.ShloMosaic.Lib.ValueIdx

noncomputable section

namespace Cert.Spec

open Idealize.ShloMosaic

/-- A rank-2 array of extended reals read as a matrix. -/
def mat {a b : ℕ} (f : (⟨2, ![a, b]⟩ : Shape).Idx → EReal) : Fin a → Fin b → EReal :=
  fun i j => f (ValueIdx.ix2 i j)

/-- A one-row rank-2 array of extended reals read as a vector. -/
def row {b : ℕ} (f : (⟨2, ![1, b]⟩ : Shape).Idx → EReal) : Fin b → EReal :=
  fun j => f (ValueIdx.ix2 (0 : Fin 1) j)

/-- A rank-1 array of extended reals read as a vector. -/
def vec {a : ℕ} (f : (⟨1, ![a]⟩ : Shape).Idx → EReal) : Fin a → EReal :=
  fun j => f (ValueIdx.ix1 j)

/-- An affine layer: row `i` of `h` against column `j` of `W`, plus the bias. -/
def lin {n K M : ℕ} (h : Fin n → Fin K → EReal) (W : Fin K → Fin M → EReal) (b : Fin M → EReal) :
    Fin n → Fin M → EReal :=
  fun i j => (∑ k : Fin K, h i k * W k j) + b j

/-- The mean of column `j` over all rows: the column's sum divided by the row count `cN`. -/
def colMean {n M : ℕ} (cN : EReal) (z : Fin n → Fin M → EReal) : Fin M → EReal :=
  fun j => Ideal.div (∑ i : Fin n, z i j) cN

/-- The variance of column `j` as the mean of the squared deviations from the column mean. -/
def colVar {n M : ℕ} (cN : EReal) (z : Fin n → Fin M → EReal) : Fin M → EReal :=
  fun j => Ideal.div (∑ i : Fin n, (z i j - colMean cN z j) * (z i j - colMean cN z j)) cN

/-- The variance of column `j` as the mean of the squares minus the square of the mean, clamped
    below at zero. -/
def colVarRaw {n M : ℕ} (cN : EReal) (z : Fin n → Fin M → EReal) : Fin M → EReal :=
  fun j => max (Ideal.div (∑ i : Fin n, z i j * z i j) cN - colMean cN z j * colMean cN z j) 0

/-- Batch normalisation with given column statistics, scale and shift, then the positive part. -/
def bnRelu {n M : ℕ} (eps : EReal) (z : Fin n → Fin M → EReal) (mu var g beta : Fin M → EReal) :
    Fin n → Fin M → EReal :=
  fun i j => max (((z i j - mu j) * Ideal.rsqrt (var j + eps)) * g j + beta j) 0

/-- The mean of row `i`: the row's sum divided by the row length `cD`. -/
def rowMean {n M : ℕ} (cD : EReal) (o : Fin n → Fin M → EReal) : Fin n → EReal :=
  fun i => Ideal.div (∑ j : Fin M, o i j) cD

/-- Layer normalisation of each row, with scale and shift. -/
def layerNorm {n M : ℕ} (cD eps : EReal) (o : Fin n → Fin M → EReal) (g beta : Fin M → EReal) :
    Fin n → Fin M → EReal :=
  fun i j => ((o i j - rowMean cD o i)
      * Ideal.rsqrt (Ideal.div (∑ j' : Fin M, (o i j' - rowMean cD o i) * (o i j' - rowMean cD o i)) cD + eps))
    * g j + beta j

/-- The whole layer, given which spelling `V` of the column variance is used: the node features
    plus the aggregated neighbour features, two normalised affine layers, the residual, and the
    layer normalisation. -/
def layer {n D H : ℕ}
    (V : ∀ {M : ℕ}, EReal → (Fin n → Fin M → EReal) → Fin M → EReal)
    (cN cD eps : EReal) (x agg : Fin n → Fin D → EReal)
    (W1 : Fin D → Fin H → EReal) (b1 g1 beta1 : Fin H → EReal)
    (W2 : Fin H → Fin D → EReal) (b2 g2 beta2 lg lb : Fin D → EReal) : Fin n → Fin D → EReal :=
  let z1 := lin (fun i k => x i k + agg i k) W1 b1
  let a1 := bnRelu eps z1 (colMean cN z1) (V cN z1) g1 beta1
  let z2 := lin a1 W2 b2
  let a2 := bnRelu eps z2 (colMean cN z2) (V cN z2) g2 beta2
  layerNorm cD eps (fun i j => a2 i j + x i j) lg lb

/-- The layer with the centred variance. -/
def layerCentred {n D H : ℕ} := @layer n D H (fun {_} cN z => colVar cN z)

/-- The layer with the raw-moment variance. -/
def layerRaw {n D H : ℕ} := @layer n D H (fun {_} cN z => colVarRaw cN z)

end Cert.Spec

end
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.KRegion0Val.lean ====
import proofs.«119975_j1812476199538_1_alg».proof.Proof.Gen.KernelIdeal.Frame
import Idealize.ShloMosaic.Lib.Pipeline.Value
import Idealize.ShloMosaic.Lib.Tactic
import proofs.«119975_j1812476199538_1_alg».proof.Proof.KRegion0Pay
import proofs.«119975_j1812476199538_1_alg».proof.Proof.Spec
import proofs.«119975_j1812476199538_1_alg».proof.Proof.LibSumBlocks
set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

open Idealize.ShloMosaic.ValueIdx

/-! Region 0 as a value: block `t` of the node features and of the aggregated features is rows
    `2000 t … 2000 t + 1999`; the weights and the bias are whole at every point; so block `t` of
    the first affine layer is those rows of one whole-array function, and the two running sums
    after point `n` are the column sums over the rows of blocks `0 … n`. -/

variable (V : (c : Dev nD) → (b : Ref sig .tc) → Buf (Elt Ideal) ((c : Thread nD τ).loc b))

/-- The block index maps over the 25 points: the row-tiled windows sit at block row `t`,
    every other window at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `r` of block `t`, as a row of the whole array. -/
def rowOf (t : Fin cfg0.N) (r : Fin 2000) : Fin 50000 :=
  ⟨t.val * 2000 + r.val, by have := t.isLt; have hN : cfg0.N = 25 := N_0; have := r.isLt; omega⟩

/-- Block `t` of the node features: rows `2000 t + r`. -/
theorem read0 (c : Dev nD) (t : Fin cfg0.N) (r : Fin 2000) (k : Fin 128) :
    (iblk0 V c 0 t : Vec Ideal S2000x128 .f32) (ix2 r k) = V c main_arg0 (ix2 (rowOf t r) k) := by
  unfold iblk0
  rw [View.read_apply]
  show V c main_arg0 (((cfg0.win 0).blk t).view.emb (ix2 r k)) = _
  refine congrArg (V c main_arg0) ?_
  obtain ⟨e0, e1, -⟩ := idx_facts t
  funext a; apply Fin.ext
  match a with
  | ⟨0, _⟩ => show win0_0.index t (0 : Fin 2) * 2000 + 1 * r.val = t.val * 2000 + r.val; rw [e0]; omega
  | ⟨1, _⟩ => show win0_0.index t (1 : Fin 2) * 128 + 1 * k.val = k.val; rw [e1]; omega

/-- Block `t` of the aggregated features: the same rows. -/
theorem read1 (c : Dev nD) (t : Fin cfg0.N) (r : Fin 2000) (k : Fin 128) :
    (iblk0 V c 1 t : Vec Ideal S2000x128 .f32) (ix2 r k) = V c main_v13 (ix2 (rowOf t r) k) := by
  unfold iblk0
  rw [View.read_apply]
  show V c main_v13 (((cfg0.win 1).blk t).view.emb (ix2 r k)) = _
  refine congrArg (V c main_v13) ?_
  obtain ⟨-, -, e0, e1, -⟩ := idx_facts t
  funext a; apply Fin.ext
  match a with
  | ⟨0, _⟩ => show win0_1.index t (0 : Fin 2) * 2000 + 1 * r.val = t.val * 2000 + r.val; rw [e0]; omega
  | ⟨1, _⟩ => show win0_1.index t (1 : Fin 2) * 128 + 1 * k.val = k.val; rw [e1]; omega

/-- The weights are whole at every point. -/
theorem read2 (c : Dev nD) (t : Fin cfg0.N) (k : Fin 128) (j : Fin 512) :
    (iblk0 V c 2 t : Vec Ideal S128x512 .f32) (ix2 k j) = V c main_arg2 (ix2 k j) := by
  unfold iblk0
  rw [View.read_apply]
  show V c main_arg2 (((cfg0.win 2).blk t).view.emb (ix2 k j)) = _
  refine congrArg (V c main_arg2) ?_
  obtain ⟨-, -, -, -, e0, e1, -⟩ := idx_facts t
  funext a; apply Fin.ext
  match a with
  | ⟨0, _⟩ => show win0_2.index t (0 : Fin 2) * 128 + 1 * k.val = k.val; rw [e0]; omega
  | ⟨1, _⟩ => show win0_2.index t (1 : Fin 2) * 512 + 1 * j.val = j.val; rw [e1]; omega

/-- The bias row is whole at every point. -/
theorem read3 (c : Dev nD) (t : Fin cfg0.N) (j : Fin 512) :
    (iblk0 V c 3 t : Vec Ideal S1x512 .f32) (ix2 (0 : Fin 1) j) = V c main_v14 (ix2 (0 : Fin 1) j) := by
  unfold iblk0
  rw [View.read_apply]
  show V c main_v14 (((cfg0.win 3).blk t).view.emb (ix2 (0 : Fin 1) j)) = _
  refine congrArg (V c main_v14) ?_
  obtain ⟨-, -, -, -, -, -, e0, e1, -⟩ := idx_facts t
  funext a; apply Fin.ext
  match a with
  | ⟨0, _⟩ => show win0_3.index t (0 : Fin 2) * 1 + 1 * 0 = 0; rw [e0]
  | ⟨1, _⟩ => show win0_3.index t (1 : Fin 2) * 512 + 1 * j.val = j.val; rw [e1]; omega

/-- The first affine layer of the whole arrays the region finds. -/
def Z1 (c : Dev nD) : Fin 50000 → Fin 512 → EReal :=
  Cert.Spec.lin (fun i k => Cert.Spec.mat (a := 50000) (b := 128) (V c main_arg0) i k + Cert.Spec.mat (a := 50000) (b := 128) (V c main_v13) i k)
    (Cert.Spec.mat (a := 128) (b := 512) (V c main_arg2)) (Cert.Spec.row (b := 512) (V c main_v14))

/-- Block `t` of the layer is rows `2000 t + r` of `Z1`. -/
theorem zblk_apply (c : Dev nD) (t : Fin cfg0.N) (r : Fin 2000) (j : Fin 512) :
    k0_pay3 (F := Ideal) (iblk0 V c 0 t) (iblk0 V c 1 t) (iblk0 V c 2 t) (iblk0 V c 3 t) (ix2 r j) = Z1 V c (rowOf t r) j := by
  refine (pay3_apply (iblk0 V c 0 t) (iblk0 V c 1 t) (iblk0 V c 2 t) (iblk0 V c 3 t) r j).trans ?_
  unfold Z1 Cert.Spec.lin Cert.Spec.mat Cert.Spec.row
  rw [read3 V c t j]
  refine congrArg (· + V c main_v14 (ix2 (0 : Fin 1) j)) (Finset.sum_congr rfl fun k _ => ?_)
  rw [read0 V c t r k, read1 V c t r k, read2 V c t k j]

/-- The running column sum after point `n`. -/
def sum5 (c : Dev nD) : (n : ℕ) → n < cfg0.N → Vec Ideal S1x512 .f32
  | 0, h => k0_pay4 (F := Ideal) (iblk0 V c 0 ⟨0, h⟩) (iblk0 V c 1 ⟨0, h⟩) (iblk0 V c 2 ⟨0, h⟩) (iblk0 V c 3 ⟨0, h⟩) zeroRow
  | n + 1, h => k0_pay4 (F := Ideal) (iblk0 V c 0 ⟨n + 1, h⟩) (iblk0 V c 1 ⟨n + 1, h⟩) (iblk0 V c 2 ⟨n + 1, h⟩) (iblk0 V c 3 ⟨n + 1, h⟩) (sum5 c n (Nat.lt_of_succ_lt h))

/-- The running column sum of squares after point `n`. -/
def sum6 (c : Dev nD) : (n : ℕ) → n < cfg0.N → Vec Ideal S1x512 .f32
  | 0, h => k0_pay5 (F := Ideal) (iblk0 V c 0 ⟨0, h⟩) (iblk0 V c 1 ⟨0, h⟩) (iblk0 V c 2 ⟨0, h⟩) (iblk0 V c 3 ⟨0, h⟩) zeroRow
  | n + 1, h => k0_pay5 (F := Ideal) (iblk0 V c 0 ⟨n + 1, h⟩) (iblk0 V c 1 ⟨n + 1, h⟩) (iblk0 V c 2 ⟨n + 1, h⟩) (iblk0 V c 3 ⟨n + 1, h⟩) (sum6 c n (Nat.lt_of_succ_lt h))

/-- What the three output staging buffers hold after point `n`: that point's block of the layer,
    and the two running sums — by induction on the point. -/
theorem outsAt_eq (c : Dev nD) : ∀ (n : ℕ) (h : n < cfg0.N),
    outsAt0 V c n h = (k0_pay3 (F := Ideal) (iblk0 V c 0 ⟨n, h⟩) (iblk0 V c 1 ⟨n, h⟩) (iblk0 V c 2 ⟨n, h⟩) (iblk0 V c 3 ⟨n, h⟩), sum5 V c n h, sum6 V c n h)
  | 0, h => by
    rw [outsAt0_A V c ⟨0, h⟩ rfl, out_A_4, out_A_5, out_A_6]
    rfl
  | n + 1, h => by
    have hN : cfg0.N = 25 := N_0
    have hB : ¬(⟨n + 1, h⟩ : Fin cfg0.N).val % 25 = 0 := by dsimp only; omega
    rw [outsAt0_B V c ⟨n + 1, h⟩ hB, out_B_4, out_B_5, out_B_6]
    show (_, k0_pay4 _ _ _ _ (outsAt0 V c n _).2.1, k0_pay5 _ _ _ _ (outsAt0 V c n _).2.2) = _
    rw [outsAt_eq c n]
    rfl

end Cert.KernelIdeal.R0

end
-- ==== Proof.KRegion0Fin.lean ====
import proofs.«119975_j1812476199538_1_alg».proof.Proof.Gen.KernelIdeal.Frame
import Idealize.ShloMosaic.Lib.Pipeline.Value
import Idealize.ShloMosaic.Lib.Tactic
import proofs.«119975_j1812476199538_1_alg».proof.Proof.KRegion0Val
set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

open Idealize.ShloMosaic.ValueIdx

/-! Region 0's three result arrays as whole-array functions of what the region finds: the first
    affine layer, its column sums over all 50000 rows, and the column sums of its squares. -/

variable (V : (c : Dev nD) → (b : Ref sig .tc) → Buf (Elt Ideal) ((c : Thread nD τ).loc b))

/-- The sum over the 25 blocks of the sums inside each block is the sum over all rows. -/
theorem blocks_total (f : Fin 50000 → EReal) :
    ∑ t ∈ Finset.range 25, (if ht : t < cfg0.N then ∑ r : Fin 2000, f (rowOf ⟨t, ht⟩ r) else 0) = ∑ i : Fin 50000, f i := by
  have hN : cfg0.N = 25 := N_0
  rw [Cert.LibSumBlocks.sum_blocks 25 2000 50000 rfl f,
    ← Fin.sum_univ_eq_sum_range (fun t => if ht : t < cfg0.N then ∑ r : Fin 2000, f (rowOf ⟨t, ht⟩ r) else 0) 25]
  refine Finset.sum_congr rfl fun t _ => ?_
  rw [dif_pos (by rw [hN]; exact t.isLt)]
  rfl

/-- The running column sum after point `n`, at column `j`: the blocks `0 … n` of the layer summed. -/
theorem sum5_apply (c : Dev nD) : ∀ (n : ℕ) (h : n < cfg0.N) (j : Fin 512),
    sum5 V c n h (ix2 (0 : Fin 1) j)
      = ∑ t ∈ Finset.range (n + 1), (if ht : t < cfg0.N then ∑ r : Fin 2000, Z1 V c (rowOf ⟨t, ht⟩ r) j else 0)
  | 0, h, j => by
    rw [sum5]
    refine (pay4_apply _ _ _ _ zeroRow j).trans ?_
    rw [Finset.sum_range_one, dif_pos h]
    show Ideal.ofBits .f32 0x00000000#32 + _ = _
    rw [Ideal.ofBits_zero_f32, zero_add]
    exact Finset.sum_congr rfl fun r _ => zblk_apply V c ⟨0, h⟩ r j
  | n + 1, h, j => by
    rw [sum5]
    refine (pay4_apply _ _ _ _ _ j).trans ?_
    rw [sum5_apply c n _ j, Finset.sum_range_succ _ (n + 1), dif_pos h]
    exact congrArg (_ + ·) (Finset.sum_congr rfl fun r _ => zblk_apply V c ⟨n + 1, h⟩ r j)

/-- The running column sum of squares after point `n`, at column `j`. -/
theorem sum6_apply (c : Dev nD) : ∀ (n : ℕ) (h : n < cfg0.N) (j : Fin 512),
    sum6 V c n h (ix2 (0 : Fin 1) j)
      = ∑ t ∈ Finset.range (n + 1), (if ht : t < cfg0.N then ∑ r : Fin 2000, Z1 V c (rowOf ⟨t, ht⟩ r) j * Z1 V c (rowOf ⟨t, ht⟩ r) j else 0)
  | 0, h, j => by
    rw [sum6]
    refine (pay5_apply _ _ _ _ zeroRow j).trans ?_
    rw [Finset.sum_range_one, dif_pos h]
    show Ideal.ofBits .f32 0x00000000#32 + _ = _
    rw [Ideal.ofBits_zero_f32, zero_add]
    exact Finset.sum_congr rfl fun r _ => by rw [zblk_apply V c ⟨0, h⟩ r j]
  | n + 1, h, j => by
    rw [sum6]
    refine (pay5_apply _ _ _ _ _ j).trans ?_
    rw [sum6_apply c n _ j, Finset.sum_range_succ _ (n + 1), dif_pos h]
    exact congrArg (_ + ·) (Finset.sum_congr rfl fun r _ => by rw [zblk_apply V c ⟨n + 1, h⟩ r j])

/-- The layer as an array. -/
def G4 (c : Dev nD) : S50000x512.Idx → EReal := fun idx => Z1 V c (idx 0) (idx 1)
/-- Its column sums as a one-row array. -/
def G5 (c : Dev nD) : S1x512.Idx → EReal := fun idx => ∑ i : Fin 50000, Z1 V c i (idx 1)
/-- The column sums of its squares as a one-row array. -/
def G6 (c : Dev nD) : S1x512.Idx → EReal := fun idx => ∑ i : Fin 50000, Z1 V c i (idx 1) * Z1 V c i (idx 1)

/-- What point `t` writes back of the layer is block `t` of `G4`. -/
theorem flushed_eq4 (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4, outsAt_eq]
  obtain ⟨-, -, -, -, -, -, -, -, e0, e1, -⟩ := idx_facts t
  funext y
  rw [View.read_apply]
  show k0_pay3 (F := Ideal) (iblk0 V c 0 t) (iblk0 V c 1 t) (iblk0 V c 2 t) (iblk0 V c 3 t) y = G4 V c (((cfg0.win 4).blk t).view.emb y)
  obtain ⟨r, j, rfl⟩ : ∃ (r : Fin 2000) (j : Fin 512), y = ix2 r j := ⟨y 0, y 1, eq_ix2 y⟩
  refine (zblk_apply V c t r j).trans ?_
  unfold G4
  have h0 : rowOf t r = (((cfg0.win 4).blk t).view.emb (ix2 r j)) 0 := by
    apply Fin.ext
    show t.val * 2000 + r.val = win0_4.index t (0 : Fin 2) * 2000 + 1 * r.val
    rw [e0]; omega
  have h1 : j = (((cfg0.win 4).blk t).view.emb (ix2 r j)) 1 := by
    apply Fin.ext
    show j.val = win0_4.index t (1 : Fin 2) * 512 + 1 * j.val
    rw [e1]; omega
  rw [← h0, ← h1]

/-- An index of the layer's array is in point `t`'s block iff each coordinate is in the block's range. -/
theorem mem_blk4 (t : Fin cfg0.N) (i : S50000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v22_0).slice (win0_4.rect t)).set ↔ _
  rw [View.set_slice_whole, Rect.mem_set_unit]
  exact Iff.rfl

/-- The layer's array after the region. -/
theorem final4 (c : Dev nD) : (dat0 V c).arrAt 4 cfg0.N = G4 V c :=
  (dat0 V c).arrAt_eq_of_cover 4 (G4 V c) (fun t _ => flushed_eq4 V c t) fun i => by
    have hN : cfg0.N = 25 := N_0
    have hi0 : (i 0).val < 50000 := (i 0).isLt
    have hi1 : (i 1).val < 512 := (i 1).isLt
    refine ⟨⟨(i 0).val / 2000, by rw [hN]; omega⟩, flush0_4 _, ?_⟩
    rw [mem_blk4]
    obtain ⟨-, -, -, -, -, -, -, -, e0, e1, -⟩ := idx_facts ⟨(i 0).val / 2000, by rw [hN]; omega⟩
    intro a
    match a with
    | ⟨0, _⟩ => show win0_4.index _ (0 : Fin 2) * 2000 ≤ (i 0).val ∧ (i 0).val < win0_4.index _ (0 : Fin 2) * 2000 + 2000; rw [e0]; dsimp only; omega
    | ⟨1, _⟩ => show win0_4.index _ (1 : Fin 2) * 512 ≤ (i 1).val ∧ (i 1).val < win0_4.index _ (1 : Fin 2) * 512 + 512; rw [e1]; omega

end Cert.KernelIdeal.R0

end
-- ==== Proof.KRegion0Acc.lean ====
import proofs.«119975_j1812476199538_1_alg».proof.Proof.Gen.KernelIdeal.Frame
import Idealize.ShloMosaic.Lib.Pipeline.Value
import Idealize.ShloMosaic.Lib.Tactic
import proofs.«119975_j1812476199538_1_alg».proof.Proof.KRegion0Fin
set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

open Idealize.ShloMosaic.ValueIdx

/-! Region 0's two accumulated rows: each is written back once, after the last point, and that
    one block is the whole array; so each array ends at its running sum after point 24, which is
    the sum over all 50000 rows. -/

variable (V : (c : Dev nD) → (b : Ref sig .tc) → Buf (Elt Ideal) ((c : Thread nD τ).loc b))

theorem t24 : (24 : ℕ) < cfg0.N := by rw [show cfg0.N = 25 from N_0]; decide

/-- The one write-back of window 5, at the last point, is the whole row `G5`. -/
theorem flushed_eq5 (c : Dev nD) (t : Fin cfg0.N) (hf : (cfg0.win 5).flush t = true) :
    (dat0 V c).flushed 5 t = ((cfg0.win 5).blk t).view.read (Elt Ideal) (G5 V c) := by
  have hN : cfg0.N = 25 := N_0
  have h24 : t.val = 24 := by have := (flush0_5 t).mp hf; have := t.isLt; omega
  obtain ⟨-, -, -, -, -, -, -, -, -, -, e0, e1, -⟩ := idx_facts t
  show (cfg0.win 5).cut (grid0.coords t) ((dat0 V c).after 5 t) = _
  rw [after0_5, outsAt_eq]
  have hz' : (fun a => win0_5.index t a * main_v22_1.ty.shape.size a) = fun _ => 0 := by
    funext a
    match a with
    | ⟨0, _⟩ => show win0_5.index t (0 : Fin 2) * 1 = 0; rw [e0]
    | ⟨1, _⟩ => show win0_5.index t (1 : Fin 2) * 512 = 0; rw [e1]
  refine Eq.trans ?_ (Memref.read_access_unit_zero (Elt Ideal) main_v22_1 hz' (fun a => by rw [congrFun hz' a]; simp) (G5 V c)).symm
  funext y
  show sum5 V c t.val t.isLt y = G5 V c y
  obtain ⟨u, j, rfl⟩ : ∃ (u : Fin 1) (j : Fin 512), y = ix2 u j := ⟨y 0, y 1, eq_ix2 y⟩
  obtain rfl : u = 0 := Subsingleton.elim _ _
  refine (sum5_apply V c t.val t.isLt j).trans ?_
  rw [h24]
  show ∑ t' ∈ Finset.range 25, _ = _
  exact blocks_total (fun i => Z1 V c i j)

/-- An index of window 5's array is in point `t`'s block iff each coordinate is in the block's range. -/
theorem mem_blk5 (t : Fin cfg0.N) (i : S1x512.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v22_1).slice (win0_5.rect t)).set ↔ _
  rw [View.set_slice_whole, Rect.mem_set_unit]
  exact Iff.rfl

/-- Window 5's array after the region. -/
theorem final5 (c : Dev nD) : (dat0 V c).arrAt 5 cfg0.N = G5 V c :=
  (dat0 V c).arrAt_eq_of_cover 5 (G5 V c) (flushed_eq5 V c) fun i => by
    refine ⟨⟨24, t24⟩, (flush0_5 _).mpr rfl, ?_⟩
    rw [mem_blk5]
    obtain ⟨-, -, -, -, -, -, -, -, -, -, e0, e1, -⟩ := idx_facts ⟨24, t24⟩
    have hi0 : (i 0).val < 1 := (i 0).isLt
    have hi1 : (i 1).val < 512 := (i 1).isLt
    intro a
    match a with
    | ⟨0, _⟩ => show win0_5.index _ (0 : Fin 2) * 1 ≤ (i 0).val ∧ (i 0).val < win0_5.index _ (0 : Fin 2) * 1 + 1; rw [e0]; omega
    | ⟨1, _⟩ => show win0_5.index _ (1 : Fin 2) * 512 ≤ (i 1).val ∧ (i 1).val < win0_5.index _ (1 : Fin 2) * 512 + 512; rw [e1]; omega

/-- The one write-back of window 6, at the last point, is the whole row `G6`. -/
theorem flushed_eq6 (c : Dev nD) (t : Fin cfg0.N) (hf : (cfg0.win 6).flush t = true) :
    (dat0 V c).flushed 6 t = ((cfg0.win 6).blk t).view.read (Elt Ideal) (G6 V c) := by
  have hN : cfg0.N = 25 := N_0
  have h24 : t.val = 24 := by have := (flush0_6 t).mp hf; have := t.isLt; omega
  obtain ⟨-, -, -, -, -, -, -, -, -, -, -, -, e0, e1⟩ := idx_facts t
  show (cfg0.win 6).cut (grid0.coords t) ((dat0 V c).after 6 t) = _
  rw [after0_6, outsAt_eq]
  have hz' : (fun a => win0_6.index t a * main_v22_2.ty.shape.size a) = fun _ => 0 := by
    funext a
    match a with
    | ⟨0, _⟩ => show win0_6.index t (0 : Fin 2) * 1 = 0; rw [e0]
    | ⟨1, _⟩ => show win0_6.index t (1 : Fin 2) * 512 = 0; rw [e1]
  refine Eq.trans ?_ (Memref.read_access_unit_zero (Elt Ideal) main_v22_2 hz' (fun a => by rw [congrFun hz' a]; simp) (G6 V c)).symm
  funext y
  show sum6 V c t.val t.isLt y = G6 V c y
  obtain ⟨u, j, rfl⟩ : ∃ (u : Fin 1) (j : Fin 512), y = ix2 u j := ⟨y 0, y 1, eq_ix2 y⟩
  obtain rfl : u = 0 := Subsingleton.elim _ _
  refine (sum6_apply V c t.val t.isLt j).trans ?_
  rw [h24]
  show ∑ t' ∈ Finset.range 25, _ = _
  exact blocks_total (fun i => Z1 V c i j * Z1 V c i j)

/-- An index of window 6's array is in point `t`'s block iff each coordinate is in the block's range. -/
theorem mem_blk6 (t : Fin cfg0.N) (i : S1x512.Idx) :
    i ∈ ((cfg0.win 6).blk t).view.set ↔ ∀ a : Fin 2, win0_6.index t a * S1x512.size a ≤ (i a).val ∧ (i a).val < win0_6.index t a * S1x512.size a + S1x512.size a := by
  show i ∈ ((View.whole main_v22_2).slice (win0_6.rect t)).set ↔ _
  rw [View.set_slice_whole, Rect.mem_set_unit]
  exact Iff.rfl

/-- Window 6's array after the region. -/
theorem final6 (c : Dev nD) : (dat0 V c).arrAt 6 cfg0.N = G6 V c :=
  (dat0 V c).arrAt_eq_of_cover 6 (G6 V c) (flushed_eq6 V c) fun i => by
    refine ⟨⟨24, t24⟩, (flush0_6 _).mpr rfl, ?_⟩
    rw [mem_blk6]
    obtain ⟨-, -, -, -, -, -, -, -, -, -, -, -, e0, e1⟩ := idx_facts ⟨24, t24⟩
    have hi0 : (i 0).val < 1 := (i 0).isLt
    have hi1 : (i 1).val < 512 := (i 1).isLt
    intro a
    match a with
    | ⟨0, _⟩ => show win0_6.index _ (0 : Fin 2) * 1 ≤ (i 0).val ∧ (i 0).val < win0_6.index _ (0 : Fin 2) * 1 + 1; rw [e0]; omega
    | ⟨1, _⟩ => show win0_6.index _ (1 : Fin 2) * 512 ≤ (i 1).val ∧ (i 1).val < win0_6.index _ (1 : Fin 2) * 512 + 512; rw [e1]; omega

end Cert.KernelIdeal.R0

end
-- ==== Proof.Agg.lean ====
/-
  The neighbour aggregation both programs begin with: for every edge (s, d) of the edge list the
  feature row of the source node s is added onto row d of a table of zeros (a segment sum of the
  gathered rows by destination). A negative source index is first wrapped by the row count. The
  two programs spell it with the same host operations over their own copies of the shape records;
  the two spellings are the same function, and on real features every entry of it is real.
-/
import proofs.«119975_j1812476199538_1_alg».proof.Proof.Gen.KernelIdeal.Launch
import proofs.«119975_j1812476199538_1_alg».proof.Proof.Gen.ReferenceIdeal.Read
import Idealize.ShloMosaic.Lib.StableHlo.Run
import Idealize.ShloMosaic.Lib.ValueIdx
import Idealize.ShloMosaic.PureOps.Ideal.Laws

noncomputable section

namespace Cert.Agg

open Idealize.ShloMosaic

section Kernel
open Cert.KernelIdeal Cert.KernelIdeal.Facts₀

/-- The aggregation as the kernel's program computes it before its first region, as a function of the
    node features and the edge list. -/
def aggK (x : (⟨S50000x128, .f32⟩ : BufTy).Contents (Elt Ideal))
    (e : (⟨S2x800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![1, 0] e slices_S2x800000_S1x800000_1_0)
        shapeCasts_S1x800000_S800000))
    (Host.gather gather_S50000x128_S800000x1_S800000x128_1_0_n_n_0_1_1128 x
      (broadcastInDim S800000x1 ![0] bcast_S800000_S800000x1_0
        (select
          (cmpi .slt
            (shapeCast S800000 (extractStridedSlice S1x800000 ![0, 0] e slices_S2x800000_S1x800000_0_0)
              shapeCasts_S1x800000_S800000)
            (broadcastInDim S800000 ![] bcast_S_S800000 (constantI S_ 32 0#32)))
          (addi
            (shapeCast S800000 (extractStridedSlice S1x800000 ![0, 0] e slices_S2x800000_S1x800000_0_0)
              shapeCasts_S1x800000_S800000)
            (broadcastInDim S800000 ![] bcast_S_S800000 (constantI S_ 32 50000#32)))
          (shapeCast S800000 (extractStridedSlice S1x800000 ![0, 0] e slices_S2x800000_S1x800000_0_0)
            shapeCasts_S1x800000_S800000))))

end Kernel

section Reference
open Cert.ReferenceIdeal Cert.ReferenceIdeal.Facts₀

/-- The aggregation as the reference program computes it, as a function of the node features and the
    edge list. -/
def aggR (x : (⟨S50000x128, .f32⟩ : BufTy).Contents (Elt Ideal))
    (e : (⟨S2x800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![1, 0] e slices_S2x800000_S1x800000_1_0)
        shapeCasts_S1x800000_S800000))
    (Host.gather gather_S50000x128_S800000x1_S800000x128_1_0_n_n_0_1_1128 x
      (broadcastInDim S800000x1 ![0] bcast_S800000_S800000x1_0
        (select
          (cmpi .slt
            (shapeCast S800000 (extractStridedSlice S1x800000 ![0, 0] e slices_S2x800000_S1x800000_0_0)
              shapeCasts_S1x800000_S800000)
            (broadcastInDim S800000 ![] bcast_S_S800000 (constantI S_ 32 0#32)))
          (addi
            (shapeCast S800000 (extractStridedSlice S1x800000 ![0, 0] e slices_S2x800000_S1x800000_0_0)
              shapeCasts_S1x800000_S800000)
            (broadcastInDim S800000 ![] bcast_S_S800000 (constantI S_ 32 50000#32)))
          (shapeCast S800000 (extractStridedSlice S1x800000 ![0, 0] e slices_S2x800000_S1x800000_0_0)
            shapeCasts_S1x800000_S800000))))

end Reference

/-- The reference program's aggregation stage, as the reading of that program names it, is `aggR`. -/
theorem aggR_spec (x : (⟨Cert.ReferenceIdeal.S50000x128, .f32⟩ : BufTy).Contents (Elt Ideal))
    (e : (⟨Cert.ReferenceIdeal.S2x800000, .i32⟩ : BufTy).Contents (Elt Ideal)) :
    Cert.ReferenceIdeal.Read.val_main_v13 (F := Ideal) x e = aggR x e := rfl

/-- What the kernel's program holds in its aggregation buffer once the host operations before its first
    region have run from contents `W` is `aggK` of the two arguments it reads. -/
theorem aggK_spec (W : Valuation Cert.KernelIdeal.τ Cert.KernelIdeal.sig (Elt Ideal)) :
    StableHlo.after (Cert.KernelIdeal.Gen.hostOps0 (F := Ideal)) W (Proc.devRef .tc Cert.KernelIdeal.main_v13)
      = aggK (W (Proc.devRef .tc Cert.KernelIdeal.main_arg0)) (W (Proc.devRef .tc Cert.KernelIdeal.main_arg1)) := by
  after_results
  rfl

/-- The two programs' aggregations are the same function: their shape records carry the same numbers. -/
theorem aggK_eq_aggR (x : (⟨Cert.KernelIdeal.S50000x128, .f32⟩ : BufTy).Contents (Elt Ideal))
    (e : (⟨Cert.KernelIdeal.S2x800000, .i32⟩ : BufTy).Contents (Elt Ideal)) :
    aggK x e = aggR x e := rfl

end Cert.Agg

end
-- ==== Proof.KHost1.lean ====
/-
  What the first pipelined region finds in its input arrays: the contents of the TensorCore's buffers
  after the host operations that precede it, read at the four input windows' arrays. The node features
  and the first weight matrix are written by no host operation, so they are as launched; the
  aggregation buffer holds the segment sum of the gathered source rows; the first bias, reshaped from
  512 entries to one row of 512, reads at (0, j) the bias at j.
-/
import proofs.«119975_j1812476199538_1_alg».proof.Proof.Gen.KernelIdeal.Frame
import proofs.«119975_j1812476199538_1_alg».proof.Proof.Agg
import proofs.«119975_j1812476199538_1_alg».proof.Proof.Spec
import Idealize.ShloMosaic.Lib.StableHlo.Run
import Idealize.ShloMosaic.Lib.ValueLayout
import Idealize.ShloMosaic.Lib.Pipeline.Value
import Idealize.ShloMosaic.PureOps.Ideal.Laws

noncomputable section

namespace Cert.KernelIdeal.Host

open Cert.KernelIdeal Cert.KernelIdeal.Gen Idealize.ShloMosaic Idealize.ShloMosaic.TcCoe
  Idealize.ShloMosaic.ValueIdx Idealize.SL.Sem

variable (m : (ℓ : Loc nD τ sig) → Buf (Elt Ideal) ℓ) (ρ : Dev nD → PrngReg) (c : Dev nD)

/-- Closes "no operation of the list writes this buffer": the list is spelt out, each operation's written
    buffer is a literal, and the references differ. -/
local macro "not_written" : tactic => `(tactic| (
  refine List.forall_iff_forall_mem.mp ?_
  simp only [hostOps0, hostOps1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- The node features, at the first region's entry, are as launched. -/
theorem v1_arg0 : V1 m ρ c main_arg0 = m ((c : Thread nD τ).loc main_arg0) :=
  (StableHlo.after_of_forall_not_mem (b := Proc.devRef .tc main_arg0) (hostOps0 (F := Ideal)) (W0 m ρ c)
    (by not_written)).trans rfl

/-- The first weight matrix, at the first region's entry, is as launched. -/
theorem v1_arg2 : V1 m ρ c main_arg2 = m ((c : Thread nD τ).loc main_arg2) :=
  (StableHlo.after_of_forall_not_mem (b := Proc.devRef .tc main_arg2) (hostOps0 (F := Ideal)) (W0 m ρ c)
    (by not_written)).trans rfl

/-- The aggregation buffer, at the first region's entry, is the aggregation of the launched node features
    along the launched edge list. -/
theorem v1_v13 : V1 m ρ c main_v13
    = Cert.Agg.aggK (m ((c : Thread nD τ).loc main_arg0)) (m ((c : Thread nD τ).loc main_arg1)) :=
  (Cert.Agg.aggK_spec (W0 m ρ c)).trans rfl

/-- The first bias as one row of 512: entry (0, j) is the launched bias at j. -/
theorem v1_v14 : Cert.Spec.row (b := 512) (V1 m ρ c main_v14)
    = Cert.Spec.vec (a := 512) (m ((c : Thread nD τ).loc main_arg3)) := by
  have e : V1 m ρ c main_v14
      = shapeCast S1x512 (m ((c : Thread nD τ).loc main_arg3)) shapeCasts_S512_S1x512 := by
    show StableHlo.after (hostOps0 (F := Ideal)) (W0 m ρ c) (Proc.devRef .tc main_v14) = _
    after_results
    rfl
  funext j
  unfold Cert.Spec.row Cert.Spec.vec
  rw [e]
  exact shapeCast_a_1a_apply _ shapeCasts_S512_S1x512 0 j

end Cert.KernelIdeal.Host

end
-- ==== Proof.KChain1.lean ====
/-
  The first pallas_call's three result arrays as functions of the program's arguments: the affine
  layer of the node features plus the aggregated neighbour features, its column sums over all
  rows, and the column sums of its squares.
-/
import proofs.«119975_j1812476199538_1_alg».proof.Proof.KRegion0Acc
import proofs.«119975_j1812476199538_1_alg».proof.Proof.KHost1
import proofs.«119975_j1812476199538_1_alg».proof.Proof.Agg
import proofs.«119975_j1812476199538_1_alg».proof.Proof.Spec

set_option maxRecDepth 16384

noncomputable section

open Idealize.ShloMosaic Idealize.ShloMosaic.TcCoe Idealize.SL.Sem
open Idealize.ShloMosaic.ValueIdx

namespace Cert.KernelIdeal.Chain

open Cert.KernelIdeal Cert.KernelIdeal.Gen Cert.Spec

variable (m : (ℓ : Loc nD τ sig) → Buf (Elt Ideal) ℓ) (ρ : Dev nD → PrngReg) (c : Dev nD)

/-- The aggregated neighbour features of the arguments. -/
def agg : Fin 50000 → Fin 128 → EReal :=
  mat (a := 50000) (b := 128) (Cert.Agg.aggK (m ((c : Thread nD τ).loc main_arg0)) (m ((c : Thread nD τ).loc main_arg1)))

/-- The first affine layer of the arguments. -/
def z1 : Fin 50000 → Fin 512 → EReal :=
  lin (fun i k => mat (a := 50000) (b := 128) (m ((c : Thread nD τ).loc main_arg0)) i k + agg m c i k)
    (mat (a := 128) (b := 512) (m ((c : Thread nD τ).loc main_arg2))) (vec (a := 512) (m ((c : Thread nD τ).loc main_arg3)))

/-- What the first region computes from what it finds is that layer of the arguments. -/
theorem Z1_eq : R0.Z1 (V1 m ρ) c = z1 m c := by
  unfold R0.Z1 z1 agg
  rw [Host.v1_arg0 m ρ c, Host.v1_v13 m ρ c, Host.v1_arg2 m ρ c, Host.v1_v14 m ρ c]

/-- The layer's array after the first region. -/
theorem a0_4 : (dat0 (V1 m ρ) c).arrAt 4 cfg0.N = fun idx => z1 m c (idx 0) (idx 1) := by
  rw [R0.final4 (V1 m ρ) c]
  unfold R0.G4
  rw [Z1_eq m ρ c]
  rfl

/-- Its column sums after the first region. -/
theorem a0_5 : (dat0 (V1 m ρ) c).arrAt 5 cfg0.N = fun idx => ∑ i : Fin 50000, z1 m c i (idx 1) := by
  rw [R0.final5 (V1 m ρ) c]
  unfold R0.G5
  rw [Z1_eq m ρ c]
  rfl

/-- The column sums of its squares after the first region. -/
theorem a0_6 : (dat0 (V1 m ρ) c).arrAt 6 cfg0.N = fun idx => ∑ i : Fin 50000, z1 m c i (idx 1) * z1 m c i (idx 1) := by
  rw [R0.final6 (V1 m ρ) c]
  unfold R0.G6
  rw [Z1_eq m ρ c]
  rfl

end Cert.KernelIdeal.Chain

end
-- ==== Proof.KHost3.lean ====
/-
  What the second pipelined region finds in its input arrays: the buffers after the host operations
  between the first and the second region. The first region leaves three output arrays — the first
  affine layer, and one row each of column sums and column sums of squares over all 50000 rows. The
  host divides both rows by the row count (the mean and the raw second moment), subtracts the squared
  mean and clamps at zero (the variance). The remaining inputs are parameters: reshaped to one row
  before the first region and written by nothing since, or (the second weight matrix) as launched.
-/
import proofs.«119975_j1812476199538_1_alg».proof.Proof.Gen.KernelIdeal.Frame
import proofs.«119975_j1812476199538_1_alg».proof.Proof.Agg
import proofs.«119975_j1812476199538_1_alg».proof.Proof.Spec
import Idealize.ShloMosaic.Lib.StableHlo.Run
import Idealize.ShloMosaic.Lib.ValueLayout
import Idealize.ShloMosaic.Lib.Pipeline.Value
import Idealize.ShloMosaic.PureOps.Ideal.Laws

noncomputable section

namespace Cert.KernelIdeal.Host

open Cert.KernelIdeal Cert.KernelIdeal.Gen Idealize.ShloMosaic Idealize.ShloMosaic.TcCoe
  Idealize.ShloMosaic.ValueIdx Idealize.SL.Sem

variable (m : (ℓ : Loc nD τ sig) → Buf (Elt Ideal) ℓ) (ρ : Dev nD → PrngReg) (c : Dev nD)

/-- Closes "no operation of the list writes this buffer": the list is spelt out, each operation's written
    buffer is a literal, and the references differ. -/
local macro "not_written" : tactic => `(tactic| (
  refine List.forall_iff_forall_mem.mp ?_
  simp only [hostOps0, hostOps1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- The first affine layer, as the first region left it, is untouched by the host operations that follow. -/
theorem v3_v22_0 : V3 m ρ c main_v22_0 = (dat0 (V1 m ρ) c).arrAt 4 cfg0.N :=
  (StableHlo.after_of_forall_not_mem (b := Proc.devRef .tc main_v22_0) (hostOps1 (F := Ideal)) (W2 m ρ c)
    (by not_written)).trans (W2_arr m ρ c 4)

/-- The row count as a one-row array of 512 equal entries. -/
abbrev cnt512 : FVec Ideal S1x512 .f32 :=
  broadcastInDim S1x512 ![] bcast_S_S1x512 (constant (F := Ideal) S_ .f32 0x47435000#32)

theorem cnt512_apply (i : S1x512.Idx) : cnt512 i = Ideal.ofBits .f32 0x47435000#32 :=
  broadcastInDim_apply _ bcast_S_S1x512 _ i ix0 (fun a => a.elim0)

/-- Zero as a one-row array of 512 equal entries. -/
abbrev zero512 : FVec Ideal S1x512 .f32 :=
  broadcastInDim S1x512 ![] bcast_S_S1x512 (constant (F := Ideal) S_ .f32 0x00000000#32)

theorem zero512_apply (i : S1x512.Idx) : zero512 i = 0 :=
  (broadcastInDim_apply _ bcast_S_S1x512 _ i ix0 (fun a => a.elim0)).trans Ideal.ofBits_zero_f32

/-- A one-row array of sums divided by the row count, at (0, j). -/
theorem mean_apply (S : S1x512.Idx → EReal) (j : Fin 512) :
    Host.divf (F := Ideal) (s := S1x512) (φ := .f32) S cnt512 (ix2 (0 : Fin 1) j)
      = Ideal.div (S (ix2 (0 : Fin 1) j)) (Ideal.ofBits .f32 0x47435000#32) := by
  show Ideal.div (S (ix2 (0 : Fin 1) j)) (cnt512 (ix2 (0 : Fin 1) j)) = _
  rw [cnt512_apply]

/-- The raw second moment minus the squared mean, clamped below at zero, at (0, j). -/
theorem var_apply (Q M : S1x512.Idx → EReal) (j : Fin 512) :
    maximumf (F := Ideal) (s := S1x512) (φ := .f32)
        (subf (Host.divf (F := Ideal) (s := S1x512) (φ := .f32) Q cnt512) (mulf (F := Ideal) (s := S1x512) (φ := .f32) M M))
        zero512 (ix2 (0 : Fin 1) j)
      = max (Ideal.div (Q (ix2 (0 : Fin 1) j)) (Ideal.ofBits .f32 0x47435000#32)
          - M (ix2 (0 : Fin 1) j) * M (ix2 (0 : Fin 1) j)) 0 := by
  show max (Ideal.div (Q (ix2 (0 : Fin 1) j)) (cnt512 (ix2 (0 : Fin 1) j))
      - M (ix2 (0 : Fin 1) j) * M (ix2 (0 : Fin 1) j)) (zero512 (ix2 (0 : Fin 1) j)) = _
  rw [cnt512_apply, zero512_apply]

/-- The column sums divided by the row count, as the host computes them between the regions. -/
theorem v3_v24_fun : (V3 m ρ c main_v24 : FVec Ideal S1x512 .f32)
    = Host.divf (F := Ideal) (s := S1x512) (φ := .f32) (W2 m ρ c (Proc.devRef .tc main_v22_1)) cnt512 := by
  show StableHlo.after (hostOps1 (F := Ideal)) (W2 m ρ c) (Proc.devRef .tc main_v24) = _
  after_results

/-- The column mean at j: the first region's row of column sums at (0, j), divided by the row count. -/
theorem v3_v24 (j : Fin 512) : Cert.Spec.row (b := 512) (V3 m ρ c main_v24) j
    = Ideal.div ((dat0 (V1 m ρ) c).arrAt 5 cfg0.N (ix2 (0 : Fin 1) j)) (Ideal.ofBits .f32 0x47435000#32) := by
  have h5 : W2 m ρ c (Proc.devRef .tc main_v22_1) = (dat0 (V1 m ρ) c).arrAt 5 cfg0.N := W2_arr m ρ c 5
  unfold Cert.Spec.row
  rw [v3_v24_fun, h5]
  exact mean_apply _ j

/-- The column variances as the host computes them: the raw second moments minus the squared means, clamped at zero. -/
theorem v3_v30_fun : (V3 m ρ c main_v30 : FVec Ideal S1x512 .f32)
    = maximumf (subf (Host.divf (F := Ideal) (s := S1x512) (φ := .f32) (W2 m ρ c (Proc.devRef .tc main_v22_2)) cnt512)
        (mulf (s := S1x512) (φ := .f32) (V3 m ρ c main_v24) (V3 m ρ c main_v24))) zero512 := by
  rw [v3_v24_fun]
  show StableHlo.after (hostOps1 (F := Ideal)) (W2 m ρ c) (Proc.devRef .tc main_v30) = _
  after_results

/-- The column variance at j, in terms of the first region's row of sums of squares and the column mean. -/
theorem v3_v30 (j : Fin 512) : Cert.Spec.row (b := 512) (V3 m ρ c main_v30) j
    = max (Ideal.div ((dat0 (V1 m ρ) c).arrAt 6 cfg0.N (ix2 (0 : Fin 1) j)) (Ideal.ofBits .f32 0x47435000#32)
        - Cert.Spec.row (b := 512) (V3 m ρ c main_v24) j * Cert.Spec.row (b := 512) (V3 m ρ c main_v24) j) 0 := by
  have h6 : W2 m ρ c (Proc.devRef .tc main_v22_2) = (dat0 (V1 m ρ) c).arrAt 6 cfg0.N := W2_arr m ρ c 6
  unfold Cert.Spec.row
  rw [v3_v30_fun, h6]
  exact var_apply _ _ j

/-- A parameter vector reshaped to one row before the first region, untouched since: at the second
    region's entry it is still that reshape of the launched vector. -/
theorem v3_v16_fun : V3 m ρ c main_v16
    = shapeCast S1x512 (m ((c : Thread nD τ).loc main_arg4)) shapeCasts_S512_S1x512 :=
  calc V3 m ρ c main_v16
    _ = W2 m ρ c (Proc.devRef .tc main_v16) :=
        StableHlo.after_of_forall_not_mem (b := Proc.devRef .tc main_v16) (hostOps1 (F := Ideal)) (W2 m ρ c) (by not_written)
    _ = W1 m ρ c (Proc.devRef .tc main_v16) := W2_of_ne m ρ c main_v16 (by decide)
    _ = _ := by
        show StableHlo.after (hostOps0 (F := Ideal)) (W0 m ρ c) (Proc.devRef .tc main_v16) = _
        after_results
        rfl

/-- The first scale vector as one row: entry (0, j) is the launched vector at j. -/
theorem v3_v16 : Cert.Spec.row (b := 512) (V3 m ρ c main_v16)
    = Cert.Spec.vec (a := 512) (m ((c : Thread nD τ).loc main_arg4)) := by
  funext j
  unfold Cert.Spec.row Cert.Spec.vec
  rw [v3_v16_fun]
  exact shapeCast_a_1a_apply _ shapeCasts_S512_S1x512 0 j

/-- The first shift vector, reshaped to one row before the first region and untouched since. -/
theorem v3_v17_fun : V3 m ρ c main_v17
    = shapeCast S1x512 (m ((c : Thread nD τ).loc main_arg5)) shapeCasts_S512_S1x512 :=
  calc V3 m ρ c main_v17
    _ = W2 m ρ c (Proc.devRef .tc main_v17) :=
        StableHlo.after_of_forall_not_mem (b := Proc.devRef .tc main_v17) (hostOps1 (F := Ideal)) (W2 m ρ c) (by not_written)
    _ = W1 m ρ c (Proc.devRef .tc main_v17) := W2_of_ne m ρ c main_v17 (by decide)
    _ = _ := by
        show StableHlo.after (hostOps0 (F := Ideal)) (W0 m ρ c) (Proc.devRef .tc main_v17) = _
        after_results
        rfl

/-- The first shift vector as one row: entry (0, j) is the launched vector at j. -/
theorem v3_v17 : Cert.Spec.row (b := 512) (V3 m ρ c main_v17)
    = Cert.Spec.vec (a := 512) (m ((c : Thread nD τ).loc main_arg5)) := by
  funext j
  unfold Cert.Spec.row Cert.Spec.vec
  rw [v3_v17_fun]
  exact shapeCast_a_1a_apply _ shapeCasts_S512_S1x512 0 j

/-- The second bias, reshaped to one row before the first region and untouched since. -/
theorem v3_v15_fun : V3 m ρ c main_v15
    = shapeCast S1x128 (m ((c : Thread nD τ).loc main_arg7)) shapeCasts_S128_S1x128 :=
  calc V3 m ρ c main_v15
    _ = W2 m ρ c (Proc.devRef .tc main_v15) :=
        StableHlo.after_of_forall_not_mem (b := Proc.devRef .tc main_v15) (hostOps1 (F := Ideal)) (W2 m ρ c) (by not_written)
    _ = W1 m ρ c (Proc.devRef .tc main_v15) := W2_of_ne m ρ c main_v15 (by decide)
    _ = _ := by
        show StableHlo.after (hostOps0 (F := Ideal)) (W0 m ρ c) (Proc.devRef .tc main_v15) = _
        after_results
        rfl

/-- The second bias as one row: entry (0, j) is the launched vector at j. -/
theorem v3_v15 : Cert.Spec.row (b := 128) (V3 m ρ c main_v15)
    = Cert.Spec.vec (a := 128) (m ((c : Thread nD τ).loc main_arg7)) := by
  funext j
  unfold Cert.Spec.row Cert.Spec.vec
  rw [v3_v15_fun]
  exact shapeCast_a_1a_apply _ shapeCasts_S128_S1x128 0 j

/-- The second weight matrix, at the second region's entry, is as launched. -/
theorem v3_arg6 : V3 m ρ c main_arg6 = m ((c : Thread nD τ).loc main_arg6) :=
  calc V3 m ρ c main_arg6
    _ = W2 m ρ c (Proc.devRef .tc main_arg6) :=
        StableHlo.after_of_forall_not_mem (b := Proc.devRef .tc main_arg6) (hostOps1 (F := Ideal)) (W2 m ρ c) (by not_written)
    _ = W1 m ρ c (Proc.devRef .tc main_arg6) := W2_of_ne m ρ c main_arg6 (by decide)
    _ = W0 m ρ c (Proc.devRef .tc main_arg6) :=
        StableHlo.after_of_forall_not_mem (b := Proc.devRef .tc main_arg6) (hostOps0 (F := Ideal)) (W0 m ρ c) (by not_written)
    _ = _ := rfl

end Cert.KernelIdeal.Host

end
-- ==== Proof.KRegion1.lean ====
import proofs.«119975_j1812476199538_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R1

open Cert.KernelIdeal Cert.KernelIdeal.Gen

variable {F : FTy → Type} [FloatOps F]

/-! The second normalised affine layer and its column sums, point by point: what each of the two
    control cases leaves in the three output buffers, read back as the body's arithmetic on the
    input blocks. The block of the second affine layer depends only on the inputs; each running
    sum is what it held (the zero row at the first point) plus the block's contribution. -/

theorem hz : (![0, 0] : Fin 2 → Nat) = fun _ => 0 := funext fun a => by fin_cases a <;> rfl

/-- The zero row the first point stores into both running sums. -/
abbrev zeroRow : Vec F S1x128 .f32 := broadcast S1x128 (Scalar.ofBits .f32 0x00000000#32)

/-- First point, the block of the second affine layer: normalise the block of rows with the given column statistics, take the positive part, multiply by the weights, add the bias. -/
theorem out_A_7 (c : Dev nD) (i : grid1.Coords) (a1 : Memref sig .tc .vmem S2000x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : cond1_0 i) (x0 : Vec F S2000x512 .f32) (x1 x2 x3 x4 : Vec F S1x512 .f32) (x5 : Vec F S512x128 .f32) (x6 : Vec F S1x128 .f32) :
    out1_A_7 c i a1 h1 a2 h2 a3 h3 a4 h4 a5 h5 a6 h6 a7 h7 a8 h8 a9 h9 a10 h10 hc x0 x1 x2 x3 x4 x5 x6 = k1_pay5 x0 x2 x1 x3 x4 x5 x6 := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2000x512) hz, View.ld_unit_zero (S := S1x512) hz, View.ld_unit_zero (S := S512x128) hz, View.ld_unit_zero (S := S1x128) hz, View.ld_unit_zero (S := S2000x128) hz]

/-- Later points, the block of the second affine layer: the same. -/
theorem out_B_7 (c : Dev nD) (i : grid1.Coords) (a1 : Memref sig .tc .vmem S2000x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec F S2000x512 .f32) (x1 x2 x3 x4 : Vec F S1x512 .f32) (x5 : Vec F S512x128 .f32) (x6 : Vec F S1x128 .f32) (xo8 xo9 : Vec F S1x128 .f32) :
    out1_B_7 c i a1 h1 a2 h2 a3 h3 a4 h4 a5 h5 a6 h6 a7 h7 a8 h8 a9 h9 a10 h10 hc x0 x1 x2 x3 x4 x5 x6 xo8 xo9 = k1_pay5 x0 x2 x1 x3 x4 x5 x6 := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2000x512) hz, View.ld_unit_zero (S := S1x512) hz, View.ld_unit_zero (S := S512x128) hz, View.ld_unit_zero (S := S1x128) hz, View.ld_unit_zero (S := S2000x128) hz]

/-- Later points, the running column sum: what it held plus this block's column sums. -/
theorem out_B_8 (c : Dev nD) (i : grid1.Coords) (a1 : Memref sig .tc .vmem S2000x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec F S2000x512 .f32) (x1 x2 x3 x4 : Vec F S1x512 .f32) (x5 : Vec F S512x128 .f32) (x6 : Vec F S1x128 .f32) (xo8 xo9 : Vec F S1x128 .f32) :
    out1_B_8 c i a1 h1 a2 h2 a3 h3 a4 h4 a5 h5 a6 h6 a7 h7 a8 h8 a9 h9 a10 h10 hc x0 x1 x2 x3 x4 x5 x6 xo8 xo9 = k1_pay1 (k1_pay5 x0 x2 x1 x3 x4 x5 x6) xo8 := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2000x512) hz, View.ld_unit_zero (S := S1x512) hz, View.ld_unit_zero (S := S512x128) hz, View.ld_unit_zero (S := S1x128) hz, View.ld_unit_zero (S := S2000x128) hz]

/-- Later points, the running column sum of squares: what it held plus this block's column sums of squares. -/
theorem out_B_9 (c : Dev nD) (i : grid1.Coords) (a1 : Memref sig .tc .vmem S2000x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec F S2000x512 .f32) (x1 x2 x3 x4 : Vec F S1x512 .f32) (x5 : Vec F S512x128 .f32) (x6 : Vec F S1x128 .f32) (xo8 xo9 : Vec F S1x128 .f32) :
    out1_B_9 c i a1 h1 a2 h2 a3 h3 a4 h4 a5 h5 a6 h6 a7 h7 a8 h8 a9 h9 a10 h10 hc x0 x1 x2 x3 x4 x5 x6 xo8 xo9 = k1_pay2 (k1_pay5 x0 x2 x1 x3 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S2000x512) hz, View.ld_unit_zero (S := S1x512) hz, View.ld_unit_zero (S := S512x128) hz, View.ld_unit_zero (S := S1x128) hz, View.ld_unit_zero (S := S2000x128) hz]

/-- First point, the running column sum: the zero row plus this block's column sums. -/
theorem out_A_8 (c : Dev nD) (i : grid1.Coords) (a1 : Memref sig .tc .vmem S2000x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : cond1_0 i) (x0 : Vec F S2000x512 .f32) (x1 x2 x3 x4 : Vec F S1x512 .f32) (x5 : Vec F S512x128 .f32) (x6 : Vec F S1x128 .f32) :
    out1_A_8 c i a1 h1 a2 h2 a3 h3 a4 h4 a5 h5 a6 h6 a7 h7 a8 h8 a9 h9 a10 h10 hc x0 x1 x2 x3 x4 x5 x6 = k1_pay1 (k1_pay5 x0 x2 x1 x3 x4 x5 x6) zeroRow := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  unfold k1_pay3
  simp only [View.readAt_eq_ld, h1.read_unread, h2.read_unread, h3.read_unread, h4.read_unread, h5.read_unread, h6.read_unread, h7.read_unread, h8.read_unread, h9.read_unread, h10.read_unread, View.ld_unit_zero (S := S2000x512) hz, View.ld_unit_zero (S := S1x512) hz, View.ld_unit_zero (S := S512x128) hz, View.ld_unit_zero (S := S1x128) hz, View.ld_unit_zero (S := S2000x128) hz]

/-- First point, the running column sum of squares: the zero row plus this block's column sums of squares. -/
theorem out_A_9 (c : Dev nD) (i : grid1.Coords) (a1 : Memref sig .tc .vmem S2000x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S512x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : cond1_0 i) (x0 : Vec F S2000x512 .f32) (x1 x2 x3 x4 : Vec F S1x512 .f32) (x5 : Vec F S512x128 .f32) (x6 : Vec F S1x128 .f32) :
    out1_A_9 c i a1 h1 a2 h2 a3 h3 a4 h4 a5 h5 a6 h6 a7 h7 a8 h8 a9 h9 a10 h10 hc x0 x1 x2 x3 x4 x5 x6 = k1_pay2 (k1_pay5 x0 x2 x1 x3 x4 x5 x6) zeroRow := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  unfold k1_pay4
  simp only [View.readAt_eq_ld, h1.read_unread, h2.read_unread, h3.read_unread, h4.read_unread, h5.read_unread, h6.read_unread, h7.read_unread, h8.read_unread, h9.read_unread, h10.read_unread, View.ld_unit_zero (S := S2000x512) hz, View.ld_unit_zero (S := S1x512) hz, View.ld_unit_zero (S := S512x128) hz, View.ld_unit_zero (S := S1x128) hz, View.ld_unit_zero (S := S2000x128) hz]

end Cert.KernelIdeal.R1

end
-- ==== Proof.KRegion1Pay.lean ====
import proofs.«119975_j1812476199538_1_alg».proof.Proof.Gen.KernelIdeal.Frame
import Idealize.ShloMosaic.Lib.Pipeline.Value
import Idealize.ShloMosaic.Lib.Tactic
import proofs.«119975_j1812476199538_1_alg».proof.Proof.KRegion1
import proofs.«119975_j1812476199538_1_alg».proof.Proof.LibDot
import proofs.«119975_j1812476199538_1_alg».proof.Proof.LibColSum
import Idealize.ShloMosaic.Lib.ValueIdx
import Idealize.ShloMosaic.Lib.ValueLayout
import Idealize.ShloMosaic.PureOps.Ideal.Laws
set_option maxRecDepth 16384

noncomputable section

open Idealize.ShloMosaic Idealize.ShloMosaic.TcCoe Idealize.SL.Sem
open Idealize.ShloMosaic.Pipeline (Dat)

namespace Cert.KernelIdeal.R1

open Cert.KernelIdeal Cert.KernelIdeal.Gen

open Idealize.ShloMosaic.ValueIdx

/-! The second stage's arithmetic read at an entry, on the extended reals: a block of rows is
    normalised column by column with the given mean and variance rows, scaled, shifted and
    rectified, multiplied by the weights, and the bias row is added; each running column sum
    gains the block's column sums (of the entries, and of their squares). -/

/-- The second product's dimension numbers are the plain rows-by-columns ones. -/
theorem plain1 : Cert.LibDot.Plain dot_S2000x512_S512x128_S2000x128_1_0_0_1_n_n :=
  ⟨rfl, rfl, fun _ _ => rfl, fun _ _ => rfl, fun _ _ => rfl, fun _ _ => rfl⟩

/-- A reciprocal square root taken entry by entry. -/
theorem rsqrt_apply {s : Shape} {φ : FTy} (a : FVec Ideal s φ) (i : s.Idx) :
    rsqrt a i = Ideal.rsqrt (a i) := rfl

/-- Entry (r, j) of a block of the second affine layer: row r of the normalised, rectified block
    against column j of the weights, plus the bias. -/
theorem pay5_apply (x0 : Vec Ideal S2000x512 .f32) (var mu g beta : Vec Ideal S1x512 .f32)
    (w : Vec Ideal S512x128 .f32) (b : Vec Ideal S1x128 .f32) (r : Fin 2000) (j : Fin 128) :
    k1_pay5 (F := Ideal) x0 var mu g beta w b (ix2 r j)
      = (∑ k : Fin 512,
          max (((x0 (ix2 r k) - mu (ix2 (0 : Fin 1) k))
                  * Ideal.rsqrt (var (ix2 (0 : Fin 1) k) + Ideal.ofBits .f32 0x3727C5AC#32))
                * g (ix2 (0 : Fin 1) k) + beta (ix2 (0 : Fin 1) k)) 0
            * w (ix2 k j))
        + b (ix2 (0 : Fin 1) j) := by
  unfold k1_pay5
  simp only [shapeCast_self]
  rw [addf_apply, Cert.LibDot.matmul_ix2 plain1, broadcastTo_1b_ab_apply]
  refine congrArg (· + b (ix2 (0 : Fin 1) j)) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply,
    broadcastTo_1b_ab_apply, rsqrt_apply, addf_apply, broadcast_apply, broadcast_apply]
  simp only [Ideal.ofBits_def, Ideal.ofBits_zero_f32]

/-- Entry j of a running column sum after a block: what it held plus the block's column sum. -/
theorem pay1_apply (z : FVec Ideal S2000x128 .f32) (acc : Vec Ideal S1x128 .f32) (j : Fin 128) :
    k1_pay1 (F := Ideal) z acc (ix2 (0 : Fin 1) j)
      = acc (ix2 (0 : Fin 1) j) + ∑ r : Fin 2000, z (ix2 r j) := by
  unfold k1_pay1
  rw [addf_apply, shapeCast_self, shapeCast_a_1a_apply]
  exact congrArg (acc (ix2 (0 : Fin 1) j) + ·)
    (multiReduction_add_cols_apply (K := 2000) (b := 128) z _ _ _ j)

/-- Entry j of a running column sum of squares after a block. -/
theorem pay2_apply (z : FVec Ideal S2000x128 .f32) (acc : Vec Ideal S1x128 .f32) (j : Fin 128) :
    k1_pay2 (F := Ideal) z acc (ix2 (0 : Fin 1) j)
      = acc (ix2 (0 : Fin 1) j) + ∑ r : Fin 2000, z (ix2 r j) * z (ix2 r j) := by
  unfold k1_pay2
  rw [addf_apply, shapeCast_self, shapeCast_a_1a_apply]
  exact congrArg (acc (ix2 (0 : Fin 1) j) + ·)
    (multiReduction_add_cols_apply (K := 2000) (b := 128) (mulf z z) _ _ _ j)

/-- The zero row is zero at every entry. -/
theorem zeroRow_apply (j : Fin 128) : (zeroRow (F := Ideal)) (ix2 (0 : Fin 1) j) = 0 :=
  Ideal.ofBits_zero_f32

end Cert.KernelIdeal.R1

end
-- ==== Proof.KRegion1Val.lean ====
import proofs.«119975_j1812476199538_1_alg».proof.Proof.Gen.KernelIdeal.Frame
import Idealize.ShloMosaic.Lib.Pipeline.Value
import Idealize.ShloMosaic.Lib.Tactic
import proofs.«119975_j1812476199538_1_alg».proof.Proof.KRegion1Pay
import proofs.«119975_j1812476199538_1_alg».proof.Proof.Spec
import proofs.«119975_j1812476199538_1_alg».proof.Proof.LibSumBlocks
set_option maxRecDepth 16384

noncomputable section

open Idealize.ShloMosaic Idealize.ShloMosaic.TcCoe Idealize.SL.Sem
open Idealize.ShloMosaic.Pipeline (Dat)

namespace Cert.KernelIdeal.R1

open Cert.KernelIdeal Cert.KernelIdeal.Gen

open Idealize.ShloMosaic.ValueIdx

/-! The second stage as a value. Block `t` of the first layer's output is its rows
    `2000 t … 2000 t + 1999`; the statistics rows, the scale and shift rows, the weights and the
    bias are whole at every point. So block `t` of the second affine layer is those rows of one
    whole-array function `Z2`, the write-backs of the 25 points tile the output, and the two
    running sums after the last point are the column sums of `Z2` and of its squares over all
    50000 rows (a sum over the rows is the sum over the blocks of the sums inside each block, in
    any commutative monoid). -/

variable (V : (c : Dev nD) → (b : Ref sig .tc) → Buf (Elt Ideal) ((c : Thread nD τ).loc b))

/-! ## Where each window's block sits -/

theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = 0 ∧ win1_1.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = t.val ∧ win1_7.index t (1 : Fin 2) = 0 :=
  (by decide +kernel : ∀ t : Fin grid1.N, _)
theorem idx8 : ∀ t : Fin cfg1.N, win1_8.index t (0 : Fin 2) = 0 ∧ win1_8.index t (1 : Fin 2) = 0 :=
  (by decide +kernel : ∀ t : Fin grid1.N, _)
theorem idx9 : ∀ t : Fin cfg1.N, win1_9.index t (0 : Fin 2) = 0 ∧ win1_9.index t (1 : Fin 2) = 0 :=
  (by decide +kernel : ∀ t : Fin grid1.N, _)

/-- Row `r` of block `t` (of 25 blocks of 2000 rows), as a row of the whole array. -/
def rowN (t : ℕ) (ht : t < 25) (r : Fin 2000) : Fin 50000 :=
  ⟨t * 2000 + r.val, by have := r.isLt; omega⟩

theorem lt25 (t : Fin cfg1.N) : t.val < 25 := by
  have hN : cfg1.N = 25 := N_1
  have := t.isLt
  omega

/-- Row `r` of the block at point `t`. -/
def rowOf (t : Fin cfg1.N) (r : Fin 2000) : Fin 50000 := rowN t.val (lt25 t) r

/-! ## The input blocks read at an entry -/

/-- Block `t` of the first layer's output: rows `2000 t + r`. -/
theorem read0 (c : Dev nD) (t : Fin cfg1.N) (r : Fin 2000) (k : Fin 512) :
    (iblk1 V c 0 t : Vec Ideal S2000x512 .f32) (ix2 r k) = V c main_v22_0 (ix2 (rowOf t r) k) := by
  unfold iblk1
  rw [View.read_apply]
  show V c main_v22_0 (((cfg1.win 0).blk t).view.emb (ix2 r k)) = _
  refine congrArg (V c main_v22_0) ?_
  obtain ⟨e0, e1⟩ := idx0 t
  funext a; apply Fin.ext
  match a with
  | ⟨0, _⟩ => show win1_0.index t (0 : Fin 2) * 2000 + 1 * r.val = t.val * 2000 + r.val; rw [e0]; omega
  | ⟨1, _⟩ => show win1_0.index t (1 : Fin 2) * 512 + 1 * k.val = k.val; rw [e1]; omega

/-- The row of column means is whole at every point. -/
theorem read1 (c : Dev nD) (t : Fin cfg1.N) (k : Fin 512) :
    (iblk1 V c 1 t : Vec Ideal S1x512 .f32) (ix2 (0 : Fin 1) k) = V c main_v24 (ix2 (0 : Fin 1) k) := by
  unfold iblk1
  rw [View.read_apply]
  show V c main_v24 (((cfg1.win 1).blk t).view.emb (ix2 (0 : Fin 1) k)) = _
  refine congrArg (V c main_v24) ?_
  obtain ⟨e0, e1⟩ := idx1 t
  funext a; apply Fin.ext
  match a with
  | ⟨0, _⟩ => show win1_1.index t (0 : Fin 2) * 1 + 1 * 0 = 0; rw [e0]
  | ⟨1, _⟩ => show win1_1.index t (1 : Fin 2) * 512 + 1 * k.val = k.val; rw [e1]; omega

/-- The row of column variances is whole at every point. -/
theorem read2 (c : Dev nD) (t : Fin cfg1.N) (k : Fin 512) :
    (iblk1 V c 2 t : Vec Ideal S1x512 .f32) (ix2 (0 : Fin 1) k) = V c main_v30 (ix2 (0 : Fin 1) k) := by
  unfold iblk1
  rw [View.read_apply]
  show V c main_v30 (((cfg1.win 2).blk t).view.emb (ix2 (0 : Fin 1) k)) = _
  refine congrArg (V c main_v30) ?_
  obtain ⟨e0, e1⟩ := idx2 t
  funext a; apply Fin.ext
  match a with
  | ⟨0, _⟩ => show win1_2.index t (0 : Fin 2) * 1 + 1 * 0 = 0; rw [e0]
  | ⟨1, _⟩ => show win1_2.index t (1 : Fin 2) * 512 + 1 * k.val = k.val; rw [e1]; omega

/-- The scale row is whole at every point. -/
theorem read3 (c : Dev nD) (t : Fin cfg1.N) (k : Fin 512) :
    (iblk1 V c 3 t : Vec Ideal S1x512 .f32) (ix2 (0 : Fin 1) k) = V c main_v16 (ix2 (0 : Fin 1) k) := by
  unfold iblk1
  rw [View.read_apply]
  show V c main_v16 (((cfg1.win 3).blk t).view.emb (ix2 (0 : Fin 1) k)) = _
  refine congrArg (V c main_v16) ?_
  obtain ⟨e0, e1⟩ := idx3 t
  funext a; apply Fin.ext
  match a with
  | ⟨0, _⟩ => show win1_3.index t (0 : Fin 2) * 1 + 1 * 0 = 0; rw [e0]
  | ⟨1, _⟩ => show win1_3.index t (1 : Fin 2) * 512 + 1 * k.val = k.val; rw [e1]; omega

/-- The shift row is whole at every point. -/
theorem read4 (c : Dev nD) (t : Fin cfg1.N) (k : Fin 512) :
    (iblk1 V c 4 t : Vec Ideal S1x512 .f32) (ix2 (0 : Fin 1) k) = V c main_v17 (ix2 (0 : Fin 1) k) := by
  unfold iblk1
  rw [View.read_apply]
  show V c main_v17 (((cfg1.win 4).blk t).view.emb (ix2 (0 : Fin 1) k)) = _
  refine congrArg (V c main_v17) ?_
  obtain ⟨e0, e1⟩ := idx4 t
  funext a; apply Fin.ext
  match a with
  | ⟨0, _⟩ => show win1_4.index t (0 : Fin 2) * 1 + 1 * 0 = 0; rw [e0]
  | ⟨1, _⟩ => show win1_4.index t (1 : Fin 2) * 512 + 1 * k.val = k.val; rw [e1]; omega

/-- The weights are whole at every point. -/
theorem read5 (c : Dev nD) (t : Fin cfg1.N) (k : Fin 512) (j : Fin 128) :
    (iblk1 V c 5 t : Vec Ideal S512x128 .f32) (ix2 k j) = V c main_arg6 (ix2 k j) := by
  unfold iblk1
  rw [View.read_apply]
  show V c main_arg6 (((cfg1.win 5).blk t).view.emb (ix2 k j)) = _
  refine congrArg (V c main_arg6) ?_
  obtain ⟨e0, e1⟩ := idx5 t
  funext a; apply Fin.ext
  match a with
  | ⟨0, _⟩ => show win1_5.index t (0 : Fin 2) * 512 + 1 * k.val = k.val; rw [e0]; omega
  | ⟨1, _⟩ => show win1_5.index t (1 : Fin 2) * 128 + 1 * j.val = j.val; rw [e1]; omega

/-- The bias row is whole at every point. -/
theorem read6 (c : Dev nD) (t : Fin cfg1.N) (k : Fin 128) :
    (iblk1 V c 6 t : Vec Ideal S1x128 .f32) (ix2 (0 : Fin 1) k) = V c main_v15 (ix2 (0 : Fin 1) k) := by
  unfold iblk1
  rw [View.read_apply]
  show V c main_v15 (((cfg1.win 6).blk t).view.emb (ix2 (0 : Fin 1) k)) = _
  refine congrArg (V c main_v15) ?_
  obtain ⟨e0, e1⟩ := idx6 t
  funext a; apply Fin.ext
  match a with
  | ⟨0, _⟩ => show win1_6.index t (0 : Fin 2) * 1 + 1 * 0 = 0; rw [e0]
  | ⟨1, _⟩ => show win1_6.index t (1 : Fin 2) * 128 + 1 * k.val = k.val; rw [e1]; omega

/-! ## The second affine layer of the whole arrays -/

/-- The second affine layer of the whole arrays the region finds: the first layer's output
    normalised with the given mean and variance rows, scaled, shifted, rectified, multiplied by
    the weights, plus the bias. -/
def Z2 (c : Dev nD) : Fin 50000 → Fin 128 → EReal :=
  Cert.Spec.lin
    (Cert.Spec.bnRelu (Ideal.ofBits .f32 0x3727C5AC#32)
      (Cert.Spec.mat (a := 50000) (b := 512) (V c main_v22_0))
      (Cert.Spec.row (b := 512) (V c main_v24)) (Cert.Spec.row (b := 512) (V c main_v30))
      (Cert.Spec.row (b := 512) (V c main_v16)) (Cert.Spec.row (b := 512) (V c main_v17)))
    (Cert.Spec.mat (a := 512) (b := 128) (V c main_arg6)) (Cert.Spec.row (b := 128) (V c main_v15))

/-- What point `t` computes for the first output: the body's arithmetic on the point's blocks. -/
abbrev blk (c : Dev nD) (t : Fin cfg1.N) : FVec Ideal S2000x128 .f32 :=
  k1_pay5 (F := Ideal) (iblk1 V c 0 t) (iblk1 V c 2 t) (iblk1 V c 1 t) (iblk1 V c 3 t) (iblk1 V c 4 t)
    (iblk1 V c 5 t) (iblk1 V c 6 t)

/-- Block `t` of the layer is rows `2000 t + r` of `Z2`. -/
theorem zblk_apply (c : Dev nD) (t : Fin cfg1.N) (r : Fin 2000) (j : Fin 128) :
    blk V c t (ix2 r j) = Z2 V c (rowOf t r) j := by
  refine (pay5_apply (iblk1 V c 0 t) (iblk1 V c 2 t) (iblk1 V c 1 t) (iblk1 V c 3 t) (iblk1 V c 4 t)
    (iblk1 V c 5 t) (iblk1 V c 6 t) r j).trans ?_
  unfold Z2 Cert.Spec.lin Cert.Spec.bnRelu Cert.Spec.mat Cert.Spec.row
  rw [read6 V c t j]
  refine congrArg (· + V c main_v15 (ix2 (0 : Fin 1) j)) (Finset.sum_congr rfl fun k _ => ?_)
  rw [read0 V c t r k, read1 V c t k, read2 V c t k, read3 V c t k, read4 V c t k, read5 V c t k j]

/-! ## The three output buffers after each point -/

/-- The running column sum after point `n`. -/
def sum8 (c : Dev nD) : (n : ℕ) → n < cfg1.N → Vec Ideal S1x128 .f32
  | 0, h => k1_pay1 (F := Ideal) (blk V c ⟨0, h⟩) zeroRow
  | n + 1, h => k1_pay1 (F := Ideal) (blk V c ⟨n + 1, h⟩) (sum8 c n (Nat.lt_of_succ_lt h))

/-- The running column sum of squares after point `n`. -/
def sum9 (c : Dev nD) : (n : ℕ) → n < cfg1.N → Vec Ideal S1x128 .f32
  | 0, h => k1_pay2 (F := Ideal) (blk V c ⟨0, h⟩) zeroRow
  | n + 1, h => k1_pay2 (F := Ideal) (blk V c ⟨n + 1, h⟩) (sum9 c n (Nat.lt_of_succ_lt h))

/-- What the three output staging buffers hold after point `n`: that point's block of the layer,
    and the two running sums — by induction on the point. -/
theorem outsAt_eq (c : Dev nD) : ∀ (n : ℕ) (h : n < cfg1.N),
    outsAt1 V c n h = (blk V c ⟨n, h⟩, sum8 V c n h, sum9 V c n h)
  | 0, h => by
    rw [outsAt1_A V c ⟨0, h⟩ rfl, out_A_7, out_A_8, out_A_9]
    rfl
  | n + 1, h => by
    have hN : cfg1.N = 25 := N_1
    have hB : ¬(⟨n + 1, h⟩ : Fin cfg1.N).val % 25 = 0 := by dsimp only; omega
    rw [outsAt1_B V c ⟨n + 1, h⟩ hB, out_B_7, out_B_8, out_B_9]
    show (_, k1_pay1 _ (outsAt1 V c n _).2.1, k1_pay2 _ (outsAt1 V c n _).2.2) = _
    rw [outsAt_eq c n]
    rfl

/-! ## The running sums in closed form -/

/-- The column sum of `Z2` over the rows of block `t`. -/
def colSum (c : Dev nD) (j : Fin 128) (t : ℕ) (ht : t < 25) : EReal :=
  ∑ r : Fin 2000, Z2 V c (rowN t ht r) j

/-- The column sum of the squares of `Z2` over the rows of block `t`. -/
def colSumSq (c : Dev nD) (j : Fin 128) (t : ℕ) (ht : t < 25) : EReal :=
  ∑ r : Fin 2000, Z2 V c (rowN t ht r) j * Z2 V c (rowN t ht r) j

theorem lt25' {n : ℕ} (h : n < cfg1.N) (t : Fin (n + 1)) : t.val < 25 := by
  have hN : cfg1.N = 25 := N_1
  have := t.isLt
  omega

/-- After point `n` the running column sum is the sum of the block sums of blocks `0 … n`. -/
theorem sum8_apply (c : Dev nD) (j : Fin 128) : ∀ (n : ℕ) (h : n < cfg1.N),
    sum8 V c n h (ix2 (0 : Fin 1) j) = ∑ t : Fin (n + 1), colSum V c j t.val (lt25' h t)
  | 0, h => by
    show k1_pay1 (F := Ideal) (blk V c ⟨0, h⟩) zeroRow (ix2 (0 : Fin 1) j) = _
    rw [pay1_apply, zeroRow_apply]
    refine Eq.trans ?_ (Fin.sum_univ_castSucc (fun t : Fin (0 + 1) => colSum V c j t.val (lt25' h t))).symm
    rw [Fin.sum_univ_zero]
    refine congrArg₂ (· + ·) rfl ?_
    exact Finset.sum_congr rfl fun r _ => zblk_apply V c ⟨0, h⟩ r j
  | n + 1, h => by
    show k1_pay1 (F := Ideal) (blk V c ⟨n + 1, h⟩) (sum8 V c n _) (ix2 (0 : Fin 1) j) = _
    rw [pay1_apply, sum8_apply c j n]
    refine Eq.trans ?_ (Fin.sum_univ_castSucc (fun t : Fin (n + 1 + 1) => colSum V c j t.val (lt25' h t))).symm
    refine congrArg₂ (· + ·) rfl ?_
    exact Finset.sum_congr rfl fun r _ => zblk_apply V c ⟨n + 1, h⟩ r j

/-- After point `n` the running column sum of squares is the sum of the block sums of squares. -/
theorem sum9_apply (c : Dev nD) (j : Fin 128) : ∀ (n : ℕ) (h : n < cfg1.N),
    sum9 V c n h (ix2 (0 : Fin 1) j) = ∑ t : Fin (n + 1), colSumSq V c j t.val (lt25' h t)
  | 0, h => by
    show k1_pay2 (F := Ideal) (blk V c ⟨0, h⟩) zeroRow (ix2 (0 : Fin 1) j) = _
    rw [pay2_apply, zeroRow_apply]
    refine Eq.trans ?_ (Fin.sum_univ_castSucc (fun t : Fin (0 + 1) => colSumSq V c j t.val (lt25' h t))).symm
    rw [Fin.sum_univ_zero]
    refine congrArg₂ (· + ·) rfl ?_
    exact Finset.sum_congr rfl fun r _ => by rw [zblk_apply V c ⟨0, h⟩ r j]; rfl
  | n + 1, h => by
    show k1_pay2 (F := Ideal) (blk V c ⟨n + 1, h⟩) (sum9 V c n _) (ix2 (0 : Fin 1) j) = _
    rw [pay2_apply, sum9_apply c j n]
    refine Eq.trans ?_ (Fin.sum_univ_castSucc (fun t : Fin (n + 1 + 1) => colSumSq V c j t.val (lt25' h t))).symm
    refine congrArg₂ (· + ·) rfl ?_
    exact Finset.sum_congr rfl fun r _ => by rw [zblk_apply V c ⟨n + 1, h⟩ r j]; rfl

theorem h24 : (24 : ℕ) < cfg1.N := by
  have hN : cfg1.N = 25 := N_1
  omega

/-- After the last point the running column sum is the column sum over all 50000 rows. -/
theorem total8 (c : Dev nD) (j : Fin 128) :
    sum8 V c 24 h24 (ix2 (0 : Fin 1) j) = ∑ i : Fin 50000, Z2 V c i j := by
  rw [sum8_apply, Cert.LibSumBlocks.sum_blocks 25 2000 50000 rfl (fun i => Z2 V c i j)]
  rfl

/-- After the last point the running column sum of squares is the one over all 50000 rows. -/
theorem total9 (c : Dev nD) (j : Fin 128) :
    sum9 V c 24 h24 (ix2 (0 : Fin 1) j) = ∑ i : Fin 50000, Z2 V c i j * Z2 V c i j := by
  rw [sum9_apply, Cert.LibSumBlocks.sum_blocks 25 2000 50000 rfl (fun i => Z2 V c i j * Z2 V c i j)]
  rfl

theorem sum8_congr (c : Dev nD) {n n' : ℕ} (e : n = n') (h : n < cfg1.N) (h' : n' < cfg1.N) :
    sum8 V c n h = sum8 V c n' h' := by subst e; rfl

theorem sum9_congr (c : Dev nD) {n n' : ℕ} (e : n = n') (h : n < cfg1.N) (h' : n' < cfg1.N) :
    sum9 V c n h = sum9 V c n' h' := by subst e; rfl

/-! ## The first output: every point writes its block back, and the blocks tile the array -/

/-- What point `t` writes back to the first output is block `t` of `Z2`. -/
theorem flushed7_eq (c : Dev nD) (t : Fin cfg1.N) :
    (dat1 V c).flushed 7 t
      = ((cfg1.win 7).blk t).view.read (Elt Ideal) (fun idx => Z2 V c (idx 0) (idx 1)) := by
  show (cfg1.win 7).cut (grid1.coords t) ((dat1 V c).after 7 t) = _
  rw [after1_7, outsAt_eq]
  funext y
  rw [View.read_apply]
  obtain ⟨r, j, rfl⟩ : ∃ (r : Fin 2000) (j : Fin 128), y = ix2 r j := ⟨y 0, y 1, eq_ix2 y⟩
  show blk V c t (ix2 r j)
    = Z2 V c ((((cfg1.win 7).blk t).view.emb (ix2 r j)) 0) ((((cfg1.win 7).blk t).view.emb (ix2 r j)) 1)
  obtain ⟨e0, e1⟩ := idx7 t
  have er : (((cfg1.win 7).blk t).view.emb (ix2 r j)) 0 = rowOf t r := by
    apply Fin.ext
    show win1_7.index t (0 : Fin 2) * 2000 + 1 * r.val = t.val * 2000 + r.val
    rw [e0]; omega
  have ej : (((cfg1.win 7).blk t).view.emb (ix2 r j)) 1 = j := by
    apply Fin.ext
    show win1_7.index t (1 : Fin 2) * 128 + 1 * j.val = j.val
    rw [e1]; omega
  rw [er, ej]
  exact zblk_apply V c t r j

/-- An index of the first output is in point `t`'s block iff each coordinate is in its range. -/
theorem mem_blk7 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v31_0).slice (win1_7.rect t)).set ↔ _
  rw [View.set_slice_whole, Rect.mem_set_unit]
  exact Iff.rfl

/-- The first output after the run is `Z2`. -/
theorem final7 (c : Dev nD) :
    (dat1 V c).arrAt 7 cfg1.N = fun idx => Z2 V c (idx 0) (idx 1) :=
  (dat1 V c).arrAt_eq_of_cover 7 (fun idx => Z2 V c (idx 0) (idx 1)) (fun t _ => flushed7_eq V c t) fun i => by
    have hi0 : (i 0).val < 50000 := (i 0).isLt
    have hi1 : (i 1).val < 128 := (i 1).isLt
    have hN : cfg1.N = 25 := N_1
    have hq : (i 0).val / 2000 < cfg1.N := by omega
    obtain ⟨e0, e1⟩ := idx7 ⟨(i 0).val / 2000, hq⟩
    refine ⟨⟨(i 0).val / 2000, hq⟩, flush1_7 _, ?_⟩
    rw [mem_blk7]
    intro a
    match a with
    | ⟨0, _⟩ =>
      show win1_7.index ⟨(i 0).val / 2000, hq⟩ (0 : Fin 2) * 2000 ≤ (i 0).val
        ∧ (i 0).val < win1_7.index ⟨(i 0).val / 2000, hq⟩ (0 : Fin 2) * 2000 + 2000
      rw [e0]; dsimp only; omega
    | ⟨1, _⟩ =>
      show win1_7.index ⟨(i 0).val / 2000, hq⟩ (1 : Fin 2) * 128 ≤ (i 1).val
        ∧ (i 1).val < win1_7.index ⟨(i 0).val / 2000, hq⟩ (1 : Fin 2) * 128 + 128
      rw [e1]; omega

end Cert.KernelIdeal.R1

end
-- ==== Proof.KRegion1Sums.lean ====
import proofs.«119975_j1812476199538_1_alg».proof.Proof.Gen.KernelIdeal.Frame
import Idealize.ShloMosaic.Lib.Pipeline.Value
import Idealize.ShloMosaic.Lib.Tactic
import proofs.«119975_j1812476199538_1_alg».proof.Proof.KRegion1Val
set_option maxRecDepth 16384

noncomputable section

open Idealize.ShloMosaic Idealize.ShloMosaic.TcCoe Idealize.SL.Sem
open Idealize.ShloMosaic.Pipeline (Dat)

namespace Cert.KernelIdeal.R1

open Cert.KernelIdeal Cert.KernelIdeal.Gen

open Idealize.ShloMosaic.ValueIdx

/-! The second stage's two accumulated rows. Each is written back once, after the last point, and
    that one block is the whole one-row array; so each array ends at its running sum after
    point 24, which is the sum over all 50000 rows. -/

variable (V : (c : Dev nD) → (b : Ref sig .tc) → Buf (Elt Ideal) ((c : Thread nD τ).loc b))

/-! ## The running column sums: written back once, after the last point -/

/-- The column sums of `Z2` over all 50000 rows, as a one-row array. -/
abbrev G8 (c : Dev nD) : S1x128.Idx → EReal := fun idx => ∑ i : Fin 50000, Z2 V c i (idx 1)

/-- The one write-back of the column sums, at the last point, writes the sums over all rows: the
    block is the whole one-row array, and the running sum after point 24 is the total. -/
theorem flushed8_eq (c : Dev nD) (t : Fin cfg1.N) (hf : (cfg1.win 8).flush t = true) :
    (dat1 V c).flushed 8 t = ((cfg1.win 8).blk t).view.read (Elt Ideal) (G8 V c) := by
  have hN : cfg1.N = 25 := N_1
  have ht : t.val = 24 := by have := (flush1_8 t).mp hf; have := t.isLt; omega
  obtain ⟨e0, e1⟩ := idx8 t
  show (cfg1.win 8).cut (grid1.coords t) ((dat1 V c).after 8 t) = _
  rw [after1_8, outsAt_eq]
  have hz' : (fun a => win1_8.index t a * main_v31_1.ty.shape.size a) = fun _ => 0 := by
    funext a
    match a with
    | ⟨0, _⟩ => show win1_8.index t (0 : Fin 2) * 1 = 0; rw [e0]
    | ⟨1, _⟩ => show win1_8.index t (1 : Fin 2) * 128 = 0; rw [e1]
  refine Eq.trans ?_ (Memref.read_access_unit_zero (Elt Ideal) main_v31_1 hz'
    (fun a => by rw [congrFun hz' a]; simp) (G8 V c)).symm
  funext y
  show sum8 V c t.val t.isLt y = G8 V c y
  obtain ⟨u, j, rfl⟩ : ∃ (u : Fin 1) (j : Fin 128), y = ix2 u j := ⟨y 0, y 1, eq_ix2 y⟩
  obtain rfl : u = 0 := Subsingleton.elim _ _
  rw [sum8_congr V c ht t.isLt h24]
  exact total8 V c j

/-- An index of this output is in point `t`'s block iff each coordinate is in its range. -/
theorem mem_blk8 (t : Fin cfg1.N) (i : S1x128.Idx) :
    i ∈ ((cfg1.win 8).blk t).view.set ↔ ∀ a : Fin 2, win1_8.index t a * S1x128.size a ≤ (i a).val
      ∧ (i a).val < win1_8.index t a * S1x128.size a + S1x128.size a := by
  show i ∈ ((View.whole main_v31_1).slice (win1_8.rect t)).set ↔ _
  rw [View.set_slice_whole, Rect.mem_set_unit]
  exact Iff.rfl

/-- This output after the run: the column sums of `Z2` over all 50000 rows. -/
theorem final8 (c : Dev nD) : (dat1 V c).arrAt 8 cfg1.N = G8 V c :=
  (dat1 V c).arrAt_eq_of_cover 8 (G8 V c) (flushed8_eq V c) fun i => by
    have hi0 : (i 0).val < 1 := (i 0).isLt
    have hi1 : (i 1).val < 128 := (i 1).isLt
    obtain ⟨e0, e1⟩ := idx8 ⟨24, h24⟩
    refine ⟨⟨24, h24⟩, (flush1_8 _).mpr rfl, ?_⟩
    rw [mem_blk8]
    intro a
    match a with
    | ⟨0, _⟩ =>
      show win1_8.index ⟨24, h24⟩ (0 : Fin 2) * 1 ≤ (i 0).val
        ∧ (i 0).val < win1_8.index ⟨24, h24⟩ (0 : Fin 2) * 1 + 1
      rw [e0]; omega
    | ⟨1, _⟩ =>
      show win1_8.index ⟨24, h24⟩ (1 : Fin 2) * 128 ≤ (i 1).val
        ∧ (i 1).val < win1_8.index ⟨24, h24⟩ (1 : Fin 2) * 128 + 128
      rw [e1]; omega

/-! ## The running column sums of squares: written back once, after the last point -/

/-- The column sums of squares of `Z2` over all 50000 rows, as a one-row array. -/
abbrev G9 (c : Dev nD) : S1x128.Idx → EReal := fun idx => ∑ i : Fin 50000, Z2 V c i (idx 1) * Z2 V c i (idx 1)

/-- The one write-back of the column sums of squares, at the last point, writes the sums over all rows: the
    block is the whole one-row array, and the running sum after point 24 is the total. -/
theorem flushed9_eq (c : Dev nD) (t : Fin cfg1.N) (hf : (cfg1.win 9).flush t = true) :
    (dat1 V c).flushed 9 t = ((cfg1.win 9).blk t).view.read (Elt Ideal) (G9 V c) := by
  have hN : cfg1.N = 25 := N_1
  have ht : t.val = 24 := by have := (flush1_9 t).mp hf; have := t.isLt; omega
  obtain ⟨e0, e1⟩ := idx9 t
  show (cfg1.win 9).cut (grid1.coords t) ((dat1 V c).after 9 t) = _
  rw [after1_9, outsAt_eq]
  have hz' : (fun a => win1_9.index t a * main_v31_2.ty.shape.size a) = fun _ => 0 := by
    funext a
    match a with
    | ⟨0, _⟩ => show win1_9.index t (0 : Fin 2) * 1 = 0; rw [e0]
    | ⟨1, _⟩ => show win1_9.index t (1 : Fin 2) * 128 = 0; rw [e1]
  refine Eq.trans ?_ (Memref.read_access_unit_zero (Elt Ideal) main_v31_2 hz'
    (fun a => by rw [congrFun hz' a]; simp) (G9 V c)).symm
  funext y
  show sum9 V c t.val t.isLt y = G9 V c y
  obtain ⟨u, j, rfl⟩ : ∃ (u : Fin 1) (j : Fin 128), y = ix2 u j := ⟨y 0, y 1, eq_ix2 y⟩
  obtain rfl : u = 0 := Subsingleton.elim _ _
  rw [sum9_congr V c ht t.isLt h24]
  exact total9 V c j

/-- An index of this output is in point `t`'s block iff each coordinate is in its range. -/
theorem mem_blk9 (t : Fin cfg1.N) (i : S1x128.Idx) :
    i ∈ ((cfg1.win 9).blk t).view.set ↔ ∀ a : Fin 2, win1_9.index t a * S1x128.size a ≤ (i a).val
      ∧ (i a).val < win1_9.index t a * S1x128.size a + S1x128.size a := by
  show i ∈ ((View.whole main_v31_2).slice (win1_9.rect t)).set ↔ _
  rw [View.set_slice_whole, Rect.mem_set_unit]
  exact Iff.rfl

/-- This output after the run: the column sums of squares of `Z2` over all 50000 rows. -/
theorem final9 (c : Dev nD) : (dat1 V c).arrAt 9 cfg1.N = G9 V c :=
  (dat1 V c).arrAt_eq_of_cover 9 (G9 V c) (flushed9_eq V c) fun i => by
    have hi0 : (i 0).val < 1 := (i 0).isLt
    have hi1 : (i 1).val < 128 := (i 1).isLt
    obtain ⟨e0, e1⟩ := idx9 ⟨24, h24⟩
    refine ⟨⟨24, h24⟩, (flush1_9 _).mpr rfl, ?_⟩
    rw [mem_blk9]
    intro a
    match a with
    | ⟨0, _⟩ =>
      show win1_9.index ⟨24, h24⟩ (0 : Fin 2) * 1 ≤ (i 0).val
        ∧ (i 0).val < win1_9.index ⟨24, h24⟩ (0 : Fin 2) * 1 + 1
      rw [e0]; omega
    | ⟨1, _⟩ =>
      show win1_9.index ⟨24, h24⟩ (1 : Fin 2) * 128 ≤ (i 1).val
        ∧ (i 1).val < win1_9.index ⟨24, h24⟩ (1 : Fin 2) * 128 + 128
      rw [e1]; omega

end Cert.KernelIdeal.R1

end
-- ==== Proof.KChain3.lean ====
/-
  The second pallas_call's three result arrays as functions of the program's arguments: the first
  layer batch-normalised with the raw-moment statistics of its own columns, the positive part, the
  second affine layer; then that matrix's column sums and the column sums of its squares.
-/
import proofs.«119975_j1812476199538_1_alg».proof.Proof.KChain1
import proofs.«119975_j1812476199538_1_alg».proof.Proof.KHost3
import proofs.«119975_j1812476199538_1_alg».proof.Proof.KRegion1Sums

set_option maxRecDepth 16384

noncomputable section

open Idealize.ShloMosaic Idealize.ShloMosaic.TcCoe Idealize.SL.Sem
open Idealize.ShloMosaic.ValueIdx

namespace Cert.KernelIdeal.Chain

open Cert.KernelIdeal Cert.KernelIdeal.Gen Cert.Spec

variable (m : (ℓ : Loc nD τ sig) → Buf (Elt Ideal) ℓ) (ρ : Dev nD → PrngReg) (c : Dev nD)

/-- The first layer as the second region finds it. -/
theorem e_z1 : mat (a := 50000) (b := 512) (V3 m ρ c main_v22_0) = z1 m c := by
  rw [Host.v3_v22_0 m ρ c, a0_4 m ρ c]; rfl

/-- The column means the host computes between the two regions. -/
theorem e_mu1 : row (b := 512) (V3 m ρ c main_v24) = colMean (Ideal.ofBits .f32 0x47435000#32) (z1 m c) := by
  funext j; rw [Host.v3_v24 m ρ c j, a0_5 m ρ c]; rfl

/-- The column variances the host computes between the two regions: raw second moment minus the
    squared mean, clamped at zero. -/
theorem e_var1 : row (b := 512) (V3 m ρ c main_v30) = colVarRaw (Ideal.ofBits .f32 0x47435000#32) (z1 m c) := by
  funext j; rw [Host.v3_v30 m ρ c j, e_mu1 m ρ c, a0_6 m ρ c]; rfl

/-- The second affine layer of the arguments. -/
def z2 : Fin 50000 → Fin 128 → EReal :=
  lin (bnRelu (Ideal.ofBits .f32 0x3727C5AC#32) (z1 m c) (colMean (Ideal.ofBits .f32 0x47435000#32) (z1 m c)) (colVarRaw (Ideal.ofBits .f32 0x47435000#32) (z1 m c))
        (vec (a := 512) (m ((c : Thread nD τ).loc main_arg4))) (vec (a := 512) (m ((c : Thread nD τ).loc main_arg5))))
    (mat (a := 512) (b := 128) (m ((c : Thread nD τ).loc main_arg6))) (vec (a := 128) (m ((c : Thread nD τ).loc main_arg7)))

/-- What the second region computes from what it finds is that layer of the arguments. -/
theorem Z2_eq : R1.Z2 (V3 m ρ) c = z2 m c := by
  unfold R1.Z2 z2
  rw [e_z1 m ρ c, e_mu1 m ρ c, e_var1 m ρ c, Host.v3_v16 m ρ c, Host.v3_v17 m ρ c, Host.v3_arg6 m ρ c, Host.v3_v15 m ρ c]

/-- The second layer's array after the second region. -/
theorem a1_7 : (dat1 (V3 m ρ) c).arrAt 7 cfg1.N = fun idx => z2 m c (idx 0) (idx 1) := by
  rw [R1.final7 (V3 m ρ) c, Z2_eq m ρ c]

/-- Its column sums after the second region. -/
theorem a1_8 : (dat1 (V3 m ρ) c).arrAt 8 cfg1.N = fun idx => ∑ i : Fin 50000, z2 m c i (idx 1) := by
  rw [R1.final8 (V3 m ρ) c]
  unfold R1.G8
  rw [Z2_eq m ρ c]
  rfl

/-- The column sums of its squares after the second region. -/
theorem a1_9 : (dat1 (V3 m ρ) c).arrAt 9 cfg1.N = fun idx => ∑ i : Fin 50000, z2 m c i (idx 1) * z2 m c i (idx 1) := by
  rw [R1.final9 (V3 m ρ) c]
  unfold R1.G9
  rw [Z2_eq m ρ c]
  rfl

end Cert.KernelIdeal.Chain

end
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KRegion2Pay.lean ====
/-
  The body of the layer's last stage, read entry by entry over the extended reals.

  On a block of 2000 rows and 128 lanes the body forms the residual sum
  `o = max(((z - mu) * rsqrt(var + eps)) * g + beta, 0) + x` (the one-row operands `mu`, `var`, `g`, `beta` repeated
  down the rows), then for each row its mean over the 128 lanes, the centred values `o - mean`, the mean of their
  squares plus `eps`, and finally `((o - mean) * rsqrt(...)) * lg + lb`.  Each intermediate array is read here at
  explicit coordinates: an entry `(r, l)` of a [2000, 128] array, the entry `(r, 0)` of a column [2000, 1].  The lane
  sums are finite sums over `Fin 128`; the one-row operands are read at row 0; the column is read at the row.
-/
import proofs.«119975_j1812476199538_1_alg».proof.Proof.Gen.KernelIdeal.Skeleton
import proofs.«119975_j1812476199538_1_alg».proof.Proof.Spec
import proofs.«119975_j1812476199538_1_alg».proof.Proof.LibColumn
import proofs.«119975_j1812476199538_1_alg».proof.Proof.LibRowSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R2

open Idealize.ShloMosaic Idealize.ShloMosaic.ValueIdx
open Cert.KernelIdeal Cert.KernelIdeal.Gen

/-- The reciprocal square root of a vector of extended reals, read at an index, is that of the entry. -/
theorem rsqrt_apply {s : Shape} {φ : FTy} (a : FVec Ideal s φ) (i : s.Idx) : rsqrt a i = Ideal.rsqrt (a i) := rfl

/-- The stabiliser added to a variance before the reciprocal square root. -/
abbrev eps : EReal := Ideal.ofBits .f32 0x3727C5AC#32

/-- The row length, 128, as the divisor of a row mean. -/
abbrev cD : EReal := Ideal.ofBits .f32 0x43000000#32

/-- One block of the residual sum: the batch-normalised, clamped second affine layer plus the node features. -/
def resid (z : Vec Ideal S2000x128 .f32) (var mu g beta : Vec Ideal S1x128 .f32) (x : Vec Ideal S2000x128 .f32) :
    Fin 2000 → Fin 128 → EReal :=
  fun i j => Spec.bnRelu eps (Spec.mat z) (Spec.row mu) (Spec.row var) (Spec.row g) (Spec.row beta) i j + Spec.mat x i j

/-- The zero word is the number zero. -/
theorem zero_word : (FloatOps.ofBits FTy.f32 0x00000000#32 : Ideal .f32) = 0 := Ideal.ofBits_zero_f32

/-- The residual sum at row `r`, lane `l`: the normalised, clamped entry plus the node feature. -/
theorem pay2_apply (z : Vec Ideal S2000x128 .f32) (var mu g beta : Vec Ideal S1x128 .f32) (x : Vec Ideal S2000x128 .f32)
    (r : Fin 2000) (l : Fin 128) :
    k2_pay2 (F := Ideal) z var mu g beta x (ix2 r l) = resid z var mu g beta x r l := by
  unfold k2_pay2 resid Spec.bnRelu Spec.mat Spec.row
  simp only [shapeCast_self, addf_apply, maximumf_apply, mulf_apply, subf_apply, broadcast_apply,
    broadcastTo_1b_ab_apply, rsqrt_apply]
  rw [zero_word]
  rfl

/-- The column [2000, 1] of row means, at row `r`: the row's sum over the 128 lanes divided by 128. -/
theorem pay3_apply (z : Vec Ideal S2000x128 .f32) (var mu g beta : Vec Ideal S1x128 .f32) (x : Vec Ideal S2000x128 .f32)
    (r : Fin 2000) (u : Fin 1) :
    k2_pay3 (F := Ideal) z var mu g beta x (ix2 r u) = Spec.rowMean cD (resid z var mu g beta x) r := by
  unfold k2_pay3 Spec.rowMean
  simp only [divf_apply, broadcast_apply, shapeCast_a_a1_apply]
  refine congrArg (fun w => Ideal.div w cD) ?_
  refine (multiReduction_add_rows_apply (k2_pay2 (F := Ideal) z var mu g beta x) _ _ _ r).trans ?_
  exact Finset.sum_congr rfl fun k _ => pay2_apply z var mu g beta x r k

/-- The centred residual sum at row `r`, lane `l`: the entry minus its row's mean. -/
theorem pay4_apply (z : Vec Ideal S2000x128 .f32) (var mu g beta : Vec Ideal S1x128 .f32) (x : Vec Ideal S2000x128 .f32)
    (r : Fin 2000) (l : Fin 128) :
    k2_pay4 (F := Ideal) z var mu g beta x (ix2 r l)
      = resid z var mu g beta x r l - Spec.rowMean cD (resid z var mu g beta x) r := by
  unfold k2_pay4
  simp only [subf_apply, broadcastTo_a1_ab_apply, pay2_apply, pay3_apply]

/-- The row variance plus the stabiliser, a column [2000, 1], at row `r`. -/
theorem pay5_apply (z : Vec Ideal S2000x128 .f32) (var mu g beta : Vec Ideal S1x128 .f32) (x : Vec Ideal S2000x128 .f32)
    (r : Fin 2000) (u : Fin 1) :
    k2_pay5 (F := Ideal) z var mu g beta x (ix2 r u)
      = Ideal.div (∑ l' : Fin 128, (resid z var mu g beta x r l' - Spec.rowMean cD (resid z var mu g beta x) r)
          * (resid z var mu g beta x r l' - Spec.rowMean cD (resid z var mu g beta x) r)) cD + eps := by
  unfold k2_pay5
  simp only [addf_apply, divf_apply, broadcast_apply, shapeCast_a_a1_apply]
  refine congrArg (fun w => Ideal.div w cD + eps) ?_
  refine (multiReduction_add_rows_apply _ _ _ _ r).trans ?_
  refine Finset.sum_congr rfl fun k _ => ?_
  simp only [mulf_apply, subf_apply, broadcastTo_a1_ab_apply, pay2_apply, pay3_apply]

/-- The stage's last array at row `r`, lane `l`: the centred value times the reciprocal square root of the column's entry
    at that row, times the scale, plus the shift. -/
theorem pay1_apply (d : FVec Ideal S2000x128 .f32) (s : FVec Ideal S2000x1 .f32) (g beta : Vec Ideal S1x128 .f32)
    (r : Fin 2000) (l : Fin 128) :
    k2_pay1 (F := Ideal) d s g beta (ix2 r l)
      = (d (ix2 r l) * Ideal.rsqrt (s (ix2 r (0 : Fin 1)))) * g (ix2 (0 : Fin 1) l) + beta (ix2 (0 : Fin 1) l) := by
  unfold k2_pay1
  simp only [shapeCast_self, addf_apply, mulf_apply, broadcastTo_1b_ab_apply, broadcastTo_a1_ab_apply, rsqrt_apply]

end Cert.KernelIdeal.R2

end
-- ==== Proof.KRegion2.lean ====
/-
  The layer's last stage, as one function of the arrays it reads.

  The stage runs over 25 blocks of 2000 rows.  On each block it forms the residual sum of the batch-normalised, clamped
  second affine layer and the node features, and normalises each row over its 128 lanes (mean, centred second moment,
  reciprocal square root, scale and shift).  Every row of the 50000 lies in exactly one block, block `i / 2000`, and a
  row's normalisation reads that row only, all of whose 128 lanes lie inside the block; the one-row operands (the
  column means and variances, the two scales and the two shifts) are the same at every block.  Hence what each block
  writes back is that block of ONE whole-array function, and since the blocks cover the array the result is that
  function: `final8`.

  Steps: the block's result entry by entry (`out2_8_apply`); a row of the layer normalisation depends on that row only
  (`layerNorm_congr_row`); where each block's entries sit in the arrays (`idx_facts`, `iblk2_*_apply`); one entry of a
  block's result as the whole-array function at its place (`point_value`); what a block writes back (`flushed_eq`); the
  blocks cover the array (`mem_blk`, `cover`); the result (`final8`).
-/
import proofs.«119975_j1812476199538_1_alg».proof.Proof.Gen.KernelIdeal.Frame
import proofs.«119975_j1812476199538_1_alg».proof.Proof.Spec
import proofs.«119975_j1812476199538_1_alg».proof.Proof.KRegion2Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R2

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

/-- What the body leaves in the result's block, entry by entry: the layer normalisation of the block's residual sum. -/
theorem out2_8_apply (x0 : Vec Ideal S2000x128 .f32) (x1 x2 x3 x4 : Vec Ideal S1x128 .f32) (x5 : Vec Ideal S2000x128 .f32)
    (x6 x7 : Vec Ideal S1x128 .f32) (r : Fin 2000) (l : Fin 128) :
    out2_8 (F := Ideal) x0 x1 x2 x3 x4 x5 x6 x7 (ix2 r l)
      = Spec.layerNorm cD eps (resid x0 x2 x1 x3 x4 x5) (Spec.row x6) (Spec.row x7) r l := by
  unfold out2_8
  rw [View.canon_unit_zero hz]
  simp only [View.ld_unit_zero (S := S2000x128) hz, View.ld_unit_zero (S := S1x128) hz]
  rw [pay1_apply, pay4_apply, pay5_apply]
  rfl

/-- A row of the layer normalisation depends on that row of its argument only. -/
theorem layerNorm_congr_row {n n' M : ℕ} (cD eps : EReal) (o : Fin n → Fin M → EReal) (o' : Fin n' → Fin M → EReal)
    (g beta g' beta' : Fin M → EReal) (i : Fin n) (i' : Fin n') (ho : ∀ j, o i j = o' i' j)
    (hg : ∀ j, g j = g' j) (hb : ∀ j, beta j = beta' j) (j : Fin M) :
    Spec.layerNorm cD eps o g beta i j = Spec.layerNorm cD eps o' g' beta' i' j := by
  unfold Spec.layerNorm Spec.rowMean
  simp only [ho, hg, hb]

variable (V : (c : Dev nD) → (b : Ref sig .tc) → Buf (Elt Ideal) ((c : Thread nD τ).loc b))

/-- The whole result as one function of the arrays the stage reads. -/
def G (X0 : S50000x128.Idx → EReal) (X1 X2 X3 X4 : S1x128.Idx → EReal) (X5 : S50000x128.Idx → EReal)
    (X6 X7 : S1x128.Idx → EReal) : S50000x128.Idx → EReal :=
  fun idx => Spec.layerNorm cD eps
    (fun i j => Spec.bnRelu eps (Spec.mat X0) (Spec.row X1) (Spec.row X2) (Spec.row X3) (Spec.row X4) i j + Spec.mat X5 i j)
    (Spec.row X6) (Spec.row X7) (idx 0) (idx 1)

/-- The block index maps, decided once over the 25 grid points: the three tiled windows move with the point along the
    rows and stay at lane block 0; the six one-row windows stay at block (0, 0). -/
theorem idx_facts : ∀ t : Fin cfg2.N,
    (win2_0.index t (0 : Fin 2) = t.val ∧ win2_0.index t (1 : Fin 2) = 0)
    ∧ (win2_5.index t (0 : Fin 2) = t.val ∧ win2_5.index t (1 : Fin 2) = 0)
    ∧ (win2_8.index t (0 : Fin 2) = t.val ∧ win2_8.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_6.index t (0 : Fin 2) = 0 ∧ win2_6.index t (1 : Fin 2) = 0)
    ∧ (win2_7.index t (0 : Fin 2) = 0 ∧ win2_7.index t (1 : Fin 2) = 0) :=
  (by decide +kernel : ∀ t : Fin grid2.N, _)

/-- Entry `(r, l)` of the block of the second affine layer's output at point `t` is entry `(2000 t + r, l)` of the array. -/
theorem iblk2_0_apply (c : Dev nD) (t : Fin cfg2.N) (r : Fin 2000) (l : Fin 128) (R : Fin 50000)
    (hR : R.val = t.val * 2000 + r.val) :
    (iblk2 V c 0 t : Vec Ideal S2000x128 .f32) (ix2 r l) = (V c main_v31_0 : S50000x128.Idx → EReal) (ix2 R l) := by
  obtain ⟨⟨e0, e1⟩, -⟩ := idx_facts t
  unfold iblk2
  rw [View.read_apply]
  show (V c main_v31_0 : S50000x128.Idx → EReal) _ = _
  congr 1
  funext a
  apply Fin.ext
  match a with
  | ⟨0, _⟩ => show win2_0.index t (0 : Fin 2) * 2000 + 1 * r.val = R.val; rw [e0, hR]; omega
  | ⟨1, _⟩ => show win2_0.index t (1 : Fin 2) * 128 + 1 * l.val = l.val; rw [e1]; omega

/-- Entry `(r, l)` of the block of the node features at point `t` is entry `(2000 t + r, l)` of the array. -/
theorem iblk2_5_apply (c : Dev nD) (t : Fin cfg2.N) (r : Fin 2000) (l : Fin 128) (R : Fin 50000)
    (hR : R.val = t.val * 2000 + r.val) :
    (iblk2 V c 5 t : Vec Ideal S2000x128 .f32) (ix2 r l) = (V c main_arg0 : S50000x128.Idx → EReal) (ix2 R l) := by
  obtain ⟨-, ⟨e0, e1⟩, -⟩ := idx_facts t
  unfold iblk2
  rw [View.read_apply]
  show (V c main_arg0 : S50000x128.Idx → EReal) _ = _
  congr 1
  funext a
  apply Fin.ext
  match a with
  | ⟨0, _⟩ => show win2_5.index t (0 : Fin 2) * 2000 + 1 * r.val = R.val; rw [e0, hR]; omega
  | ⟨1, _⟩ => show win2_5.index t (1 : Fin 2) * 128 + 1 * l.val = l.val; rw [e1]; omega

/-- The one-row block of the column means at any point is the array itself: entry `(0, l)` is entry `(0, l)`. -/
theorem iblk2_1_apply (c : Dev nD) (t : Fin cfg2.N) (l : Fin 128) :
    (iblk2 V c 1 t : Vec Ideal S1x128 .f32) (ix2 (0 : Fin 1) l) = (V c main_v33 : S1x128.Idx → EReal) (ix2 (0 : Fin 1) l) := by
  obtain ⟨-, -, -, ⟨a1, b1⟩, ⟨a2, b2⟩, ⟨a3, b3⟩, ⟨a4, b4⟩, ⟨a6, b6⟩, ⟨a7, b7⟩⟩ := idx_facts t
  unfold iblk2
  rw [View.read_apply]
  show (V c main_v33 : S1x128.Idx → EReal) _ = _
  congr 1
  funext a
  apply Fin.ext
  match a with
  | ⟨0, _⟩ => show win2_1.index t (0 : Fin 2) * 1 + 1 * 0 = 0; rw [a1]
  | ⟨1, _⟩ => show win2_1.index t (1 : Fin 2) * 128 + 1 * l.val = l.val; rw [b1]; omega

/-- The one-row block of the column variances at any point is the array itself: entry `(0, l)` is entry `(0, l)`. -/
theorem iblk2_2_apply (c : Dev nD) (t : Fin cfg2.N) (l : Fin 128) :
    (iblk2 V c 2 t : Vec Ideal S1x128 .f32) (ix2 (0 : Fin 1) l) = (V c main_v39 : S1x128.Idx → EReal) (ix2 (0 : Fin 1) l) := by
  obtain ⟨-, -, -, ⟨a1, b1⟩, ⟨a2, b2⟩, ⟨a3, b3⟩, ⟨a4, b4⟩, ⟨a6, b6⟩, ⟨a7, b7⟩⟩ := idx_facts t
  unfold iblk2
  rw [View.read_apply]
  show (V c main_v39 : S1x128.Idx → EReal) _ = _
  congr 1
  funext a
  apply Fin.ext
  match a with
  | ⟨0, _⟩ => show win2_2.index t (0 : Fin 2) * 1 + 1 * 0 = 0; rw [a2]
  | ⟨1, _⟩ => show win2_2.index t (1 : Fin 2) * 128 + 1 * l.val = l.val; rw [b2]; omega

/-- The one-row block of the batch normalisation's scale at any point is the array itself: entry `(0, l)` is entry `(0, l)`. -/
theorem iblk2_3_apply (c : Dev nD) (t : Fin cfg2.N) (l : Fin 128) :
    (iblk2 V c 3 t : Vec Ideal S1x128 .f32) (ix2 (0 : Fin 1) l) = (V c main_v18 : S1x128.Idx → EReal) (ix2 (0 : Fin 1) l) := by
  obtain ⟨-, -, -, ⟨a1, b1⟩, ⟨a2, b2⟩, ⟨a3, b3⟩, ⟨a4, b4⟩, ⟨a6, b6⟩, ⟨a7, b7⟩⟩ := idx_facts t
  unfold iblk2
  rw [View.read_apply]
  show (V c main_v18 : S1x128.Idx → EReal) _ = _
  congr 1
  funext a
  apply Fin.ext
  match a with
  | ⟨0, _⟩ => show win2_3.index t (0 : Fin 2) * 1 + 1 * 0 = 0; rw [a3]
  | ⟨1, _⟩ => show win2_3.index t (1 : Fin 2) * 128 + 1 * l.val = l.val; rw [b3]; omega

/-- The one-row block of the batch normalisation's shift at any point is the array itself: entry `(0, l)` is entry `(0, l)`. -/
theorem iblk2_4_apply (c : Dev nD) (t : Fin cfg2.N) (l : Fin 128) :
    (iblk2 V c 4 t : Vec Ideal S1x128 .f32) (ix2 (0 : Fin 1) l) = (V c main_v19 : S1x128.Idx → EReal) (ix2 (0 : Fin 1) l) := by
  obtain ⟨-, -, -, ⟨a1, b1⟩, ⟨a2, b2⟩, ⟨a3, b3⟩, ⟨a4, b4⟩, ⟨a6, b6⟩, ⟨a7, b7⟩⟩ := idx_facts t
  unfold iblk2
  rw [View.read_apply]
  show (V c main_v19 : S1x128.Idx → EReal) _ = _
  congr 1
  funext a
  apply Fin.ext
  match a with
  | ⟨0, _⟩ => show win2_4.index t (0 : Fin 2) * 1 + 1 * 0 = 0; rw [a4]
  | ⟨1, _⟩ => show win2_4.index t (1 : Fin 2) * 128 + 1 * l.val = l.val; rw [b4]; omega

/-- The one-row block of the layer normalisation's scale at any point is the array itself: entry `(0, l)` is entry `(0, l)`. -/
theorem iblk2_6_apply (c : Dev nD) (t : Fin cfg2.N) (l : Fin 128) :
    (iblk2 V c 6 t : Vec Ideal S1x128 .f32) (ix2 (0 : Fin 1) l) = (V c main_v20 : S1x128.Idx → EReal) (ix2 (0 : Fin 1) l) := by
  obtain ⟨-, -, -, ⟨a1, b1⟩, ⟨a2, b2⟩, ⟨a3, b3⟩, ⟨a4, b4⟩, ⟨a6, b6⟩, ⟨a7, b7⟩⟩ := idx_facts t
  unfold iblk2
  rw [View.read_apply]
  show (V c main_v20 : S1x128.Idx → EReal) _ = _
  congr 1
  funext a
  apply Fin.ext
  match a with
  | ⟨0, _⟩ => show win2_6.index t (0 : Fin 2) * 1 + 1 * 0 = 0; rw [a6]
  | ⟨1, _⟩ => show win2_6.index t (1 : Fin 2) * 128 + 1 * l.val = l.val; rw [b6]; omega

/-- The one-row block of the layer normalisation's shift at any point is the array itself: entry `(0, l)` is entry `(0, l)`. -/
theorem iblk2_7_apply (c : Dev nD) (t : Fin cfg2.N) (l : Fin 128) :
    (iblk2 V c 7 t : Vec Ideal S1x128 .f32) (ix2 (0 : Fin 1) l) = (V c main_v21 : S1x128.Idx → EReal) (ix2 (0 : Fin 1) l) := by
  obtain ⟨-, -, -, ⟨a1, b1⟩, ⟨a2, b2⟩, ⟨a3, b3⟩, ⟨a4, b4⟩, ⟨a6, b6⟩, ⟨a7, b7⟩⟩ := idx_facts t
  unfold iblk2
  rw [View.read_apply]
  show (V c main_v21 : S1x128.Idx → EReal) _ = _
  congr 1
  funext a
  apply Fin.ext
  match a with
  | ⟨0, _⟩ => show win2_7.index t (0 : Fin 2) * 1 + 1 * 0 = 0; rw [a7]
  | ⟨1, _⟩ => show win2_7.index t (1 : Fin 2) * 128 + 1 * l.val = l.val; rw [b7]; omega

/-- One entry of the result's block, from blocks that are the stated parts of whole arrays: the whole-array function at
    the entry's place in the array.  Row `r` of block `b` is row `2000 b + r`; the row sums run over the whole row,
    which lies inside the block. -/
theorem point_value
    (X0 : S50000x128.Idx → EReal) (X1 X2 X3 X4 : S1x128.Idx → EReal) (X5 : S50000x128.Idx → EReal) (X6 X7 : S1x128.Idx → EReal)
    (x0 : Vec Ideal S2000x128 .f32) (x1 x2 x3 x4 : Vec Ideal S1x128 .f32) (x5 : Vec Ideal S2000x128 .f32)
    (x6 x7 : Vec Ideal S1x128 .f32) (r : Fin 2000) (R : Fin 50000)
    (h0 : ∀ l : Fin 128, x0 (ix2 r l) = X0 (ix2 R l)) (h5 : ∀ l : Fin 128, x5 (ix2 r l) = X5 (ix2 R l))
    (h1 : ∀ l : Fin 128, x1 (ix2 (0 : Fin 1) l) = X1 (ix2 (0 : Fin 1) l))
    (h2 : ∀ l : Fin 128, x2 (ix2 (0 : Fin 1) l) = X2 (ix2 (0 : Fin 1) l))
    (h3 : ∀ l : Fin 128, x3 (ix2 (0 : Fin 1) l) = X3 (ix2 (0 : Fin 1) l))
    (h4 : ∀ l : Fin 128, x4 (ix2 (0 : Fin 1) l) = X4 (ix2 (0 : Fin 1) l))
    (h6 : ∀ l : Fin 128, x6 (ix2 (0 : Fin 1) l) = X6 (ix2 (0 : Fin 1) l))
    (h7 : ∀ l : Fin 128, x7 (ix2 (0 : Fin 1) l) = X7 (ix2 (0 : Fin 1) l)) (l : Fin 128) :
    out2_8 (F := Ideal) x0 x1 x2 x3 x4 x5 x6 x7 (ix2 r l) = G X0 X1 X2 X3 X4 X5 X6 X7 (ix2 R l) := by
  rw [out2_8_apply]
  unfold G
  show Spec.layerNorm cD eps _ _ _ r l = Spec.layerNorm cD eps _ _ _ R l
  refine layerNorm_congr_row cD eps _ _ _ _ _ _ r R (fun j => ?_) h6 h7 l
  unfold resid Spec.bnRelu Spec.mat Spec.row
  rw [h0 j, h5 j, h1 j, h2 j, h3 j, h4 j]

/-- The whole-array function at the arrays as the stage finds them. -/
abbrev GV (c : Dev nD) : S50000x128.Idx → EReal :=
  G (V c main_v31_0) (V c main_v33) (V c main_v39) (V c main_v18) (V c main_v19) (V c main_arg0) (V c main_v20) (V c main_v21)

/-- What point `t` writes back is block `t` of the whole-array function. -/
theorem flushed_eq (c : Dev nD) (t : Fin cfg2.N) :
    (dat2 (F := Ideal) V c).flushed 8 t = ((cfg2.win 8).blk t).view.read (Elt Ideal) (GV V c) := by
  show (cfg2.win 8).cut (grid2.coords t) ((dat2 (F := Ideal) V c).after 8 t) = _
  rw [after2_8]
  obtain ⟨-, -, ⟨e0, e1⟩, -⟩ := idx_facts t
  have hN : cfg2.N = 25 := N_2
  funext y
  obtain ⟨r, l, rfl⟩ : ∃ (r : Fin 2000) (l : Fin 128), y = ix2 r l := ⟨y 0, y 1, eq_ix2 y⟩
  have ht : t.val < 25 := hN ▸ t.isLt
  have hemb : ((cfg2.win 8).blk t).view.emb (ix2 r l) = (ix2 (⟨t.val * 2000 + r.val, by omega⟩ : Fin 50000) l : S50000x128.Idx) := by
    funext a
    apply Fin.ext
    match a with
    | ⟨0, _⟩ => show win2_8.index t (0 : Fin 2) * 2000 + 1 * r.val = t.val * 2000 + r.val; rw [e0]; omega
    | ⟨1, _⟩ => show win2_8.index t (1 : Fin 2) * 128 + 1 * l.val = l.val; rw [e1]; omega
  rw [View.read_apply, hemb]
  exact point_value _ _ _ _ _ _ _ _ (iblk2 V c 0 t) (iblk2 V c 1 t) (iblk2 V c 2 t) (iblk2 V c 3 t) (iblk2 V c 4 t)
    (iblk2 V c 5 t) (iblk2 V c 6 t) (iblk2 V c 7 t) r ⟨t.val * 2000 + r.val, by omega⟩
    (fun l' => iblk2_0_apply V c t r l' _ rfl) (fun l' => iblk2_5_apply V c t r l' _ rfl)
    (iblk2_1_apply V c t) (iblk2_2_apply V c t) (iblk2_3_apply V c t) (iblk2_4_apply V c t)
    (iblk2_6_apply V c t) (iblk2_7_apply V c t) l

/-- An index of the result lies in point `t`'s block iff each coordinate is in the block's range on its axis. -/
theorem mem_blk (t : Fin cfg2.N) (i : S50000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole main_v40).slice (win2_8.rect t)).set ↔ _
  rw [View.set_slice_whole, Rect.mem_set_unit]
  exact Iff.rfl

/-- The 25 blocks of 2000 rows tile the 50000 rows: row `i` lies in block `i / 2000`. -/
theorem cover (i : S50000x128.Idx) :
    ∃ t : Fin cfg2.N, (cfg2.win 8).flush t = true ∧ i ∈ ((cfg2.win 8).blk t).view.set := by
  have hN : cfg2.N = 25 := N_2
  have hi0 : (i 0).val < 50000 := (i 0).isLt
  have hi1 : (i 1).val < 128 := (i 1).isLt
  let t : Fin cfg2.N := ⟨(i 0).val / 2000, by rw [hN]; omega⟩
  have htv : t.val = (i 0).val / 2000 := rfl
  obtain ⟨-, -, ⟨e0, e1⟩, -⟩ := idx_facts t
  refine ⟨t, flush2_8 t, ?_⟩
  rw [mem_blk]
  intro a
  match a with
  | ⟨0, _⟩ =>
    show win2_8.index t (0 : Fin 2) * 2000 ≤ (i 0).val ∧ (i 0).val < win2_8.index t (0 : Fin 2) * 2000 + 2000
    rw [e0, htv]; omega
  | ⟨1, _⟩ =>
    show win2_8.index t (1 : Fin 2) * 128 ≤ (i 1).val ∧ (i 1).val < win2_8.index t (1 : Fin 2) * 128 + 128
    rw [e1]; omega

/-- The result array after the stage: the layer normalisation, row by row, of the batch-normalised and clamped second
    affine layer plus the node features, all read off the arrays as the stage finds them. -/
theorem final8 (c : Dev nD) : (Cert.KernelIdeal.Gen.dat2 (F := Ideal) V c).arrAt 8 cfg2.N
      = fun idx => Cert.Spec.layerNorm (Ideal.ofBits .f32 0x43000000#32) (Ideal.ofBits .f32 0x3727C5AC#32)
          (fun i j => Cert.Spec.bnRelu (Ideal.ofBits .f32 0x3727C5AC#32) (Spec.mat (V c main_v31_0)) (Spec.row (V c main_v33)) (Spec.row (V c main_v39)) (Spec.row (V c main_v18)) (Spec.row (V c main_v19)) i j + Spec.mat (V c main_arg0) i j)
          (Spec.row (V c main_v20)) (Spec.row (V c main_v21)) (idx 0) (idx 1) :=
  (dat2 (F := Ideal) V c).arrAt_eq_of_cover 8 (GV V c) (fun t _ => flushed_eq V c t) cover

end Cert.KernelIdeal.R2

end
-- ==== Proof.KHost5.lean ====
/-
  What the third call's input windows hold when it is entered, read back through the program: the
  second call's outputs as that call left them, the column mean and the raw-moment variance computed
  from the column sums the second call accumulated (sum / n, and max (sum of squares / n - mean², 0)),
  the scale and shift vectors as one-row arrays, and the node features as given.
-/
import proofs.«119975_j1812476199538_1_alg».proof.Proof.Gen.KernelIdeal.Frame
import proofs.«119975_j1812476199538_1_alg».proof.Proof.Spec
import Idealize.ShloMosaic.Lib.StableHlo.Run
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Host

open Idealize.ShloMosaic Idealize.ShloMosaic.TcCoe Idealize.SL.Sem
open Cert.KernelIdeal Cert.KernelIdeal.Gen

/-- Closes "no operation of this stretch writes this buffer" for a literal stretch and a literal buffer. -/
local macro "not_written" ops:ident : tactic =>
  `(tactic| (refine List.forall_iff_forall_mem.mp ?_
             simp only [$ops:ident, List.Forall, StableHlo.nullary_writes, StableHlo.unary_writes,
               StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ## The third stretch of host operations, from any contents -/

section Stretch
variable (W : Valuation τ sig (Elt Ideal))

/-- The column means: the accumulated column sums divided by the row count. -/
theorem ops2_v33 :
    StableHlo.after (hostOps2 (F := Ideal)) W (Proc.devRef .tc main_v33)
      = Host.divf (W (Proc.devRef .tc main_v31_1))
          (broadcastInDim S1x128 ![] Facts₀.bcast_S_S1x128 (constant (F := Ideal) S_ .f32 0x47435000#32)) := by
  after_results
  all_goals rfl

/-- The column variances: the accumulated sums of squares divided by the row count, minus the squared
    means, clamped below at zero. -/
theorem ops2_v39 :
    StableHlo.after (hostOps2 (F := Ideal)) W (Proc.devRef .tc main_v39)
      = maximumf
          (subf
            (Host.divf (W (Proc.devRef .tc main_v31_2))
              (broadcastInDim S1x128 ![] Facts₀.bcast_S_S1x128 (constant (F := Ideal) S_ .f32 0x47435000#32)))
            (mulf
              (Host.divf (W (Proc.devRef .tc main_v31_1))
                (broadcastInDim S1x128 ![] Facts₀.bcast_S_S1x128 (constant (F := Ideal) S_ .f32 0x47435000#32)))
              (Host.divf (W (Proc.devRef .tc main_v31_1))
                (broadcastInDim S1x128 ![] Facts₀.bcast_S_S1x128 (constant (F := Ideal) S_ .f32 0x47435000#32)))))
          (broadcastInDim S1x128 ![] Facts₀.bcast_S_S1x128 (constant (F := Ideal) S_ .f32 0x00000000#32)) := by
  after_results
  all_goals rfl

/-- The stretch leaves the second call's first output alone. -/
theorem ops2_v31_0 : StableHlo.after (hostOps2 (F := Ideal)) W (Proc.devRef .tc main_v31_0) = W (Proc.devRef .tc main_v31_0) :=
  StableHlo.after_of_forall_not_mem (b := Proc.devRef .tc main_v31_0) _ _ (by not_written hostOps2)

theorem ops2_v18 : StableHlo.after (hostOps2 (F := Ideal)) W (Proc.devRef .tc main_v18) = W (Proc.devRef .tc main_v18) :=
  StableHlo.after_of_forall_not_mem (b := Proc.devRef .tc main_v18) _ _ (by not_written hostOps2)
theorem ops2_v19 : StableHlo.after (hostOps2 (F := Ideal)) W (Proc.devRef .tc main_v19) = W (Proc.devRef .tc main_v19) :=
  StableHlo.after_of_forall_not_mem (b := Proc.devRef .tc main_v19) _ _ (by not_written hostOps2)
theorem ops2_v20 : StableHlo.after (hostOps2 (F := Ideal)) W (Proc.devRef .tc main_v20) = W (Proc.devRef .tc main_v20) :=
  StableHlo.after_of_forall_not_mem (b := Proc.devRef .tc main_v20) _ _ (by not_written hostOps2)
theorem ops2_v21 : StableHlo.after (hostOps2 (F := Ideal)) W (Proc.devRef .tc main_v21) = W (Proc.devRef .tc main_v21) :=
  StableHlo.after_of_forall_not_mem (b := Proc.devRef .tc main_v21) _ _ (by not_written hostOps2)
theorem ops2_arg0 : StableHlo.after (hostOps2 (F := Ideal)) W (Proc.devRef .tc main_arg0) = W (Proc.devRef .tc main_arg0) :=
  StableHlo.after_of_forall_not_mem (b := Proc.devRef .tc main_arg0) _ _ (by not_written hostOps2)

/-- The second stretch leaves the reshaped vectors and the node features alone. -/
theorem ops1_v18 : StableHlo.after (hostOps1 (F := Ideal)) W (Proc.devRef .tc main_v18) = W (Proc.devRef .tc main_v18) :=
  StableHlo.after_of_forall_not_mem (b := Proc.devRef .tc main_v18) _ _ (by not_written hostOps1)
theorem ops1_v19 : StableHlo.after (hostOps1 (F := Ideal)) W (Proc.devRef .tc main_v19) = W (Proc.devRef .tc main_v19) :=
  StableHlo.after_of_forall_not_mem (b := Proc.devRef .tc main_v19) _ _ (by not_written hostOps1)
theorem ops1_v20 : StableHlo.after (hostOps1 (F := Ideal)) W (Proc.devRef .tc main_v20) = W (Proc.devRef .tc main_v20) :=
  StableHlo.after_of_forall_not_mem (b := Proc.devRef .tc main_v20) _ _ (by not_written hostOps1)
theorem ops1_v21 : StableHlo.after (hostOps1 (F := Ideal)) W (Proc.devRef .tc main_v21) = W (Proc.devRef .tc main_v21) :=
  StableHlo.after_of_forall_not_mem (b := Proc.devRef .tc main_v21) _ _ (by not_written hostOps1)
theorem ops1_arg0 : StableHlo.after (hostOps1 (F := Ideal)) W (Proc.devRef .tc main_arg0) = W (Proc.devRef .tc main_arg0) :=
  StableHlo.after_of_forall_not_mem (b := Proc.devRef .tc main_arg0) _ _ (by not_written hostOps1)

/-- The first stretch reshapes each scale and shift vector to one row. -/
theorem ops0_v18 : StableHlo.after (hostOps0 (F := Ideal)) W (Proc.devRef .tc main_v18)
    = shapeCast S1x128 (W (Proc.devRef .tc main_arg8)) Facts₀.shapeCasts_S128_S1x128 := by
  after_results
  all_goals rfl
theorem ops0_v19 : StableHlo.after (hostOps0 (F := Ideal)) W (Proc.devRef .tc main_v19)
    = shapeCast S1x128 (W (Proc.devRef .tc main_arg9)) Facts₀.shapeCasts_S128_S1x128 := by
  after_results
  all_goals rfl
theorem ops0_v20 : StableHlo.after (hostOps0 (F := Ideal)) W (Proc.devRef .tc main_v20)
    = shapeCast S1x128 (W (Proc.devRef .tc main_arg10)) Facts₀.shapeCasts_S128_S1x128 := by
  after_results
  all_goals rfl
theorem ops0_v21 : StableHlo.after (hostOps0 (F := Ideal)) W (Proc.devRef .tc main_v21)
    = shapeCast S1x128 (W (Proc.devRef .tc main_arg11)) Facts₀.shapeCasts_S128_S1x128 := by
  after_results
  all_goals rfl
theorem ops0_arg0 : StableHlo.after (hostOps0 (F := Ideal)) W (Proc.devRef .tc main_arg0) = W (Proc.devRef .tc main_arg0) :=
  StableHlo.after_of_forall_not_mem (b := Proc.devRef .tc main_arg0) _ _ (by not_written hostOps0)

end Stretch

/-- A vector reshaped to one row, read as a row, is the vector. -/
theorem row_reshape (x : S128.Idx → EReal) :
    Cert.Spec.row (b := 128) (shapeCast S1x128 x Facts₀.shapeCasts_S128_S1x128) = Cert.Spec.vec (a := 128) x := by
  funext j
  exact ValueIdx.shapeCast_a_1a_apply x Facts₀.shapeCasts_S128_S1x128 0 j

/-! ## The quotient and the variance at an entry, for any column sums -/

/-- A one-row array divided by the row count, at an entry. -/
theorem divf_rows_at (X : FVec Ideal S1x128 .f32) (i : S1x128.Idx) :
    Host.divf X (broadcastInDim S1x128 ![] Facts₀.bcast_S_S1x128 (constant (F := Ideal) S_ .f32 0x47435000#32)) i
      = Ideal.div (X i) (Ideal.ofBits .f32 0x47435000#32) := rfl

/-- The raw-moment variance of one-row arrays of sums `X` and sums of squares `Y`, at an entry. -/
theorem var_rows_at (X Y : FVec Ideal S1x128 .f32) (i : S1x128.Idx) :
    maximumf
        (subf
          (Host.divf Y (broadcastInDim S1x128 ![] Facts₀.bcast_S_S1x128 (constant (F := Ideal) S_ .f32 0x47435000#32)))
          (mulf
            (Host.divf X (broadcastInDim S1x128 ![] Facts₀.bcast_S_S1x128 (constant (F := Ideal) S_ .f32 0x47435000#32)))
            (Host.divf X (broadcastInDim S1x128 ![] Facts₀.bcast_S_S1x128 (constant (F := Ideal) S_ .f32 0x47435000#32)))))
        (broadcastInDim S1x128 ![] Facts₀.bcast_S_S1x128 (constant (F := Ideal) S_ .f32 0x00000000#32)) i
      = max (Ideal.div (Y i) (Ideal.ofBits .f32 0x47435000#32)
              - Ideal.div (X i) (Ideal.ofBits .f32 0x47435000#32) * Ideal.div (X i) (Ideal.ofBits .f32 0x47435000#32)) 0 := by
  show max (Ideal.div (Y i) (Ideal.ofBits .f32 0x47435000#32)
              - Ideal.div (X i) (Ideal.ofBits .f32 0x47435000#32) * Ideal.div (X i) (Ideal.ofBits .f32 0x47435000#32))
          (Ideal.ofBits .f32 0x00000000#32) = _
  rw [Ideal.ofBits_zero_f32]

/-! ## The third call's input windows at its entry -/

section Entry
variable (m : (ℓ : Loc nD τ sig) → Buf (Elt Ideal) ℓ) (ρ : Dev nD → PrngReg) (c : Dev nD)

/-- The second call's exit arrays holding its column sums and sums of squares, as the fold names them. -/
theorem w4_v31_1 : W4 m ρ c (Proc.devRef .tc main_v31_1) = (dat1 (V3 m ρ) c).arrAt 8 cfg1.N := W4_arr m ρ c 8
theorem w4_v31_2 : W4 m ρ c (Proc.devRef .tc main_v31_2) = (dat1 (V3 m ρ) c).arrAt 9 cfg1.N := W4_arr m ρ c 9

/-- Window 0: the second call's first output as that call left it. -/
theorem v5_v31_0 : V5 m ρ c main_v31_0 = (dat1 (V3 m ρ) c).arrAt 7 cfg1.N :=
  (ops2_v31_0 (W4 m ρ c)).trans (W4_arr m ρ c 7)

/-- Window 1: the column means of the second call's column sums. -/
theorem v5_v33 (j : Fin 128) :
    Cert.Spec.row (b := 128) (V5 m ρ c main_v33) j
      = Ideal.div ((dat1 (V3 m ρ) c).arrAt 8 cfg1.N (ValueIdx.ix2 (0 : Fin 1) j)) (Ideal.ofBits .f32 0x47435000#32) := by
  show V5 m ρ c main_v33 (ValueIdx.ix2 (0 : Fin 1) j) = _
  rw [← w4_v31_1 m ρ c]
  exact (congrFun (ops2_v33 (W4 m ρ c)) _).trans (divf_rows_at _ _)

/-- Window 2: the raw-moment column variances. -/
theorem v5_v39 (j : Fin 128) :
    Cert.Spec.row (b := 128) (V5 m ρ c main_v39) j
      = max (Ideal.div ((dat1 (V3 m ρ) c).arrAt 9 cfg1.N (ValueIdx.ix2 (0 : Fin 1) j)) (Ideal.ofBits .f32 0x47435000#32)
            - Cert.Spec.row (b := 128) (V5 m ρ c main_v33) j * Cert.Spec.row (b := 128) (V5 m ρ c main_v33) j) 0 := by
  rw [v5_v33 m ρ c j]
  show V5 m ρ c main_v39 (ValueIdx.ix2 (0 : Fin 1) j) = _
  rw [← w4_v31_1 m ρ c, ← w4_v31_2 m ρ c]
  exact (congrFun (ops2_v39 (W4 m ρ c)) _).trans (var_rows_at _ _ _)

/-- A reshaped scale or shift vector, walked back to the argument it was reshaped from. -/
theorem w5_v18 : W5 m ρ c (Proc.devRef .tc main_v18)
    = shapeCast S1x128 (m ((c : Thread nD τ).loc main_arg8)) Facts₀.shapeCasts_S128_S1x128 :=
  calc W5 m ρ c (Proc.devRef .tc main_v18)
    _ = W4 m ρ c (Proc.devRef .tc main_v18) := ops2_v18 _
    _ = W3 m ρ c (Proc.devRef .tc main_v18) := W4_of_ne m ρ c main_v18 (by decide)
    _ = W2 m ρ c (Proc.devRef .tc main_v18) := ops1_v18 _
    _ = W1 m ρ c (Proc.devRef .tc main_v18) := W2_of_ne m ρ c main_v18 (by decide)
    _ = _ := ops0_v18 _
theorem w5_v19 : W5 m ρ c (Proc.devRef .tc main_v19)
    = shapeCast S1x128 (m ((c : Thread nD τ).loc main_arg9)) Facts₀.shapeCasts_S128_S1x128 :=
  calc W5 m ρ c (Proc.devRef .tc main_v19)
    _ = W4 m ρ c (Proc.devRef .tc main_v19) := ops2_v19 _
    _ = W3 m ρ c (Proc.devRef .tc main_v19) := W4_of_ne m ρ c main_v19 (by decide)
    _ = W2 m ρ c (Proc.devRef .tc main_v19) := ops1_v19 _
    _ = W1 m ρ c (Proc.devRef .tc main_v19) := W2_of_ne m ρ c main_v19 (by decide)
    _ = _ := ops0_v19 _
theorem w5_v20 : W5 m ρ c (Proc.devRef .tc main_v20)
    = shapeCast S1x128 (m ((c : Thread nD τ).loc main_arg10)) Facts₀.shapeCasts_S128_S1x128 :=
  calc W5 m ρ c (Proc.devRef .tc main_v20)
    _ = W4 m ρ c (Proc.devRef .tc main_v20) := ops2_v20 _
    _ = W3 m ρ c (Proc.devRef .tc main_v20) := W4_of_ne m ρ c main_v20 (by decide)
    _ = W2 m ρ c (Proc.devRef .tc main_v20) := ops1_v20 _
    _ = W1 m ρ c (Proc.devRef .tc main_v20) := W2_of_ne m ρ c main_v20 (by decide)
    _ = _ := ops0_v20 _
theorem w5_v21 : W5 m ρ c (Proc.devRef .tc main_v21)
    = shapeCast S1x128 (m ((c : Thread nD τ).loc main_arg11)) Facts₀.shapeCasts_S128_S1x128 :=
  calc W5 m ρ c (Proc.devRef .tc main_v21)
    _ = W4 m ρ c (Proc.devRef .tc main_v21) := ops2_v21 _
    _ = W3 m ρ c (Proc.devRef .tc main_v21) := W4_of_ne m ρ c main_v21 (by decide)
    _ = W2 m ρ c (Proc.devRef .tc main_v21) := ops1_v21 _
    _ = W1 m ρ c (Proc.devRef .tc main_v21) := W2_of_ne m ρ c main_v21 (by decide)
    _ = _ := ops0_v21 _

/-- Windows 3, 4, 6, 7: the scale and shift vectors, as rows. -/
theorem v5_v18 : Cert.Spec.row (b := 128) (V5 m ρ c main_v18) = Cert.Spec.vec (a := 128) (m ((c : Thread nD τ).loc main_arg8)) :=
  (congrArg (Cert.Spec.row (b := 128)) (w5_v18 m ρ c)).trans (row_reshape _)
theorem v5_v19 : Cert.Spec.row (b := 128) (V5 m ρ c main_v19) = Cert.Spec.vec (a := 128) (m ((c : Thread nD τ).loc main_arg9)) :=
  (congrArg (Cert.Spec.row (b := 128)) (w5_v19 m ρ c)).trans (row_reshape _)
theorem v5_v20 : Cert.Spec.row (b := 128) (V5 m ρ c main_v20) = Cert.Spec.vec (a := 128) (m ((c : Thread nD τ).loc main_arg10)) :=
  (congrArg (Cert.Spec.row (b := 128)) (w5_v20 m ρ c)).trans (row_reshape _)
theorem v5_v21 : Cert.Spec.row (b := 128) (V5 m ρ c main_v21) = Cert.Spec.vec (a := 128) (m ((c : Thread nD τ).loc main_arg11)) :=
  (congrArg (Cert.Spec.row (b := 128)) (w5_v21 m ρ c)).trans (row_reshape _)

/-- Window 5: the node features, as given. -/
theorem v5_arg0 : V5 m ρ c main_arg0 = m ((c : Thread nD τ).loc main_arg0) :=
  calc W5 m ρ c (Proc.devRef .tc main_arg0)
    _ = W4 m ρ c (Proc.devRef .tc main_arg0) := ops2_arg0 _
    _ = W3 m ρ c (Proc.devRef .tc main_arg0) := W4_of_ne m ρ c main_arg0 (by decide)
    _ = W2 m ρ c (Proc.devRef .tc main_arg0) := ops1_arg0 _
    _ = W1 m ρ c (Proc.devRef .tc main_arg0) :=
        (W2_arr m ρ c 0).trans (((dat0 (V1 m ρ) c).arrAt_in 0 rfl _).trans (A_eq0 (V1 m ρ) c 0))
    _ = W0 m ρ c (Proc.devRef .tc main_arg0) := ops0_arg0 _
    _ = m ((c : Thread nD τ).loc main_arg0) := rfl

end Entry

end Cert.KernelIdeal.Host

end
-- ==== Proof.KChain5.lean ====
/-
  The last pallas_call: whatever matrix the second call's three result arrays are (the matrix, its
  column sums, the column sums of its squares), the program's result is the batch normalisation of
  that matrix with the raw-moment variance, the positive part, the residual, and the layer
  normalisation.
-/
import proofs.«119975_j1812476199538_1_alg».proof.Proof.KRegion2
import proofs.«119975_j1812476199538_1_alg».proof.Proof.KHost5
import proofs.«119975_j1812476199538_1_alg».proof.Proof.Spec

set_option maxRecDepth 16384

noncomputable section

open Idealize.ShloMosaic Idealize.ShloMosaic.TcCoe Idealize.SL.Sem
open Idealize.ShloMosaic.ValueIdx

namespace Cert.KernelIdeal.Chain

open Cert.KernelIdeal Cert.KernelIdeal.Gen Cert.Spec

variable (m : (ℓ : Loc nD τ sig) → Buf (Elt Ideal) ℓ) (ρ : Dev nD → PrngReg) (c : Dev nD)

theorem result_of (z2 : Fin 50000 → Fin 128 → EReal)
    (h7 : (dat1 (V3 m ρ) c).arrAt 7 cfg1.N = fun idx => z2 (idx 0) (idx 1))
    (h8 : (dat1 (V3 m ρ) c).arrAt 8 cfg1.N = fun idx => ∑ i : Fin 50000, z2 i (idx 1))
    (h9 : (dat1 (V3 m ρ) c).arrAt 9 cfg1.N = fun idx => ∑ i : Fin 50000, z2 i (idx 1) * z2 i (idx 1)) :
    W6 m ρ c (Proc.devRef .tc main_v40) = fun idx =>
      layerNorm (Ideal.ofBits .f32 0x43000000#32) (Ideal.ofBits .f32 0x3727C5AC#32)
        (fun i j => bnRelu (Ideal.ofBits .f32 0x3727C5AC#32) z2 (colMean (Ideal.ofBits .f32 0x47435000#32) z2) (colVarRaw (Ideal.ofBits .f32 0x47435000#32) z2)
            (vec (a := 128) (m ((c : Thread nD τ).loc main_arg8))) (vec (a := 128) (m ((c : Thread nD τ).loc main_arg9))) i j
          + mat (a := 50000) (b := 128) (m ((c : Thread nD τ).loc main_arg0)) i j)
        (vec (a := 128) (m ((c : Thread nD τ).loc main_arg10))) (vec (a := 128) (m ((c : Thread nD τ).loc main_arg11))) (idx 0) (idx 1) := by
  have e_z2 : mat (a := 50000) (b := 128) (V5 m ρ c main_v31_0) = z2 := by
    rw [Host.v5_v31_0 m ρ c, h7]; rfl
  have e_mu : row (b := 128) (V5 m ρ c main_v33) = colMean (Ideal.ofBits .f32 0x47435000#32) z2 := by
    funext j; rw [Host.v5_v33 m ρ c j, h8]; rfl
  have e_var : row (b := 128) (V5 m ρ c main_v39) = colVarRaw (Ideal.ofBits .f32 0x47435000#32) z2 := by
    funext j; rw [Host.v5_v39 m ρ c j, e_mu, h9]; rfl
  rw [show W6 m ρ c (Proc.devRef .tc main_v40) = (dat2 (V5 m ρ) c).arrAt 8 cfg2.N from W6_arr m ρ c 8]
  rw [R2.final8 (V5 m ρ) c, e_z2, e_mu, e_var, Host.v5_v18 m ρ c, Host.v5_v19 m ρ c, Host.v5_arg0 m ρ c,
    Host.v5_v20 m ρ c, Host.v5_v21 m ρ c]

end Cert.KernelIdeal.Chain

end
-- ==== Proof.RefStages.lean ====
/-
  The reference program's result, read one host operation at a time at the exact instance, is the
  layer of Spec with the centred variance.

  The reading goes stage by stage, each stage stated at explicit coordinates (row i, column j):
  the affine layer (a contraction over the shared axis plus a bias broadcast along the rows), the
  column mean (the column's sum over the 50000 rows divided by the row count; the sum's initial
  value is the zero word, which is 0), the centred second moment divided by the row count, the
  normalisation by the reciprocal square root of variance plus epsilon with scale and shift, and
  the positive part (a maximum with a broadcast zero). The same five stages are read again for the
  second affine layer. Then the node features are added back, and each row is normalised by its
  own mean and centred second moment over the 128 columns; those two row statistics are kept as
  one-column arrays, so an entry (i, j) reads them at (i, 0).

  A vector broadcast first to one row and then along all rows reads, at (i, j), the vector at j;
  a column statistic kept as a one-column array and broadcast along the columns reads, at (i, j),
  the statistic at (i, 0). The index functions composed by the imported reading lemmas are
  identified with the coordinate constructors axis by axis.

  The gather of source rows and its scatter-add by destination are not opened here: that stage
  is carried as one function `aggR` of the node features and the edge list.
-/
import proofs.«119975_j1812476199538_1_alg».proof.Defs
import proofs.«119975_j1812476199538_1_alg».proof.Proof.Gen.ReferenceIdeal.Read
import proofs.«119975_j1812476199538_1_alg».proof.Proof.Spec

noncomputable section

namespace Cert.RefStages

open Cert.ReferenceIdeal Cert.ReferenceIdeal.Gen Cert.ReferenceIdeal.Read Idealize.ShloMosaic Idealize.ShloMosaic.ValueIdx

variable (a0 : (⟨S50000x128, .f32⟩ : BufTy).Contents (Elt Ideal)) (a1 : (⟨S2x800000, .i32⟩ : BufTy).Contents (Elt Ideal))
  (a2 : (⟨S128x512, .f32⟩ : BufTy).Contents (Elt Ideal)) (a3 a4 a5 : (⟨S512, .f32⟩ : BufTy).Contents (Elt Ideal))

/-- The aggregated neighbour features: the rows of the node features at the (wrapped) source indices,
    added at the destination indices into a table of zeros. One function of the features and the edge list. -/
def aggR : (⟨S50000x128, .f32⟩ : BufTy).Contents (Elt Ideal) := val_main_v13 (F := Ideal) a0 a1

/-- The row count 50000 as the programs' literal. -/
def cN : EReal := Ideal.ofBits .f32 0x47435000#32
/-- The row length 128 as the programs' literal. -/
def cD : EReal := Ideal.ofBits .f32 0x43000000#32
/-- The stabilising constant (1e-5 rounded to single precision) as the programs' literal. -/
def eps : EReal := Ideal.ofBits .f32 0x3727C5AC#32

/-- The first affine layer, applied to the node features plus the aggregated neighbour features. -/
def Z1 : Fin 50000 → Fin 512 → EReal :=
  Spec.lin (fun i k => Spec.mat a0 i k + Spec.mat (aggR a0 a1) i k) (Spec.mat a2) (Spec.vec a3)

/-! ## The first normalised affine layer (512 columns) -/

/-- The first affine layer at (i, j): the contraction over the 128 shared coordinates plus the bias at j. -/
theorem v18_eq (i : Fin 50000) (j : Fin 512) :
    val_main_v18 (F := Ideal) a0 a1 a2 a3 (ix2 i j) = Z1 a0 a1 a2 a3 i j := by
  rw [val_main_v18_apply, val_main_v15_apply, val_main_v17_apply, val_main_v16_apply]
  have el : ∀ k : Fin 128, lidx_main_v15 (ix2 i j) k = ix2 i k := fun k =>
    funext fun a => Fin.ext (by match a with | ⟨0, _⟩ => rfl | ⟨1, _⟩ => rfl)
  have er : ∀ k : Fin 128, ridx_main_v15 (ix2 i j) k = ix2 k j := fun k =>
    funext fun a => Fin.ext (by match a with | ⟨0, _⟩ => rfl | ⟨1, _⟩ => rfl)
  have eb : idx_main_v16 (idx_main_v17 (ix2 i j)) = ix1 j :=
    funext fun a => Fin.ext (by match a with | ⟨0, _⟩ => rfl)
  simp only [el, er, eb, val_main_v14_apply, Ideal.addf_def]
  rfl

/-- The column mean at j: the sum over the rows (started from the zero word) divided by the row count. -/
theorem v21_eq (j : Fin 512) :
    val_main_v21 (F := Ideal) a0 a1 a2 a3 (ix1 j) = Spec.colMean cN (Z1 a0 a1 a2 a3) j := by
  rw [val_main_v21_apply, val_main_v19_apply, val_main_v20_apply, val_main_cst_1_apply, val_main_cst_2_apply]
  have e : ∀ k : Fin 50000, idx_main_v19 (ix1 j) k = ix2 k j := fun k =>
    funext fun a => Fin.ext (by match a with | ⟨0, _⟩ => rfl | ⟨1, _⟩ => rfl)
  simp only [e, v18_eq, Ideal.hostDivf_def, Ideal.ofBits_def, Ideal.ofBits_zero_f32, zero_add]
  rfl

/-- The deviation from the column mean at (i, j), as it enters the variance. -/
theorem v24_eq (i : Fin 50000) (j : Fin 512) :
    val_main_v24 (F := Ideal) a0 a1 a2 a3 (ix2 i j)
      = Z1 a0 a1 a2 a3 i j - Spec.colMean cN (Z1 a0 a1 a2 a3) j := by
  rw [val_main_v24_apply, val_main_v23_apply, val_main_v22_apply, v18_eq]
  have e : idx_main_v22 (idx_main_v23 (ix2 i j)) = ix1 j :=
    funext fun a => Fin.ext (by match a with | ⟨0, _⟩ => rfl)
  rw [e, v21_eq]
  rfl

/-- The deviation from the column mean at (i, j), as it enters the normalisation. -/
theorem v31_eq (i : Fin 50000) (j : Fin 512) :
    val_main_v31 (F := Ideal) a0 a1 a2 a3 (ix2 i j)
      = Z1 a0 a1 a2 a3 i j - Spec.colMean cN (Z1 a0 a1 a2 a3) j := by
  rw [val_main_v31_apply, val_main_v30_apply, val_main_v29_apply, v18_eq]
  have e : idx_main_v29 (idx_main_v30 (ix2 i j)) = ix1 j :=
    funext fun a => Fin.ext (by match a with | ⟨0, _⟩ => rfl)
  rw [e, v21_eq]
  rfl

/-- The column variance at j: the mean over the rows of the squared deviations. -/
theorem v28_eq (j : Fin 512) :
    val_main_v28 (F := Ideal) a0 a1 a2 a3 (ix1 j) = Spec.colVar cN (Z1 a0 a1 a2 a3) j := by
  rw [val_main_v28_apply, val_main_v26_apply, val_main_v27_apply, val_main_cst_3_apply, val_main_cst_4_apply]
  have e : ∀ k : Fin 50000, idx_main_v26 (ix1 j) k = ix2 k j := fun k =>
    funext fun a => Fin.ext (by match a with | ⟨0, _⟩ => rfl | ⟨1, _⟩ => rfl)
  simp only [e, val_main_v25_apply, v24_eq, Ideal.hostDivf_def, Ideal.mulf_def, Ideal.ofBits_def,
    Ideal.ofBits_zero_f32, zero_add]
  rfl

/-- The normalising factor at (i, j): the reciprocal square root of the column variance plus epsilon. -/
theorem v36_eq (i : Fin 50000) (j : Fin 512) :
    val_main_v36 (F := Ideal) a0 a1 a2 a3 (ix2 i j)
      = Ideal.rsqrt (Spec.colVar cN (Z1 a0 a1 a2 a3) j + eps) := by
  rw [val_main_v36_apply, val_main_v35_apply]
  have e : idx_main_v35 (idx_main_v36 (ix2 i j)) = ix1 j :=
    funext fun a => Fin.ext (by match a with | ⟨0, _⟩ => rfl)
  rw [e, val_main_v34_apply, val_main_v33_apply, v28_eq, val_main_v32_apply, val_main_cst_5_apply]
  rfl

/-- The first hidden layer after normalisation and the positive part. -/
def A1 : Fin 50000 → Fin 512 → EReal :=
  Spec.bnRelu eps (Z1 a0 a1 a2 a3) (Spec.colMean cN (Z1 a0 a1 a2 a3)) (Spec.colVar cN (Z1 a0 a1 a2 a3))
    (Spec.vec a4) (Spec.vec a5)

/-- The first hidden layer at (i, j): scale, shift, and the maximum with zero. -/
theorem v44_eq (i : Fin 50000) (j : Fin 512) :
    val_main_v44 (F := Ideal) a0 a1 a2 a3 a4 a5 (ix2 i j) = A1 a0 a1 a2 a3 a4 a5 i j := by
  rw [val_main_v44_apply, val_main_v43_apply, val_main_v40_apply, val_main_v37_apply, v31_eq, v36_eq,
    val_main_v39_apply, val_main_v38_apply, val_main_v42_apply, val_main_v41_apply,
    val_main_call0_v0_apply, val_main_call0_cst_apply]
  have e1 : idx_main_v38 (idx_main_v39 (ix2 i j)) = ix1 j :=
    funext fun a => Fin.ext (by match a with | ⟨0, _⟩ => rfl)
  have e2 : idx_main_v41 (idx_main_v42 (ix2 i j)) = ix1 j :=
    funext fun a => Fin.ext (by match a with | ⟨0, _⟩ => rfl)
  rw [e1, e2]
  simp only [Ideal.ofBits_def, Ideal.ofBits_zero_f32]
  rfl

variable (a6 : (⟨S512x128, .f32⟩ : BufTy).Contents (Elt Ideal)) (a7 a8 a9 a10 a11 : (⟨S128, .f32⟩ : BufTy).Contents (Elt Ideal))

/-- The second affine layer, applied to the first hidden layer. -/
def Z2 : Fin 50000 → Fin 128 → EReal :=
  Spec.lin (A1 a0 a1 a2 a3 a4 a5) (Spec.mat a6) (Spec.vec a7)

/-! ## The second normalised affine layer (128 columns) -/

/-- The second affine layer at (i, j): the contraction over the 512 hidden coordinates plus the bias at j. -/
theorem v48_eq (i : Fin 50000) (j : Fin 128) :
    val_main_v48 (F := Ideal) a0 a1 a2 a3 a4 a5 a6 a7 (ix2 i j) = Z2 a0 a1 a2 a3 a4 a5 a6 a7 i j := by
  rw [val_main_v48_apply, val_main_v45_apply, val_main_v47_apply, val_main_v46_apply]
  have el : ∀ k : Fin 512, lidx_main_v45 (ix2 i j) k = ix2 i k := fun k =>
    funext fun a => Fin.ext (by match a with | ⟨0, _⟩ => rfl | ⟨1, _⟩ => rfl)
  have er : ∀ k : Fin 512, ridx_main_v45 (ix2 i j) k = ix2 k j := fun k =>
    funext fun a => Fin.ext (by match a with | ⟨0, _⟩ => rfl | ⟨1, _⟩ => rfl)
  have eb : idx_main_v46 (idx_main_v47 (ix2 i j)) = ix1 j :=
    funext fun a => Fin.ext (by match a with | ⟨0, _⟩ => rfl)
  simp only [el, er, eb, v44_eq, Ideal.addf_def]
  rfl

/-- The column mean of the second affine layer at j. -/
theorem v51_eq (j : Fin 128) :
    val_main_v51 (F := Ideal) a0 a1 a2 a3 a4 a5 a6 a7 (ix1 j)
      = Spec.colMean cN (Z2 a0 a1 a2 a3 a4 a5 a6 a7) j := by
  rw [val_main_v51_apply, val_main_v49_apply, val_main_v50_apply, val_main_cst_6_apply, val_main_cst_7_apply]
  have e : ∀ k : Fin 50000, idx_main_v49 (ix1 j) k = ix2 k j := fun k =>
    funext fun a => Fin.ext (by match a with | ⟨0, _⟩ => rfl | ⟨1, _⟩ => rfl)
  simp only [e, v48_eq, Ideal.hostDivf_def, Ideal.ofBits_def, Ideal.ofBits_zero_f32, zero_add]
  rfl

/-- The deviation from the column mean at (i, j), as it enters the variance. -/
theorem v54_eq (i : Fin 50000) (j : Fin 128) :
    val_main_v54 (F := Ideal) a0 a1 a2 a3 a4 a5 a6 a7 (ix2 i j)
      = Z2 a0 a1 a2 a3 a4 a5 a6 a7 i j - Spec.colMean cN (Z2 a0 a1 a2 a3 a4 a5 a6 a7) j := by
  rw [val_main_v54_apply, val_main_v53_apply, val_main_v52_apply, v48_eq]
  have e : idx_main_v52 (idx_main_v53 (ix2 i j)) = ix1 j :=
    funext fun a => Fin.ext (by match a with | ⟨0, _⟩ => rfl)
  rw [e, v51_eq]
  rfl

/-- The deviation from the column mean at (i, j), as it enters the normalisation. -/
theorem v61_eq (i : Fin 50000) (j : Fin 128) :
    val_main_v61 (F := Ideal) a0 a1 a2 a3 a4 a5 a6 a7 (ix2 i j)
      = Z2 a0 a1 a2 a3 a4 a5 a6 a7 i j - Spec.colMean cN (Z2 a0 a1 a2 a3 a4 a5 a6 a7) j := by
  rw [val_main_v61_apply, val_main_v60_apply, val_main_v59_apply, v48_eq]
  have e : idx_main_v59 (idx_main_v60 (ix2 i j)) = ix1 j :=
    funext fun a => Fin.ext (by match a with | ⟨0, _⟩ => rfl)
  rw [e, v51_eq]
  rfl

/-- The column variance of the second affine layer at j. -/
theorem v58_eq (j : Fin 128) :
    val_main_v58 (F := Ideal) a0 a1 a2 a3 a4 a5 a6 a7 (ix1 j)
      = Spec.colVar cN (Z2 a0 a1 a2 a3 a4 a5 a6 a7) j := by
  rw [val_main_v58_apply, val_main_v56_apply, val_main_v57_apply, val_main_cst_8_apply, val_main_cst_9_apply]
  have e : ∀ k : Fin 50000, idx_main_v56 (ix1 j) k = ix2 k j := fun k =>
    funext fun a => Fin.ext (by match a with | ⟨0, _⟩ => rfl | ⟨1, _⟩ => rfl)
  simp only [e, val_main_v55_apply, v54_eq, Ideal.hostDivf_def, Ideal.mulf_def, Ideal.ofBits_def,
    Ideal.ofBits_zero_f32, zero_add]
  rfl

/-- The normalising factor of the second layer at (i, j). -/
theorem v66_eq (i : Fin 50000) (j : Fin 128) :
    val_main_v66 (F := Ideal) a0 a1 a2 a3 a4 a5 a6 a7 (ix2 i j)
      = Ideal.rsqrt (Spec.colVar cN (Z2 a0 a1 a2 a3 a4 a5 a6 a7) j + eps) := by
  rw [val_main_v66_apply, val_main_v65_apply]
  have e : idx_main_v65 (idx_main_v66 (ix2 i j)) = ix1 j :=
    funext fun a => Fin.ext (by match a with | ⟨0, _⟩ => rfl)
  rw [e, val_main_v64_apply, val_main_v63_apply, v58_eq, val_main_v62_apply, val_main_cst_10_apply]
  rfl

/-- The second layer after normalisation and the positive part. -/
def A2 : Fin 50000 → Fin 128 → EReal :=
  Spec.bnRelu eps (Z2 a0 a1 a2 a3 a4 a5 a6 a7) (Spec.colMean cN (Z2 a0 a1 a2 a3 a4 a5 a6 a7))
    (Spec.colVar cN (Z2 a0 a1 a2 a3 a4 a5 a6 a7)) (Spec.vec a8) (Spec.vec a9)

/-- The second layer at (i, j) after scale, shift, and the maximum with zero. -/
theorem v74_eq (i : Fin 50000) (j : Fin 128) :
    val_main_v74 (F := Ideal) a0 a1 a2 a3 a4 a5 a6 a7 a8 a9 (ix2 i j)
      = A2 a0 a1 a2 a3 a4 a5 a6 a7 a8 a9 i j := by
  rw [val_main_v74_apply, val_main_v73_apply, val_main_v70_apply, val_main_v67_apply, v61_eq, v66_eq,
    val_main_v69_apply, val_main_v68_apply, val_main_v72_apply, val_main_v71_apply,
    val_main_call1_v0_apply, val_main_call1_cst_apply]
  have e1 : idx_main_v68 (idx_main_v69 (ix2 i j)) = ix1 j :=
    funext fun a => Fin.ext (by match a with | ⟨0, _⟩ => rfl)
  have e2 : idx_main_v71 (idx_main_v72 (ix2 i j)) = ix1 j :=
    funext fun a => Fin.ext (by match a with | ⟨0, _⟩ => rfl)
  rw [e1, e2]
  simp only [Ideal.ofBits_def, Ideal.ofBits_zero_f32]
  rfl

/-- The residual sum that the layer normalisation is applied to. -/
def O : Fin 50000 → Fin 128 → EReal :=
  fun i j => A2 a0 a1 a2 a3 a4 a5 a6 a7 a8 a9 i j + Spec.mat a0 i j

/-- The residual sum at (i, j). -/
theorem v75_eq (i : Fin 50000) (j : Fin 128) :
    val_main_v75 (F := Ideal) a0 a1 a2 a3 a4 a5 a6 a7 a8 a9 (ix2 i j)
      = O a0 a1 a2 a3 a4 a5 a6 a7 a8 a9 i j := by
  rw [val_main_v75_apply, v74_eq]
  rfl

/-! ## The residual and the row-wise normalisation -/

/-- The row mean, kept as a one-column array, at (i, 0): the row's sum over the 128 columns divided by 128. -/
theorem v79_eq (i : Fin 50000) :
    val_main_v79 (F := Ideal) a0 a1 a2 a3 a4 a5 a6 a7 a8 a9 (ix2 i (0 : Fin 1))
      = Spec.rowMean cD (O a0 a1 a2 a3 a4 a5 a6 a7 a8 a9) i := by
  rw [val_main_v79_apply, val_main_v77_apply, val_main_v78_apply, val_main_cst_12_apply]
  have e0 : idx_main_v77 (ix2 i (0 : Fin 1)) = ix1 i :=
    funext fun a => Fin.ext (by match a with | ⟨0, _⟩ => rfl)
  rw [e0, val_main_v76_apply, val_main_cst_11_apply]
  have e : ∀ k : Fin 128, idx_main_v76 (ix1 i) k = ix2 i k := fun k =>
    funext fun a => Fin.ext (by match a with | ⟨0, _⟩ => rfl | ⟨1, _⟩ => rfl)
  simp only [e, v75_eq, Ideal.hostDivf_def, Ideal.ofBits_def, Ideal.ofBits_zero_f32, zero_add]
  rfl

/-- The deviation from the row mean at (i, j), as it enters the row variance. -/
theorem v81_eq (i : Fin 50000) (j : Fin 128) :
    val_main_v81 (F := Ideal) a0 a1 a2 a3 a4 a5 a6 a7 a8 a9 (ix2 i j)
      = O a0 a1 a2 a3 a4 a5 a6 a7 a8 a9 i j - Spec.rowMean cD (O a0 a1 a2 a3 a4 a5 a6 a7 a8 a9) i := by
  rw [val_main_v81_apply, val_main_v80_apply, v75_eq]
  have e : idx_main_v80 (ix2 i j) = ix2 i (0 : Fin 1) :=
    funext fun a => Fin.ext (by match a with | ⟨0, _⟩ => rfl | ⟨1, _⟩ => rfl)
  rw [e, v79_eq]
  rfl

/-- The deviation from the row mean at (i, j), as it enters the normalisation. -/
theorem v88_eq (i : Fin 50000) (j : Fin 128) :
    val_main_v88 (F := Ideal) a0 a1 a2 a3 a4 a5 a6 a7 a8 a9 (ix2 i j)
      = O a0 a1 a2 a3 a4 a5 a6 a7 a8 a9 i j - Spec.rowMean cD (O a0 a1 a2 a3 a4 a5 a6 a7 a8 a9) i := by
  rw [val_main_v88_apply, val_main_v87_apply, v75_eq]
  have e : idx_main_v87 (ix2 i j) = ix2 i (0 : Fin 1) :=
    funext fun a => Fin.ext (by match a with | ⟨0, _⟩ => rfl | ⟨1, _⟩ => rfl)
  rw [e, v79_eq]
  rfl

/-- The variance of row `i` of the residual sum: the mean of the squared deviations from the row mean. -/
def rowVar (i : Fin 50000) : EReal :=
  Ideal.div (∑ j' : Fin 128,
    (O a0 a1 a2 a3 a4 a5 a6 a7 a8 a9 i j' - Spec.rowMean cD (O a0 a1 a2 a3 a4 a5 a6 a7 a8 a9) i)
      * (O a0 a1 a2 a3 a4 a5 a6 a7 a8 a9 i j' - Spec.rowMean cD (O a0 a1 a2 a3 a4 a5 a6 a7 a8 a9) i)) cD

/-- The row variance, kept as a one-column array, at (i, 0). -/
theorem v86_eq (i : Fin 50000) :
    val_main_v86 (F := Ideal) a0 a1 a2 a3 a4 a5 a6 a7 a8 a9 (ix2 i (0 : Fin 1))
      = rowVar a0 a1 a2 a3 a4 a5 a6 a7 a8 a9 i := by
  rw [val_main_v86_apply, val_main_v84_apply, val_main_v85_apply, val_main_cst_14_apply]
  have e0 : idx_main_v84 (ix2 i (0 : Fin 1)) = ix1 i :=
    funext fun a => Fin.ext (by match a with | ⟨0, _⟩ => rfl)
  rw [e0, val_main_v83_apply, val_main_cst_13_apply]
  have e : ∀ k : Fin 128, idx_main_v83 (ix1 i) k = ix2 i k := fun k =>
    funext fun a => Fin.ext (by match a with | ⟨0, _⟩ => rfl | ⟨1, _⟩ => rfl)
  simp only [e, val_main_v82_apply, v81_eq, Ideal.hostDivf_def, Ideal.mulf_def, Ideal.ofBits_def,
    Ideal.ofBits_zero_f32, zero_add]
  rfl

/-- The row's normalising factor at (i, j): the reciprocal square root of the row variance plus epsilon. -/
theorem v92_eq (i : Fin 50000) (j : Fin 128) :
    val_main_v92 (F := Ideal) a0 a1 a2 a3 a4 a5 a6 a7 a8 a9 (ix2 i j)
      = Ideal.rsqrt (rowVar a0 a1 a2 a3 a4 a5 a6 a7 a8 a9 i + eps) := by
  rw [val_main_v92_apply]
  have e : idx_main_v92 (ix2 i j) = ix2 i (0 : Fin 1) :=
    funext fun a => Fin.ext (by match a with | ⟨0, _⟩ => rfl | ⟨1, _⟩ => rfl)
  rw [e, val_main_v91_apply, val_main_v90_apply, v86_eq, val_main_v89_apply, val_main_cst_15_apply]
  rfl

/-- The result at (i, j): the row-normalised residual sum, scaled and shifted column by column. -/
theorem v99_eq (i : Fin 50000) (j : Fin 128) :
    val_main_v99 (F := Ideal) a0 a1 a2 a3 a4 a5 a6 a7 a8 a9 a10 a11 (ix2 i j)
      = Spec.layerNorm cD eps (O a0 a1 a2 a3 a4 a5 a6 a7 a8 a9) (Spec.vec a10) (Spec.vec a11) i j := by
  rw [val_main_v99_apply, val_main_v96_apply, val_main_v93_apply, v88_eq, v92_eq,
    val_main_v95_apply, val_main_v94_apply, val_main_v98_apply, val_main_v97_apply]
  have e1 : idx_main_v94 (idx_main_v95 (ix2 i j)) = ix1 j :=
    funext fun a => Fin.ext (by match a with | ⟨0, _⟩ => rfl)
  have e2 : idx_main_v97 (idx_main_v98 (ix2 i j)) = ix1 j :=
    funext fun a => Fin.ext (by match a with | ⟨0, _⟩ => rfl)
  rw [e1, e2]
  rfl

/-- The reference program's result, entry by entry, is the layer with the centred variance applied to
    the node features, the aggregated neighbour features and the ten parameter arrays. -/
theorem result_eq :
    val_main_v99 (F := Ideal) a0 a1 a2 a3 a4 a5 a6 a7 a8 a9 a10 a11
      = fun idx => Spec.layerCentred (Ideal.ofBits .f32 0x47435000#32) (Ideal.ofBits .f32 0x43000000#32)
          (Ideal.ofBits .f32 0x3727C5AC#32) (Spec.mat a0) (Spec.mat (aggR a0 a1)) (Spec.mat a2) (Spec.vec a3)
          (Spec.vec a4) (Spec.vec a5) (Spec.mat a6) (Spec.vec a7) (Spec.vec a8) (Spec.vec a9) (Spec.vec a10)
          (Spec.vec a11) (idx 0) (idx 1) := by
  funext idx
  obtain ⟨i, j, rfl⟩ : ∃ (i : Fin 50000) (j : Fin 128), idx = ix2 i j := ⟨idx 0, idx 1, eq_ix2 idx⟩
  rw [v99_eq]
  rfl

end Cert.RefStages

end
-- ==== Proof.RefAgg.lean ====
/-
  The reference program's result as the run states it, for any launch memory: the layer of Spec with
  the centred variance, applied to the twelve argument arrays as the memory holds them, the
  aggregation being the one function of the node features and the edge list that both programs share.
-/
import proofs.«119975_j1812476199538_1_alg».proof.Proof.RefStages
import proofs.«119975_j1812476199538_1_alg».proof.Proof.Agg

noncomputable section

namespace Cert.RefStages

open Cert.ReferenceIdeal Cert.ReferenceIdeal.Gen Cert.ReferenceIdeal.Read Idealize.ShloMosaic Idealize.ShloMosaic.ValueIdx Idealize.SL.Sem

/-- The aggregation stage carried opaquely through the stage lemmas is the aggregation function shared
    with the other program's reading: the same composition of the same operations. -/
theorem aggR_eq (a0 : (⟨S50000x128, .f32⟩ : BufTy).Contents (Elt Ideal))
    (a1 : (⟨S2x800000, .i32⟩ : BufTy).Contents (Elt Ideal)) :
    aggR a0 a1 = Cert.Agg.aggR a0 a1 := rfl

/-- The composed term the reference's run states for its result buffer is, index by index, the layer
    with the centred variance applied to the argument arrays of the launch memory. -/
theorem res_eq (m : (ℓ : Loc nD τ sig) → Buf (Elt Ideal) ℓ) (c : Dev nD) :
    Cert.ReferenceIdeal.Value.res_main_v99 (F := Ideal) m c
      = fun idx => Spec.layerCentred (Ideal.ofBits .f32 0x47435000#32) (Ideal.ofBits .f32 0x43000000#32)
          (Ideal.ofBits .f32 0x3727C5AC#32)
          (Spec.mat (m ((c.tc : Thread nD τ).loc main_arg0)))
          (Spec.mat (Cert.Agg.aggR (m ((c.tc : Thread nD τ).loc main_arg0)) (m ((c.tc : Thread nD τ).loc main_arg1))))
          (Spec.mat (m ((c.tc : Thread nD τ).loc main_arg2))) (Spec.vec (m ((c.tc : Thread nD τ).loc main_arg3)))
          (Spec.vec (m ((c.tc : Thread nD τ).loc main_arg4))) (Spec.vec (m ((c.tc : Thread nD τ).loc main_arg5)))
          (Spec.mat (m ((c.tc : Thread nD τ).loc main_arg6))) (Spec.vec (m ((c.tc : Thread nD τ).loc main_arg7)))
          (Spec.vec (m ((c.tc : Thread nD τ).loc main_arg8))) (Spec.vec (m ((c.tc : Thread nD τ).loc main_arg9)))
          (Spec.vec (m ((c.tc : Thread nD τ).loc main_arg10))) (Spec.vec (m ((c.tc : Thread nD τ).loc main_arg11)))
          (idx 0) (idx 1) := by
  rw [Read.val_main_v99_eq, result_eq, aggR_eq]
  rfl

end Cert.RefStages

end
-- ==== Proof.LibReal.lean ====
/-
  Extended reals that are real numbers.
-/
import Mathlib.Data.EReal.Inv
import Mathlib.Algebra.BigOperators.Group.Finset.Basic

namespace Cert.LibReal

/-- An extended real that is (the coercion of) a real number: neither infinity. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_iff (x : EReal) : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of real numbers, computed in the extended reals, is the real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Real-valued data has a real-valued representative. -/
theorem exists_real_fun {ι : Type*} (f : ι → EReal) (h : ∀ i, IsReal (f i)) :
    ∃ g : ι → ℝ, ∀ i, f i = (g i : EReal) :=
  ⟨fun i => (h i).choose, fun i => (h i).choose_spec⟩

end Cert.LibReal
-- ==== Proof.LibScatterAddRows.lean ====
/-
  A scatter-add of rows into a table, read at an entry. The operand is a table [N, C] (or a vector [N]), the scatter
  indices a column [E, 1], the updates [E, C] (or [E]), and the dimension numbers are those of a segment sum: the row
  axis is the one inserted window axis and the one the start index names, the column axis (if any) the one window axis.
  Update row e lands on operand row p exactly when its start index idx[e, 0], read as a signed integer and NOT clamped,
  equals p; it is dropped otherwise. So on the extended reals entry (p, k) of the result is the operand's entry plus
  the sum over the update rows e with idx[e, 0] = p of the update's entry (e, k). Stated for any record with those
  dimension numbers, whatever the number of updates.
-/
import Idealize.ShloMosaic.Lib.ValueIdx
import Idealize.ShloMosaic.PureOps.Ideal

noncomputable section

open scoped BigOperators

namespace Cert.LibScatterAddRows

open Idealize.ShloMosaic Idealize.ShloMosaic.ValueIdx

/-- The start index of update row `e` on the row axis: the scatter index `idx[e, 0]` read signed. -/
theorem rows_start0 {N C E w : Nat} (d : ScatterDims ⟨2, ![N, C]⟩ ⟨2, ![E, 1]⟩ ⟨2, ![E, C]⟩)
    (h1 : d.updateWindowDims = [1]) (h3 : d.scatterDimsToOperandDims = [0]) (h4 : d.indexVectorDim = 1)
    (idx : IVec ⟨2, ![E, 1]⟩ w) (e : Fin E) (c : Fin C) :
    d.start (ix2 e c) idx 0 = (idx (ix2 e (0 : Fin 1))).toInt := by
  obtain ⟨uw, iw, sd, iv, wf⟩ := d
  dsimp only at h1 h3 h4
  subst h1 h3 h4
  unfold ScatterDims.start
  rw [dif_pos (List.mem_singleton.mpr rfl)]
  refine congrArg (fun z : (⟨2, ![E, 1]⟩ : Shape).Idx => (idx z).toInt) ?_
  funext b; refine Fin.ext ?_
  match b with
  | ⟨0, _⟩ => rfl
  | ⟨1, _⟩ => rfl

/-- The column axis is not named by the start index: the window starts at column 0. -/
theorem rows_start1 {N C E w : Nat} (d : ScatterDims ⟨2, ![N, C]⟩ ⟨2, ![E, 1]⟩ ⟨2, ![E, C]⟩)
    (h3 : d.scatterDimsToOperandDims = [0]) (idx : IVec ⟨2, ![E, 1]⟩ w) (j : (⟨2, ![E, C]⟩ : Shape).Idx) :
    d.start j idx 1 = 0 := by
  obtain ⟨uw, iw, sd, iv, wf⟩ := d
  dsimp only at h3
  subst h3
  unfold ScatterDims.start
  rw [dif_neg (show ¬ ((1 : Fin 2) ∈ ([0] : List (Fin 2))) by decide)]

/-- The row axis is inserted: the window has no extent along it. -/
theorem rows_window0 {N C E : Nat} (d : ScatterDims ⟨2, ![N, C]⟩ ⟨2, ![E, 1]⟩ ⟨2, ![E, C]⟩)
    (h2 : d.insertedWindowDims = [0]) (j : (⟨2, ![E, C]⟩ : Shape).Idx) :
    d.window j 0 = 0 := by
  obtain ⟨uw, iw, sd, iv, wf⟩ := d
  dsimp only at h2
  subst h2
  unfold ScatterDims.window
  rw [dif_neg (by simp [ScatterDims.sKept, Shape.kept])]

/-- Along the column axis the window coordinate is the update's column. -/
theorem rows_window1 {N C E : Nat} (d : ScatterDims ⟨2, ![N, C]⟩ ⟨2, ![E, 1]⟩ ⟨2, ![E, C]⟩)
    (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by simp [ScatterDims.sKept, Shape.kept])]
  rfl

/-- Update entry `(e, c)` of a row scatter lands on operand entry `(p, k)` exactly when the start index of row `e`
    is `p` and the columns agree. -/
theorem rows_resultIdx {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (p : Fin N) (k : Fin C) :
    d.resultIdx? (ix2 e c) idx = some (ix2 p k) ↔ (idx (ix2 e (0 : Fin 1))).toInt = (p.val : Int) ∧ c = k := by
  have hs0 := rows_start0 d h1 h3 h4 idx e c
  have hs1 := rows_start1 d h3 idx (ix2 e c)
  have hw0 := rows_window0 d h2 (ix2 e c)
  have hw1 := rows_window1 d h1 h2 e c
  constructor
  · intro h
    unfold ScatterDims.resultIdx? at h
    split at h
    · next hall =>
      have hv := Option.some.inj h
      have v0 : (d.start (ix2 e c) idx 0 + d.window (ix2 e c) 0).toNat = p.val := congrArg Fin.val (congrFun hv 0)
      have v1 : (d.start (ix2 e c) idx 1 + d.window (ix2 e c) 1).toNat = k.val := congrArg Fin.val (congrFun hv 1)
      have h0 := (hall 0).1
      rw [hs0, hw0] at v0 h0
      rw [hs1, hw1] at v1
      exact ⟨by omega, Fin.ext (by omega)⟩
    · exact absurd h (by simp)
  · rintro ⟨ht, rfl⟩
    unfold ScatterDims.resultIdx?
    have hall : ∀ a, 0 ≤ d.start (ix2 e c) idx a + d.window (ix2 e c) a ∧
        d.start (ix2 e c) idx a + d.window (ix2 e c) a < (⟨2, ![N, C]⟩ : Shape).size a := by
      intro a
      match a with
      | ⟨0, _⟩ =>
        have := p.isLt
        show 0 ≤ d.start (ix2 e c) idx 0 + d.window (ix2 e c) 0 ∧ d.start (ix2 e c) idx 0 + d.window (ix2 e c) 0 < (N : Int)
        rw [hs0, hw0, ht]; omega
      | ⟨1, _⟩ =>
        have := c.isLt
        show 0 ≤ d.start (ix2 e c) idx 1 + d.window (ix2 e c) 1 ∧ d.start (ix2 e c) idx 1 + d.window (ix2 e c) 1 < (C : Int)
        rw [hs1, hw1]; omega
    rw [dif_pos hall]
    congr 1; funext a; refine Fin.ext ?_
    match a with
    | ⟨0, _⟩ =>
      show (d.start (ix2 e c) idx 0 + d.window (ix2 e c) 0).toNat = p.val
      rw [hs0, hw0, ht]; omega
    | ⟨1, _⟩ =>
      show (d.start (ix2 e c) idx 1 + d.window (ix2 e c) 1).toNat = c.val
      rw [hs1, hw1]; omega

/-- A row scatter-add at entry `(p, k)`: the operand's entry plus the update entries `(e, k)` of the rows `e` whose
    start index is `p`. -/
theorem scatterAdd_rows_apply {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : (⟨2, ![N, C]⟩ : Shape).Idx → EReal) (idx : IVec ⟨2, ![E, 1]⟩ w)
    (upd : (⟨2, ![E, C]⟩ : Shape).Idx → EReal) (p : Fin N) (k : Fin C) :
    Ideal.hostScatterAdd d x idx upd (ix2 p k)
      = x (ix2 p k) + ∑ e : Fin E, if (idx (ix2 e (0 : Fin 1))).toInt = (p.val : Int) then upd (ix2 e k) else 0 := by
  unfold Ideal.hostScatterAdd
  congr 1
  rw [Finset.sum_filter, sum_idx2]
  refine Finset.sum_congr rfl fun e _ => ?_
  by_cases ht : (idx (ix2 e (0 : Fin 1))).toInt = (p.val : Int)
  · rw [if_pos ht, Finset.sum_eq_single k]
    · rw [if_pos ((rows_resultIdx d h1 h2 h3 h4 idx e k p k).mpr ⟨ht, rfl⟩)]
    · intro c _ hc
      rw [if_neg (fun h => hc ((rows_resultIdx d h1 h2 h3 h4 idx e c p k).mp h).2)]
    · intro h; exact absurd (Finset.mem_univ k) h
  · rw [if_neg ht]
    refine Finset.sum_eq_zero fun c _ => ?_
    rw [if_neg (fun h => ht ((rows_resultIdx d h1 h2 h3 h4 idx e c p k).mp h).1)]

/-! ## The same for a vector: operand [N], scatter indices [E, 1], updates [E] -/

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- Update entry `e` of a vector scatter lands on operand entry `p` exactly when its start index is `p`. -/
theorem elems_resultIdx {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (p : Fin N) :
    d.resultIdx? (ix1 e) idx = some (ix1 p) ↔ (idx (ix2 e (0 : Fin 1))).toInt = (p.val : Int) := by
  have hs0 : d.start (ix1 e) idx 0 = (idx (ix2 e (0 : Fin 1))).toInt := by
    obtain ⟨uw, iw, sd, iv, wf⟩ := d
    dsimp only at h1 h2 h3 h4
    subst h1 h2 h3 h4
    unfold ScatterDims.start
    rw [dif_pos (List.mem_singleton.mpr rfl)]
    refine congrArg (fun z : (⟨2, ![E, 1]⟩ : Shape).Idx => (idx z).toInt) ?_
    funext b; refine Fin.ext ?_
    match b with
    | ⟨0, _⟩ => rfl
    | ⟨1, _⟩ => rfl
  have hw0 : d.window (ix1 e) 0 = 0 := by
    obtain ⟨uw, iw, sd, iv, wf⟩ := d
    dsimp only at h1 h2 h3 h4
    subst h1 h2 h3 h4
    unfold ScatterDims.window
    rw [dif_neg (by simp [ScatterDims.sKept, Shape.kept])]
  constructor
  · intro h
    unfold ScatterDims.resultIdx? at h
    split at h
    · next hall =>
      have hv := Option.some.inj h
      have v0 : (d.start (ix1 e) idx 0 + d.window (ix1 e) 0).toNat = p.val := congrArg Fin.val (congrFun hv 0)
      have h0 := (hall 0).1
      rw [hs0, hw0] at v0 h0
      omega
    · exact absurd h (by simp)
  · intro ht
    unfold ScatterDims.resultIdx?
    have hall : ∀ a, 0 ≤ d.start (ix1 e) idx a + d.window (ix1 e) a ∧
        d.start (ix1 e) idx a + d.window (ix1 e) a < (⟨1, ![N]⟩ : Shape).size a := by
      intro a
      match a with
      | ⟨0, _⟩ =>
        have := p.isLt
        show 0 ≤ d.start (ix1 e) idx 0 + d.window (ix1 e) 0 ∧ d.start (ix1 e) idx 0 + d.window (ix1 e) 0 < (N : Int)
        rw [hs0, hw0, ht]; omega
    rw [dif_pos hall]
    congr 1; funext a; refine Fin.ext ?_
    match a with
    | ⟨0, _⟩ =>
      show (d.start (ix1 e) idx 0 + d.window (ix1 e) 0).toNat = p.val
      rw [hs0, hw0, ht]; omega

/-- A vector scatter-add at entry `p`: the operand's entry plus the update entries `e` whose start index is `p`. -/
theorem scatterAdd_elems_apply {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : (⟨1, ![N]⟩ : Shape).Idx → EReal) (idx : IVec ⟨2, ![E, 1]⟩ w)
    (upd : (⟨1, ![E]⟩ : Shape).Idx → EReal) (p : Fin N) :
    Ideal.hostScatterAdd d x idx upd (ix1 p)
      = x (ix1 p) + ∑ e : Fin E, if (idx (ix2 e (0 : Fin 1))).toInt = (p.val : Int) then upd (ix1 e) else 0 := by
  unfold Ideal.hostScatterAdd
  congr 1
  rw [Finset.sum_filter, sum_idx1]
  refine Finset.sum_congr rfl fun e _ => ?_
  by_cases ht : (idx (ix2 e (0 : Fin 1))).toInt = (p.val : Int)
  · rw [if_pos ht, if_pos ((elems_resultIdx d h1 h2 h3 h4 idx e p).mpr ht)]
  · rw [if_neg ht, if_neg (fun h => ht ((elems_resultIdx d h1 h2 h3 h4 idx e p).mp h))]

end Cert.LibScatterAddRows

end
-- ==== Proof.LibGatherRows.lean ====
/-
  Taking rows of a table by an index column, read at an entry. The operand is a table [N, C] (or a vector [N]), the
  start indices a column [E, 1], and the dimension numbers are those of `table[idx]`: the row axis collapsed and named by
  the one start-index component, the column axis (if any) the one offset axis. Entry (e, c) of the result is the
  table's entry (r, c) with r the start index idx[e, 0] read as a signed integer and clamped into [0, N - 1]; for a
  vector, entry e is the vector's entry r. The row r is the SAME function of idx and e in both, so taking rows
  commutes with any operation that acts row by row. Stated for any record with those dimension numbers.
-/
import Idealize.ShloMosaic.Lib.ValueIdx
import Idealize.ShloMosaic.PureOps.ShapeOps

namespace Cert.LibGatherRows

open Idealize.ShloMosaic Idealize.ShloMosaic.ValueIdx

/-- The row that start index `idx[e, 0]` names in a table of `N` rows: read signed, clamped into `[0, N - 1]`. -/
def row {N E w : Nat} (hN : 0 < N) (idx : IVec ⟨2, ![E, 1]⟩ w) (e : Fin E) : Fin N :=
  ⟨min (idx (ix2 e (0 : Fin 1))).toInt.toNat (N - 1), by omega⟩

/-- Rows of a table: result entry `(e, c)` reads the operand at `(row idx e, c)`. -/
theorem rows_operandIdx {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (row hN idx e) c := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (show ¬ ((1 : Fin 2) ∈ ([0] : List (Fin 2))) by decide)]
    simp only [Nat.add_zero, Nat.zero_add]
    unfold GatherDims.offCoord
    rw [dif_pos ((GatherDims.mem_sKept _ _).mpr ⟨(show ¬ ((1 : Fin 2) ∈ ([0] : List (Fin 2))) by decide), List.not_mem_nil⟩)]
    rfl

/-- Entries of a vector: result entry `e` reads the operand at `row idx e`. -/
theorem elems_operandIdx {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (row hN idx e) := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl

/-- The table's rows taken, at entry `(e, c)`. -/
theorem gather_rows_apply {α : Type} {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (c : Fin C) :
    Host.gather d x idx (ix2 e c) = x (ix2 (row hN idx e) c) := by
  unfold Host.gather
  rw [rows_operandIdx hN d h1 h2 h3 h4 h5 h6 h7 idx e c]

/-- The vector's entries taken, at entry `e`. -/
theorem gather_elems_apply {α : Type} {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (row hN idx e)) := by
  unfold Host.gather
  rw [elems_operandIdx hN d h1 h2 h3 h4 h5 h6 h7 idx e]

end Cert.LibGatherRows
-- ==== Proof.AggReal.lean ====
/-
  On real node features every entry of the neighbour aggregation is a real number. Read at an entry
  (p, k), the scatter-add is the zero it starts from plus the sum, over the edges whose destination
  is p, of the gathered source row's entry k; each gathered entry is an entry of the feature table
  (the source index clamped into the table), hence real, and a finite sum of reals is real.
-/
import proofs.«119975_j1812476199538_1_alg».proof.Proof.Agg
import proofs.«119975_j1812476199538_1_alg».proof.Proof.LibReal
import proofs.«119975_j1812476199538_1_alg».proof.Proof.LibScatterAddRows
import proofs.«119975_j1812476199538_1_alg».proof.Proof.LibGatherRows

noncomputable section

namespace Cert.Agg

open Idealize.ShloMosaic Cert.LibReal

/-- The scatter-add of this program's shapes at entry `(p, k)`: the operand's entry plus the updates of the
    rows whose scatter index is `p`. -/
theorem scatterAdd_at (Z : FVec Ideal Cert.ReferenceIdeal.S50000x128 .f32) (I : IVec Cert.ReferenceIdeal.S800000x1 32)
    (U : FVec Ideal Cert.ReferenceIdeal.S800000x128 .f32) (p : Fin 50000) (k : Fin 128) :
    Host.scatterAdd (F := Ideal) Cert.ReferenceIdeal.scatter_S50000x128_S800000x1_S800000x128_1_0_0_1 Z I U (ValueIdx.ix2 p k)
      = Z (ValueIdx.ix2 p k)
        + ∑ ee : Fin 800000, if (I (ValueIdx.ix2 ee (0 : Fin 1))).toInt = (p.val : Int) then U (ValueIdx.ix2 ee k) else 0 :=
  Cert.LibScatterAddRows.scatterAdd_rows_apply
    Cert.ReferenceIdeal.scatter_S50000x128_S800000x1_S800000x128_1_0_0_1 rfl rfl rfl rfl Z I U p k

/-- The gather of this program's shapes at entry `(ee, k)`: the table's entry at the row the index names. -/
theorem gather_at (x : FVec Ideal Cert.ReferenceIdeal.S50000x128 .f32) (I : IVec Cert.ReferenceIdeal.S800000x1 32)
    (ee : Fin 800000) (k : Fin 128) :
    Host.gather Cert.ReferenceIdeal.gather_S50000x128_S800000x1_S800000x128_1_0_n_n_0_1_1128 x I (ValueIdx.ix2 ee k)
      = x (ValueIdx.ix2 (Cert.LibGatherRows.row (N := 50000) (by decide) I ee) k) :=
  Cert.LibGatherRows.gather_rows_apply (by decide)
    Cert.ReferenceIdeal.gather_S50000x128_S800000x1_S800000x128_1_0_n_n_0_1_1128 rfl rfl rfl rfl rfl rfl rfl x I ee k

/-- The table of zeros the scatter-add starts from, at an entry. -/
theorem zeros_at (p : Fin 50000) (k : Fin 128) :
    (broadcastInDim Cert.ReferenceIdeal.S50000x128 ![] Cert.ReferenceIdeal.Facts₀.bcast_S_S50000x128
      (constant (F := Ideal) Cert.ReferenceIdeal.S_ .f32 0x00000000#32) : FVec Ideal Cert.ReferenceIdeal.S50000x128 .f32)
        (ValueIdx.ix2 p k) = 0 :=
  (Cert.ReferenceIdeal.Read.val_main_v11_apply (F := Ideal) (ValueIdx.ix2 p k)).trans Ideal.ofBits_zero_f32

/-- On real features the aggregation's entry `(p, k)` is real. -/
theorem aggR_real_at (x : (⟨Cert.ReferenceIdeal.S50000x128, .f32⟩ : BufTy).Contents (Elt Ideal))
    (e : (⟨Cert.ReferenceIdeal.S2x800000, .i32⟩ : BufTy).Contents (Elt Ideal))
    (hx : ∀ i, IsReal (x i)) (p : Fin 50000) (k : Fin 128) : IsReal (aggR x e (ValueIdx.ix2 p k)) := by
  unfold aggR
  rw [scatterAdd_at]
  refine IsReal.add ?_ (isReal_sum _ _ fun ee _ => ?_)
  · rw [zeros_at]; exact isReal_zero
  · split
    · rw [gather_at]; exact hx _
    · exact isReal_zero

/-- On real features every entry of the aggregation is real. -/
theorem aggR_real (x : (⟨Cert.ReferenceIdeal.S50000x128, .f32⟩ : BufTy).Contents (Elt Ideal))
    (e : (⟨Cert.ReferenceIdeal.S2x800000, .i32⟩ : BufTy).Contents (Elt Ideal))
    (hx : ∀ i, IsReal (x i)) : ∀ i, IsReal (aggR x e i) := by
  intro i
  rw [ValueIdx.eq_ix2 i]
  exact aggR_real_at x e hx _ _

/-- The same for the kernel's spelling. -/
theorem aggK_real (x : (⟨Cert.KernelIdeal.S50000x128, .f32⟩ : BufTy).Contents (Elt Ideal))
    (e : (⟨Cert.KernelIdeal.S2x800000, .i32⟩ : BufTy).Contents (Elt Ideal))
    (hx : ∀ i, IsReal (x i)) : ∀ i, IsReal (aggK x e i) := by
  intro i
  rw [aggK_eq_aggR]
  exact aggR_real x e hx i

end Cert.Agg

end
-- ==== Proof.LibMoments.lean ====
/-
  First and second moments of a finite family of real numbers, computed in the extended reals
  with the exact division and reciprocal square root.

  * Dividing a real number by a nonzero real number gives the real quotient, so a quotient of
    real data by a nonzero real number is real.
  * The reciprocal square root of a positive real number is a positive real number.
  * For real numbers z_0, ..., z_{n-1} with n > 0 and mean m = (1/n) Σ z_i, the raw second moment
    minus the squared mean equals the centred second moment,
        (1/n) Σ z_i² − m² = (1/n) Σ (z_i − m)²,
    which is a nonnegative real number; so clamping the left-hand side below at zero changes
    nothing.
-/
import proofs.«119975_j1812476199538_1_alg».proof.Proof.LibReal
import Idealize.ShloMosaic.PureOps.Ideal

namespace Cert.LibMoments

open Cert.LibReal Idealize.ShloMosaic

/-- A real number divided by a nonzero real number is the real quotient. -/
theorem div_coe_real (a c : ℝ) (hc : c ≠ 0) :
    Ideal.div (a : EReal) (c : EReal) = ((a / c : ℝ) : EReal) := by
  rw [Ideal.div_coe hc, ← EReal.coe_mul, mul_one_div]

/-- A real value divided by a nonzero real value is real. -/
theorem isReal_div {x c : EReal} (hx : IsReal x) (hc : IsReal c) (h0 : c ≠ 0) :
    IsReal (Ideal.div x c) := by
  obtain ⟨a, rfl⟩ := hx
  obtain ⟨b, rfl⟩ := hc
  have hb : b ≠ 0 := by
    intro h
    exact h0 (by rw [h, EReal.coe_zero])
  rw [div_coe_real a b hb]
  exact isReal_coe _

/-- The reciprocal square root of a positive real number is a positive real number. -/
theorem rsqrt_coe_pos (a : ℝ) (ha : 0 < a) :
    ∃ r : ℝ, 0 < r ∧ Ideal.rsqrt (a : EReal) = (r : EReal) := by
  refine ⟨(Real.sqrt a)⁻¹, inv_pos.mpr (Real.sqrt_pos.mpr ha), ?_⟩
  rw [Ideal.rsqrt_coe, if_neg (not_lt.mpr ha.le), if_neg ha.ne']

/-- Over the reals: the sum of squared deviations from the mean is the sum of squares minus
    n times the squared mean. -/
theorem sum_sq_dev {n : ℕ} (hn : 0 < n) (z : Fin n → ℝ) :
    (∑ i, (z i - (∑ i', z i') / (n : ℝ)) * (z i - (∑ i', z i') / (n : ℝ)))
      = (∑ i, z i * z i) - (n : ℝ) * ((∑ i', z i') / (n : ℝ)) * ((∑ i', z i') / (n : ℝ)) := by
  have hn' : (n : ℝ) ≠ 0 := Nat.cast_ne_zero.mpr hn.ne'
  set m : ℝ := (∑ i', z i') / (n : ℝ) with hm
  have hS : ∑ i, z i = (n : ℝ) * m := by rw [hm]; field_simp
  have hexp : ∀ i, (z i - m) * (z i - m) = z i * z i - 2 * m * z i + m * m := fun i => by ring
  rw [Finset.sum_congr rfl (fun i _ => hexp i), Finset.sum_add_distrib, Finset.sum_sub_distrib,
    ← Finset.mul_sum, Finset.sum_const, Finset.card_univ, Fintype.card_fin, nsmul_eq_mul, hS]
  ring

/-- Over the reals: the raw second moment minus the squared mean is the centred second moment. -/
theorem raw_eq_centred_real {n : ℕ} (hn : 0 < n) (z : Fin n → ℝ) :
    (∑ i, z i * z i) / (n : ℝ) - (∑ i', z i') / (n : ℝ) * ((∑ i', z i') / (n : ℝ))
      = (∑ i, (z i - (∑ i', z i') / (n : ℝ)) * (z i - (∑ i', z i') / (n : ℝ))) / (n : ℝ) := by
  have hn' : (n : ℝ) ≠ 0 := Nat.cast_ne_zero.mpr hn.ne'
  rw [sum_sq_dev hn z]
  field_simp

/-- The mean of real data, computed in the extended reals, is the real mean. -/
theorem mean_coe {n : ℕ} (hn : 0 < n) (z : Fin n → ℝ) :
    Ideal.div (∑ i, (z i : EReal)) (((n : ℕ) : ℝ) : EReal) = (((∑ i, z i) / (n : ℝ) : ℝ) : EReal) := by
  have hn' : (n : ℝ) ≠ 0 := Nat.cast_ne_zero.mpr hn.ne'
  rw [← coe_sum, div_coe_real _ _ hn']

/-- The centred second moment of real data, computed in the extended reals, is the real one. -/
theorem centred_coe_eq {n : ℕ} (hn : 0 < n) (z : Fin n → ℝ) :
    Ideal.div (∑ i, ((z i : EReal) - Ideal.div (∑ i', (z i' : EReal)) (((n : ℕ) : ℝ) : EReal))
                    * ((z i : EReal) - Ideal.div (∑ i', (z i' : EReal)) (((n : ℕ) : ℝ) : EReal)))
        (((n : ℕ) : ℝ) : EReal)
      = (((∑ i, (z i - (∑ i', z i') / (n : ℝ)) * (z i - (∑ i', z i') / (n : ℝ))) / (n : ℝ) : ℝ) : EReal) := by
  have hn' : (n : ℝ) ≠ 0 := Nat.cast_ne_zero.mpr hn.ne'
  rw [mean_coe hn z]
  have h : (∑ i, ((z i : EReal) - (((∑ i', z i') / (n : ℝ) : ℝ) : EReal))
                    * ((z i : EReal) - (((∑ i', z i') / (n : ℝ) : ℝ) : EReal)))
      = (((∑ i, (z i - (∑ i', z i') / (n : ℝ)) * (z i - (∑ i', z i') / (n : ℝ))) : ℝ) : EReal) := by
    rw [coe_sum]
    exact Finset.sum_congr rfl (fun i _ => by rw [EReal.coe_mul, EReal.coe_sub])
  rw [h, div_coe_real _ _ hn']

/-- For real data, the raw second moment minus the squared mean, clamped below at zero, equals
    the centred second moment. -/
theorem raw_eq_centred {n : ℕ} (hn : 0 < n) (z : Fin n → ℝ) :
    max (Ideal.div (∑ i, (z i : EReal) * (z i : EReal)) (((n : ℕ) : ℝ) : EReal)
          - Ideal.div (∑ i, (z i : EReal)) (((n : ℕ) : ℝ) : EReal)
            * Ideal.div (∑ i, (z i : EReal)) (((n : ℕ) : ℝ) : EReal)) 0
      = Ideal.div (∑ i, ((z i : EReal) - Ideal.div (∑ i', (z i' : EReal)) (((n : ℕ) : ℝ) : EReal))
                      * ((z i : EReal) - Ideal.div (∑ i', (z i' : EReal)) (((n : ℕ) : ℝ) : EReal)))
          (((n : ℕ) : ℝ) : EReal) := by
  have hn' : (n : ℝ) ≠ 0 := Nat.cast_ne_zero.mpr hn.ne'
  have hsq : (∑ i, (z i : EReal) * (z i : EReal)) = (((∑ i, z i * z i) : ℝ) : EReal) := by
    rw [coe_sum]
    exact Finset.sum_congr rfl (fun i _ => by rw [EReal.coe_mul])
  rw [centred_coe_eq hn z, mean_coe hn z, hsq, div_coe_real _ _ hn', ← EReal.coe_mul,
    ← EReal.coe_sub, raw_eq_centred_real hn z]
  apply max_eq_left
  rw [← EReal.coe_zero, EReal.coe_le_coe_iff]
  exact div_nonneg (Finset.sum_nonneg fun i _ => mul_self_nonneg _) (Nat.cast_nonneg n)

/-- The centred second moment of real data is a nonnegative real number. -/
theorem centred_coe {n : ℕ} (hn : 0 < n) (z : Fin n → ℝ) :
    ∃ v : ℝ, 0 ≤ v ∧
      Ideal.div (∑ i, ((z i : EReal) - Ideal.div (∑ i', (z i' : EReal)) (((n : ℕ) : ℝ) : EReal))
                      * ((z i : EReal) - Ideal.div (∑ i', (z i' : EReal)) (((n : ℕ) : ℝ) : EReal)))
          (((n : ℕ) : ℝ) : EReal) = (v : EReal) :=
  ⟨_, div_nonneg (Finset.sum_nonneg fun i _ => mul_self_nonneg _) (Nat.cast_nonneg n),
    centred_coe_eq hn z⟩

end Cert.LibMoments
-- ==== Proof.Law.lean ====
/-
  The two spellings of the column variance agree on real data, and so do the two spellings of
  the whole layer.

  For a column of real numbers the raw second moment minus the squared mean is the centred second
  moment, a nonnegative real number; the clamp at zero is then the identity. To use this at the
  second normalisation one needs its input to be real: an affine image of real data with real
  weights is real, and a batch normalisation of real data with real scale and shift is real,
  because the variance is a nonnegative real number, the variance plus a positive constant is a
  positive real number, and the reciprocal square root of a positive real number is real.
-/
import proofs.«119975_j1812476199538_1_alg».proof.Proof.Spec
import proofs.«119975_j1812476199538_1_alg».proof.Proof.LibReal
import proofs.«119975_j1812476199538_1_alg».proof.Proof.LibMoments

namespace Cert.Law

open Cert.LibReal Cert.Spec Cert.LibMoments Idealize.ShloMosaic

/-- On real data the clamped raw-moment variance is the centred variance. -/
theorem colVarRaw_eq_colVar {n M : ℕ} (hn : 0 < n) (cN : EReal)
    (hcN : cN = (((n : ℕ) : ℝ) : EReal)) (z : Fin n → Fin M → EReal)
    (hz : ∀ i j, IsReal (z i j)) : colVarRaw cN z = colVar cN z := by
  funext j
  obtain ⟨r, hr⟩ := exists_real_fun (fun i => z i j) (fun i => hz i j)
  have hr' : ∀ i, z i j = (r i : EReal) := hr
  subst hcN
  simp only [colVarRaw, colVar, colMean, hr']
  exact raw_eq_centred hn r

/-- The column mean of real data over a positive number of rows is real. -/
theorem colMean_real {n M : ℕ} (hn : 0 < n) (cN : EReal)
    (hcN : cN = (((n : ℕ) : ℝ) : EReal)) (z : Fin n → Fin M → EReal)
    (hz : ∀ i j, IsReal (z i j)) : ∀ j, IsReal (colMean cN z j) := by
  intro j
  subst hcN
  refine isReal_div (isReal_sum _ _ fun i _ => hz i j) (isReal_coe _) ?_
  rw [← EReal.coe_zero, Ne, EReal.coe_eq_coe_iff]
  exact Nat.cast_ne_zero.mpr hn.ne'

/-- The centred column variance of real data is a nonnegative real number. -/
theorem colVar_coe {n M : ℕ} (hn : 0 < n) (cN : EReal)
    (hcN : cN = (((n : ℕ) : ℝ) : EReal)) (z : Fin n → Fin M → EReal)
    (hz : ∀ i j, IsReal (z i j)) : ∀ j, ∃ v : ℝ, 0 ≤ v ∧ colVar cN z j = (v : EReal) := by
  intro j
  obtain ⟨r, hr⟩ := exists_real_fun (fun i => z i j) (fun i => hz i j)
  have hr' : ∀ i, z i j = (r i : EReal) := hr
  subst hcN
  simp only [colVar, colMean, hr']
  exact centred_coe hn r

/-- An affine image of real data under real weights and bias is real. -/
theorem lin_real {n K M : ℕ} (h : Fin n → Fin K → EReal) (W : Fin K → Fin M → EReal)
    (b : Fin M → EReal) (hh : ∀ i k, IsReal (h i k)) (hW : ∀ k j, IsReal (W k j))
    (hb : ∀ j, IsReal (b j)) : ∀ i j, IsReal (lin h W b i j) := by
  intro i j
  unfold lin
  exact (isReal_sum _ _ fun k _ => (hh i k).mul (hW k j)).add (hb j)

/-- Batch normalisation of real data by its own column mean and centred variance, with a
    positive constant added to the variance and real scale and shift, followed by the positive
    part, is real. -/
theorem bnRelu_real {n M : ℕ} (hn : 0 < n) (cN eps : EReal)
    (hcN : cN = (((n : ℕ) : ℝ) : EReal)) (e : ℝ) (he : 0 < e) (heps : eps = (e : EReal))
    (z : Fin n → Fin M → EReal) (g beta : Fin M → EReal)
    (hz : ∀ i j, IsReal (z i j)) (hg : ∀ j, IsReal (g j)) (hbeta : ∀ j, IsReal (beta j)) :
    ∀ i j, IsReal (bnRelu eps z (colMean cN z) (colVar cN z) g beta i j) := by
  intro i j
  obtain ⟨v, hv0, hv⟩ := colVar_coe hn cN hcN z hz j
  obtain ⟨s, _, hs⟩ := rsqrt_coe_pos (v + e) (add_pos_of_nonneg_of_pos hv0 he)
  unfold bnRelu
  rw [hv, heps, ← EReal.coe_add, hs]
  exact (((((hz i j).sub (colMean_real hn cN hcN z hz j)).mul (isReal_coe s)).mul (hg j)).add
    (hbeta j)).max isReal_zero

/-- On real node features, aggregated features, weights, biases and first-layer scale and shift,
    the layer with the raw-moment variance is the layer with the centred variance. -/
theorem layerRaw_eq_layerCentred {n D H : ℕ} (hn : 0 < n) (cN cD eps : EReal)
    (hcN : cN = (((n : ℕ) : ℝ) : EReal)) (e : ℝ) (he : 0 < e) (heps : eps = (e : EReal))
    (x agg : Fin n → Fin D → EReal) (W1 : Fin D → Fin H → EReal) (b1 g1 beta1 : Fin H → EReal)
    (W2 : Fin H → Fin D → EReal) (b2 g2 beta2 lg lb : Fin D → EReal)
    (hx : ∀ i k, IsReal (x i k)) (hagg : ∀ i k, IsReal (agg i k))
    (hW1 : ∀ k j, IsReal (W1 k j)) (hb1 : ∀ j, IsReal (b1 j)) (hg1 : ∀ j, IsReal (g1 j))
    (hbeta1 : ∀ j, IsReal (beta1 j)) (hW2 : ∀ k j, IsReal (W2 k j)) (hb2 : ∀ j, IsReal (b2 j)) :
    layerRaw cN cD eps x agg W1 b1 g1 beta1 W2 b2 g2 beta2 lg lb
      = layerCentred cN cD eps x agg W1 b1 g1 beta1 W2 b2 g2 beta2 lg lb := by
  have h1 : ∀ i j, IsReal (lin (fun i k => x i k + agg i k) W1 b1 i j) :=
    lin_real _ _ _ (fun i k => (hx i k).add (hagg i k)) hW1 hb1
  have e1 := colVarRaw_eq_colVar hn cN hcN _ h1
  have h2 := lin_real _ W2 b2
    (bnRelu_real hn cN eps hcN e he heps _ g1 beta1 h1 hg1 hbeta1) hW2 hb2
  have e2 := colVarRaw_eq_colVar hn cN hcN _ h2
  simp only [layerRaw, layerCentred, layer]
  rw [e1, e2]

end Cert.Law
-- ==== Proof.Consts.lean ====
/-
  The float constants both programs spell, as the extended reals their bit patterns denote: the row
  count 50000, the column count 128, and the small positive constant added to a variance before its
  inverse square root is taken.
-/
import Idealize.ShloMosaic.PureOps.Ideal

noncomputable section

namespace Cert.Consts

open Idealize.ShloMosaic

/-- The pattern of `50000.0` denotes the real `50000`. -/
theorem ofBits_rows : Ideal.ofBits .f32 0x47435000#32 = (((50000 : ℕ) : ℝ) : EReal) := by
  simp [Ideal.ofBits, Ideal.ieee, -EReal.coe_mul]; norm_num

/-- The pattern of `128.0` denotes the real `128`. -/
theorem ofBits_cols : Ideal.ofBits .f32 0x43000000#32 = (((128 : ℕ) : ℝ) : EReal) := by
  simp [Ideal.ofBits, Ideal.ieee, -EReal.coe_mul]; norm_num

/-- The pattern of the single-precision `1e-5` denotes a positive real. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The pattern of `+0.0` denotes `0`. -/
theorem ofBits_zero : Ideal.ofBits .f32 0x00000000#32 = 0 := by
  simp [Ideal.ofBits, Ideal.ieee]

end Cert.Consts

end
-- ==== Proof.Finite.lean ====
/-
  From the precondition to the data being real numbers. The precondition says of each float argument
  array that all of its entries are smaller in absolute value than plus infinity, and joins those
  statements by "and". On the extended reals an entry whose absolute value, max x (-x), is below the top
  element is neither infinity, hence a real number.
-/
import Idealize.ShloMosaic.Lib.ReduceAll
import Idealize.ShloMosaic.Lib.ValueIdx
import Idealize.ShloMosaic.Lib.Affine
import Idealize.ShloMosaic.PureOps.Ideal
import proofs.«119975_j1812476199538_1_alg».proof.Proof.LibReal
import proofs.«119975_j1812476199538_1_alg».proof.Defs
import proofs.«119975_j1812476199538_1_alg».proof.Proof.Gen.Pre_finite_inputs

noncomputable section

namespace Cert.Finite

open Idealize.ShloMosaic Cert.LibReal

/-- The rank-0 shape has one index. -/
instance : Subsingleton (⟨0, ![]⟩ : Shape).Idx := ⟨fun _ _ => funext fun d => d.elim0⟩

/-- The single-precision pattern of plus infinity denotes the top element. -/
theorem ofBits_inf : Ideal.ofBits .f32 0x7F800000#32 = ⊤ := by
  simp [Ideal.ofBits, Ideal.ieee]

/-- An extended real whose absolute value compares below plus infinity is a real number. -/
theorem isReal_of_abs_lt (x : EReal)
    (h : Ideal.cmp .olt (max x (-x)) (Ideal.ofBits .f32 0x7F800000#32) = 1#1) : IsReal x := by
  rw [ofBits_inf] at h
  unfold Ideal.cmp at h
  have hlt : max x (-x) < ⊤ := by
    by_contra hn
    simp [hn] at h
  rw [isReal_iff]
  constructor
  · intro hx; rw [hx] at hlt; simp at hlt
  · intro hx; rw [hx] at hlt; simp at hlt

/-- One array's clause of the precondition, for an array of any shape: if "every entry is below plus
    infinity in absolute value" reduces by "and" to true, every entry is a real number. -/
theorem real_of_all {s : Shape} {axes : List (Fin s.rank)} (x : FVec Ideal s .f32)
    (bc : (⟨0, ![]⟩ : Shape).BroadcastsInDim s (![] : Fin 0 → Fin s.rank))
    (red : s.ReducesTo axes ⟨0, ![]⟩) (hu : 0 < (⟨0, ![]⟩ : Shape).numel)
    (init : IVec ⟨0, ![]⟩ 1)
    (h : Host.reduce IntOp.andi
        (cmpf .olt (Host.absf x) (broadcastInDim s ![] bc (constant (F := Ideal) ⟨0, ![]⟩ .f32 0x7F800000#32)))
        init red hu ValueIdx.ix0 = 1#1) :
    ∀ i, IsReal (x i) := by
  intro i
  have e := Host.reduce_andi_all _ _ red hu ValueIdx.ix0 h i
  exact isReal_of_abs_lt (x i) e

open Cert.KernelIdeal in
/-- Under the precondition every entry of every float argument array is a real number. -/
theorem args_real (m : (ℓ : Loc Cert.KernelIdeal.nD Cert.KernelIdeal.τ Cert.KernelIdeal.sig) → Buf (Elt Ideal) ℓ)
    [Cert.Pre_finite_inputs.Facts] (h : Cert.Pre_KernelIdeal m) (c : Dev Cert.KernelIdeal.nD) :
    (∀ i, IsReal (m ((c.tc : Thread Cert.KernelIdeal.nD Cert.KernelIdeal.τ).loc main_arg0) i))
    ∧ (∀ i, IsReal (m ((c.tc : Thread Cert.KernelIdeal.nD Cert.KernelIdeal.τ).loc main_arg2) i))
    ∧ (∀ i, IsReal (m ((c.tc : Thread Cert.KernelIdeal.nD Cert.KernelIdeal.τ).loc main_arg3) i))
    ∧ (∀ i, IsReal (m ((c.tc : Thread Cert.KernelIdeal.nD Cert.KernelIdeal.τ).loc main_arg4) i))
    ∧ (∀ i, IsReal (m ((c.tc : Thread Cert.KernelIdeal.nD Cert.KernelIdeal.τ).loc main_arg5) i))
    ∧ (∀ i, IsReal (m ((c.tc : Thread Cert.KernelIdeal.nD Cert.KernelIdeal.τ).loc main_arg6) i))
    ∧ (∀ i, IsReal (m ((c.tc : Thread Cert.KernelIdeal.nD Cert.KernelIdeal.τ).loc main_arg7) i))
    ∧ (∀ i, IsReal (m ((c.tc : Thread Cert.KernelIdeal.nD Cert.KernelIdeal.τ).loc main_arg8) i))
    ∧ (∀ i, IsReal (m ((c.tc : Thread Cert.KernelIdeal.nD Cert.KernelIdeal.τ).loc main_arg9) i))
    ∧ (∀ i, IsReal (m ((c.tc : Thread Cert.KernelIdeal.nD Cert.KernelIdeal.τ).loc main_arg10) i))
    ∧ (∀ i, IsReal (m ((c.tc : Thread Cert.KernelIdeal.nD Cert.KernelIdeal.τ).loc main_arg11) i)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h0, h11⟩ := IntOp.andi_eq_one.mp h0
  obtain ⟨h0, h10⟩ := IntOp.andi_eq_one.mp h0
  obtain ⟨h0, h9⟩ := IntOp.andi_eq_one.mp h0
  obtain ⟨h0, h8⟩ := IntOp.andi_eq_one.mp h0
  obtain ⟨h0, h7⟩ := IntOp.andi_eq_one.mp h0
  obtain ⟨h0, h6⟩ := IntOp.andi_eq_one.mp h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  exact ⟨real_of_all _ _ _ _ _ h0, real_of_all _ _ _ _ _ h2, real_of_all _ _ _ _ _ h3, real_of_all _ _ _ _ _ h4,
    real_of_all _ _ _ _ _ h5, real_of_all _ _ _ _ _ h6, real_of_all _ _ _ _ _ h7, real_of_all _ _ _ _ _ h8,
    real_of_all _ _ _ _ _ h9, real_of_all _ _ _ _ _ h10, real_of_all _ _ _ _ _ h11⟩

end Cert.Finite

end
-- ==== Proof.Claims.lean ====
/-
  The claims. The word-level kernel and its idealization run, fault-free, leaving the arguments
  unchanged (the frames); the idealization rewrote nothing; and at the exact instance the kernel's
  result and the reference's are one function of arguments that agree: both are the residual GIN
  layer of the arguments, the kernel with each batch-norm variance as the raw second moment minus
  the squared mean clamped at zero, the reference with the mean squared deviation — equal because
  every input, hence every entry of both affine layers, is a real number.
-/
import proofs.«119975_j1812476199538_1_alg».proof.Defs
import proofs.«119975_j1812476199538_1_alg».proof.Proof.Gen.Kernel.Frame
import proofs.«119975_j1812476199538_1_alg».proof.Proof.Gen.KernelIdeal.Frame
import proofs.«119975_j1812476199538_1_alg».proof.Proof.Gen.ReferenceIdeal.Run
import proofs.«119975_j1812476199538_1_alg».proof.Proof.KRun
import proofs.«119975_j1812476199538_1_alg».proof.Proof.KChain3
import proofs.«119975_j1812476199538_1_alg».proof.Proof.KChain5
import proofs.«119975_j1812476199538_1_alg».proof.Proof.RefAgg
import proofs.«119975_j1812476199538_1_alg».proof.Proof.AggReal
import proofs.«119975_j1812476199538_1_alg».proof.Proof.Law
import proofs.«119975_j1812476199538_1_alg».proof.Proof.Consts
import proofs.«119975_j1812476199538_1_alg».proof.Proof.Finite

set_option maxRecDepth 16384

noncomputable section

open Idealize.ShloMosaic Idealize.ShloMosaic.TcCoe Idealize.SL.Sem
open Idealize.ShloMosaic.ValueIdx

namespace Cert.Proof.Claims

open Cert.Spec Cert.LibReal

theorem frame_k : Cert.frame_Kernel := fun m ρ _ => Cert.Kernel.Gen.frame m ρ

theorem frame_ki : Cert.frame_KernelIdeal := fun m ρ _ => Cert.KernelIdeal.Gen.frame m ρ

/-- The reference has no pallas_call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result buffer after the run: the layer of the arguments with the raw-moment variance. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W6 m ρ c (Proc.devRef .tc Cert.KernelIdeal.main_v40)
      = fun idx => layerRaw (Ideal.ofBits .f32 0x47435000#32) (Ideal.ofBits .f32 0x43000000#32) (Ideal.ofBits .f32 0x3727C5AC#32)
          (mat (a := 50000) (b := 128) (m ((c.tc : Thread Cert.KernelIdeal.nD Cert.KernelIdeal.τ).loc Cert.KernelIdeal.main_arg0))) (mat (a := 50000) (b := 128) (Cert.Agg.aggK (m ((c.tc : Thread Cert.KernelIdeal.nD Cert.KernelIdeal.τ).loc Cert.KernelIdeal.main_arg0)) (m ((c.tc : Thread Cert.KernelIdeal.nD Cert.KernelIdeal.τ).loc Cert.KernelIdeal.main_arg1))))
          (mat (a := 128) (b := 512) (m ((c.tc : Thread Cert.KernelIdeal.nD Cert.KernelIdeal.τ).loc Cert.KernelIdeal.main_arg2))) (vec (a := 512) (m ((c.tc : Thread Cert.KernelIdeal.nD Cert.KernelIdeal.τ).loc Cert.KernelIdeal.main_arg3))) (vec (a := 512) (m ((c.tc : Thread Cert.KernelIdeal.nD Cert.KernelIdeal.τ).loc Cert.KernelIdeal.main_arg4))) (vec (a := 512) (m ((c.tc : Thread Cert.KernelIdeal.nD Cert.KernelIdeal.τ).loc Cert.KernelIdeal.main_arg5)))
          (mat (a := 512) (b := 128) (m ((c.tc : Thread Cert.KernelIdeal.nD Cert.KernelIdeal.τ).loc Cert.KernelIdeal.main_arg6))) (vec (a := 128) (m ((c.tc : Thread Cert.KernelIdeal.nD Cert.KernelIdeal.τ).loc Cert.KernelIdeal.main_arg7))) (vec (a := 128) (m ((c.tc : Thread Cert.KernelIdeal.nD Cert.KernelIdeal.τ).loc Cert.KernelIdeal.main_arg8))) (vec (a := 128) (m ((c.tc : Thread Cert.KernelIdeal.nD Cert.KernelIdeal.τ).loc Cert.KernelIdeal.main_arg9)))
          (vec (a := 128) (m ((c.tc : Thread Cert.KernelIdeal.nD Cert.KernelIdeal.τ).loc Cert.KernelIdeal.main_arg10))) (vec (a := 128) (m ((c.tc : Thread Cert.KernelIdeal.nD Cert.KernelIdeal.τ).loc Cert.KernelIdeal.main_arg11))) (idx 0) (idx 1) :=
  (Cert.KernelIdeal.Chain.result_of m ρ c (Cert.KernelIdeal.Chain.z2 m c) (Cert.KernelIdeal.Chain.a1_7 m ρ c) (Cert.KernelIdeal.Chain.a1_8 m ρ c) (Cert.KernelIdeal.Chain.a1_9 m ρ c)).trans rfl

theorem algebraic : Cert.algebraic_KernelIdeal_ReferenceIdeal := by
  intro m ρ m' ρ' hpre hagree
  refine ⟨fun c => Cert.KernelIdeal.Gen.W6 m ρ c (Proc.devRef .tc Cert.KernelIdeal.main_v40), Cert.KernelIdeal.KRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v99 m' c = Cert.KernelIdeal.Gen.W6 m ρ c (Proc.devRef .tc Cert.KernelIdeal.main_v40)
  rw [Cert.RefStages.res_eq m' c, kernel_result m ρ c]
  obtain ⟨h0, h1, h2, h3, h4, h5, h6, h7, h8, h9, h10, h11⟩ := hagree c
  rw [h0, h1, h2, h3, h4, h5, h6, h7, h8, h9, h10, h11]
  obtain ⟨r0, r2, r3, r4, r5, r6, r7, -⟩ := Cert.Finite.args_real m hpre c
  obtain ⟨e, he, hE⟩ := Cert.Consts.ofBits_eps
  rw [← Cert.Agg.aggK_eq_aggR]
  funext idx
  exact (congrFun (congrFun (Cert.Law.layerRaw_eq_layerCentred (n := 50000) (by norm_num) _ _ _ Cert.Consts.ofBits_rows e he hE
    _ _ _ _ _ _ _ _ _ _ _ _
    (fun i k => r0 (ix2 i k)) (fun i k => Cert.Agg.aggK_real _ _ r0 (ix2 i k)) (fun k j => r2 (ix2 k j)) (fun j => r3 (ix1 j))
    (fun j => r4 (ix1 j)) (fun j => r5 (ix1 j)) (fun k j => r6 (ix2 k j)) (fun j => r7 (ix1 j))) (idx 0)) (idx 1)).symm

end Cert.Proof.Claims

end
-- ==== Proof.lean ====
/-
  The certificate's claim, assembled: the witnesses of the three programs' and the precondition's
  stated side conditions (the generated instances), then the three frames, the idealization's
  (empty) ledger, and the equality of the two idealized programs' results on finite inputs
  (Proof/Claims.lean and the modules under it).
-/
import proofs.«119975_j1812476199538_1_alg».proof.Defs
import proofs.«119975_j1812476199538_1_alg».proof.Proof.Gen.Kernel
import proofs.«119975_j1812476199538_1_alg».proof.Proof.Gen.KernelIdeal
import proofs.«119975_j1812476199538_1_alg».proof.Proof.Gen.ReferenceIdeal
import proofs.«119975_j1812476199538_1_alg».proof.Proof.Gen.Pre_finite_inputs
import proofs.«119975_j1812476199538_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
